-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x128 : Shape := ⟨2, ![512, 128]⟩
abbrev S512 : Shape := ⟨1, ![512]⟩
abbrev S_ : Shape := ⟨0, ![]⟩

class Facts : Prop where
  bcast_S_S512x128 : S_.BroadcastsInDim S512x128 (![] : Fin 0 → Fin S512x128.rank)
  reducesTo_S512x128_S_d0_1 : S512x128.ReducesTo [0, 1] S_
  h_S_ : 0 < S_.numel
  reducesTo_S512x128_S512_d1 : S512x128.ReducesTo [1] S512
  bcast_S_S512 : S_.BroadcastsInDim S512 (![] : Fin 0 → Fin S512.rank)
  reducesTo_S512_S_d0 : S512.ReducesTo [0] S_

variable [Facts]

def fn {F : FTy → Type} [FloatOps F] (main_arg0 : FVec F S512x128 .f32) (main_arg1 : IVec S512 32) : IVec S_ 1 :=
  let main_v0 : FVec F S512x128 .f32 := Host.absf main_arg0
  let main_cst : FVec F S_ .f32 := constant S_ .f32 0x7F800000#32
  let main_v1 : FVec F S512x128 .f32 := broadcastInDim S512x128 ![] bcast_S_S512x128 main_cst
  let main_v2 : IVec S512x128 1 := cmpf .olt main_v0 main_v1
  let main_c : IVec S_ 1 := constantI S_ 1 1#1
  let main_v3 : IVec S_ 1 := (fun x v => Host.reduce IntOp.andi x v reducesTo_S512x128_S_d0_1 h_S_) main_v2 main_c
  let main_v4 : FVec F S512x128 .f32 := mulf main_arg0 main_arg0
  let main_cst_0 : FVec F S_ .f32 := constant S_ .f32 0x00000000#32
  let main_v5 : FVec F S512 .f32 := (fun x v => Host.reduceAdd x v reducesTo_S512x128_S512_d1 h_S_) main_v4 main_cst_0
  let main_cst_1 : FVec F S_ .f32 := constant S_ .f32 0x00000000#32
  let main_v6 : FVec F S512 .f32 := broadcastInDim S512 ![] bcast_S_S512 main_cst_1
  let main_v7 : IVec S512 1 := cmpf .ogt main_v5 main_v6
  let main_c_2 : IVec S_ 1 := constantI S_ 1 1#1
  let main_v8 : IVec S_ 1 := (fun x v => Host.reduce IntOp.andi x v reducesTo_S512_S_d0 h_S_) main_v7 main_c_2
  let main_v9 : IVec S_ 1 := andi main_v3 main_v8
  main_v9
-- ==== Kernel.lean ====
abbrev S512x128 : Shape := ⟨2, ![512, 128]⟩
abbrev S512 : Shape := ⟨1, ![512]⟩
abbrev S512x512 : Shape := ⟨2, ![512, 512]⟩
abbrev S512x1 : Shape := ⟨2, ![512, 1]⟩
abbrev S128x512 : Shape := ⟨2, ![128, 512]⟩
abbrev S1x512 : Shape := ⟨2, ![1, 512]⟩
abbrev S1x1 : Shape := ⟨2, ![1, 1]⟩
abbrev S16x512 : Shape := ⟨2, ![16, 512]⟩
abbrev S16x128 : Shape := ⟨2, ![16, 128]⟩
abbrev S16x1 : Shape := ⟨2, ![16, 1]⟩
abbrev S1x128 : Shape := ⟨2, ![1, 128]⟩
abbrev S16x512x1 : Shape := ⟨3, ![16, 512, 1]⟩
abbrev S16x1x128 : Shape := ⟨3, ![16, 1, 128]⟩
abbrev S16x512x128 : Shape := ⟨3, ![16, 512, 128]⟩
abbrev S16 : Shape := ⟨1, ![16]⟩
abbrev S1 : Shape := ⟨1, ![1]⟩
abbrev S_ : Shape := ⟨0, ![]⟩

abbrev nBuf : Space → Nat
  | .hbm => 37
  | .vmem => 12
  | .smem => 0
  | _ => 0

abbrev bufTy : (tb : Table) → Fin (tcTables nBuf tb) → BufTy
  | .hbm, ⟨0, _⟩ => ⟨S512x128, .f32⟩
  | .hbm, ⟨1, _⟩ => ⟨S512, .i32⟩
  | .hbm, ⟨2, _⟩ => ⟨S512x512, .f32⟩
  | .hbm, ⟨3, _⟩ => ⟨S512x1, .i32⟩
  | .hbm, ⟨4, _⟩ => ⟨S1x512, .i32⟩
  | .hbm, ⟨5, _⟩ => ⟨S1x1, .f32⟩
  | .hbm, ⟨6, _⟩ => ⟨S512x1, .i32⟩
  | .hbm, ⟨7, _⟩ => ⟨S1x512, .i32⟩
  | .hbm, ⟨8, _⟩ => ⟨S512x512, .i32⟩
  | .hbm, ⟨9, _⟩ => ⟨S512x512, .i32⟩
  | .hbm, ⟨10, _⟩ => ⟨S512x512, .i1⟩
  | .hbm, ⟨11, _⟩ => ⟨S512x512, .i32⟩
  | .hbm, ⟨12, _⟩ => ⟨S512x512, .i32⟩
  | .hbm, ⟨13, _⟩ => ⟨S_, .i32⟩
  | .hbm, ⟨14, _⟩ => ⟨S512x512, .i32⟩
  | .hbm, ⟨15, _⟩ => ⟨S512x512, .i32⟩
  | .hbm, ⟨16, _⟩ => ⟨S512x512, .i1⟩
  | .hbm, ⟨17, _⟩ => ⟨S512x512, .i1⟩
  | .hbm, ⟨18, _⟩ => ⟨S512x512, .i1⟩
  | .hbm, ⟨19, _⟩ => ⟨S512x1, .i32⟩
  | .hbm, ⟨20, _⟩ => ⟨S1x512, .i32⟩
  | .hbm, ⟨21, _⟩ => ⟨S512x512, .i32⟩
  | .hbm, ⟨22, _⟩ => ⟨S512x512, .i32⟩
  | .hbm, ⟨23, _⟩ => ⟨S512x512, .i1⟩
  | .hbm, ⟨24, _⟩ => ⟨S512x512, .i32⟩
  | .hbm, ⟨25, _⟩ => ⟨S_, .i32⟩
  | .hbm, ⟨26, _⟩ => ⟨S512, .i32⟩
  | .hbm, ⟨27, _⟩ => ⟨S512x512, .i32⟩
  | .hbm, ⟨28, _⟩ => ⟨S_, .i32⟩
  | .hbm, ⟨29, _⟩ => ⟨S512, .i32⟩
  | .hbm, ⟨30, _⟩ => ⟨S512, .i32⟩
  | .hbm, ⟨31, _⟩ => ⟨S_, .i32⟩
  | .hbm, ⟨32, _⟩ => ⟨S_, .i32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S1, .f32⟩
  | .local _ .vmem, ⟨0, _⟩ => ⟨S512x128, .f32⟩
  | .local _ .vmem, ⟨1, _⟩ => ⟨S512x512, .f32⟩
  | .local _ .vmem, ⟨2, _⟩ => ⟨S16x512, .f32⟩
  | .local _ .vmem, ⟨3, _⟩ => ⟨S16x512, .f32⟩
  | .local _ .vmem, ⟨4, _⟩ => ⟨S16x128, .f32⟩
  | .local _ .vmem, ⟨5, _⟩ => ⟨S16x128, .f32⟩
  | .local _ .vmem, ⟨6, _⟩ => ⟨S16x1, .i32⟩
  | .local _ .vmem, ⟨7, _⟩ => ⟨S16x1, .i32⟩
  | .local _ .vmem, ⟨8, _⟩ => ⟨S1x512, .i32⟩
  | .local _ .vmem, ⟨9, _⟩ => ⟨S1x128, .i32⟩
  | .local _ .vmem, ⟨10, _⟩ => ⟨S1x128, .i32⟩
  | .local _ .vmem, ⟨11, _⟩ => ⟨S1x1, .f32⟩
  | _, _ => ⟨S512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_c : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_c_0 : Ref sig .tc := ⟨.hbm, 25, rfl⟩
abbrev main_v22 : Ref sig .tc := ⟨.hbm, 26, rfl⟩
abbrev main_v23 : Ref sig .tc := ⟨.hbm, 27, rfl⟩
abbrev main_c_1 : Ref sig .tc := ⟨.hbm, 28, rfl⟩
abbrev main_v24 : Ref sig .tc := ⟨.hbm, 29, rfl⟩
abbrev main_v25 : Ref sig .tc := ⟨.hbm, 30, rfl⟩
abbrev main_c_2 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev cc0_stg0_0 : Ref sig .tc := ⟨.vmem, 0, rfl⟩
abbrev cc0_stg1_0 : Ref sig .tc := ⟨.vmem, 1, rfl⟩
abbrev cc1_stg0_0 : Ref sig .tc := ⟨.vmem, 2, rfl⟩
abbrev cc1_stg0_1 : Ref sig .tc := ⟨.vmem, 3, rfl⟩
abbrev cc1_stg1_0 : Ref sig .tc := ⟨.vmem, 4, rfl⟩
abbrev cc1_stg1_1 : Ref sig .tc := ⟨.vmem, 5, rfl⟩
abbrev cc1_stg2_0 : Ref sig .tc := ⟨.vmem, 6, rfl⟩
abbrev cc1_stg2_1 : Ref sig .tc := ⟨.vmem, 7, rfl⟩
abbrev cc1_stg3_0 : Ref sig .tc := ⟨.vmem, 8, rfl⟩
abbrev cc1_stg4_0 : Ref sig .tc := ⟨.vmem, 9, rfl⟩
abbrev cc1_stg4_1 : Ref sig .tc := ⟨.vmem, 10, rfl⟩
abbrev cc1_stg5_0 : Ref sig .tc := ⟨.vmem, 11, rfl⟩
abbrev cc0_sem0_0 : DmaSem sig := 0
abbrev cc0_sem1_0 : DmaSem sig := 1
abbrev cc1_sem0_0 : DmaSem sig := 2
abbrev cc1_sem0_1 : DmaSem sig := 3
abbrev cc1_sem1_0 : DmaSem sig := 4
abbrev cc1_sem1_1 : DmaSem sig := 5
abbrev cc1_sem2_0 : DmaSem sig := 6
abbrev cc1_sem2_1 : DmaSem sig := 7
abbrev cc1_sem3_0 : DmaSem sig := 8
abbrev cc1_sem4_0 : DmaSem sig := 9
abbrev cc1_sem4_1 : DmaSem sig := 10
abbrev cc1_sem5_0 : DmaSem sig := 11

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S512x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨2, ![32, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S16x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S16x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S16x1 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S1x512 .i32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1x128 .i32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 1 → Memref sig .tc .vmem S1x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

class Facts₀ : Prop where
  inb_S512x128_S512x128_0_0 : ∀ a, (![0, 0] : Fin 2 → Nat) a + S512x128.size a ≤ S512x128.size a
  h_S512x128 : 0 < S512x128.numel
  reduces_S512x128_S512 : S512x128.Reduces [1] S512
  shapeCasts_S512_S512x1 : S512.ShapeCasts S512x1
  broadcasts_S512x1_S512x128 : S512x1.Broadcasts S512x128
  bitsLt_bf16_f32 : FTy.bits .bf16 < FTy.bits .f32
  transposes_S512x128_p1_0_S128x512 : S512x128.Transposes [1, 0] S128x512
  transposes_S512x1_p1_0_S1x512 : S512x1.Transposes [1, 0] S1x512
  broadcasts_S512x1_S512x512 : S512x1.Broadcasts S512x512
  broadcasts_S1x512_S512x512 : S1x512.Broadcasts S512x512
  inb_S512x512_S512x512_0_0 : ∀ a, (![0, 0] : Fin 2 → Nat) a + S512x512.size a ≤ S512x512.size a
  h_S512x512 : 0 < S512x512.numel
  shapeCasts_S512_S1x512 : S512.ShapeCasts S1x512
  inb_S1x1_S1x1_0_0 : ∀ a, (![0, 0] : Fin 2 → Nat) a + S1x1.size a ≤ S1x1.size a
  h_S1x1 : 0 < S1x1.numel
  inb_S16x1_S16x1_0_0 : ∀ a, (![0, 0] : Fin 2 → Nat) a + S16x1.size a ≤ S16x1.size a
  h_S16x1 : 0 < S16x1.numel
  shapeCasts_S16x1_S16x1 : S16x1.ShapeCasts S16x1
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S1x128_S1x128_0_0 : ∀ a, (![0, 0] : Fin 2 → Nat) a + S1x128.size a ≤ S1x128.size a
  h_S1x128 : 0 < S1x128.numel
  shapeCasts_S1x128_S1x128 : S1x128.ShapeCasts S1x128
  iota_S16x1_d0_w32 : S16x1.Iotas .tc 32 [0]
  iota_S1x512_d1_w32 : S1x512.Iotas .tc 32 [1]
  broadcasts_S16x1_S16x512 : S16x1.Broadcasts S16x512
  broadcasts_S1x512_S16x512 : S1x512.Broadcasts S16x512
  broadcasts_S16x1_S16x128 : S16x1.Broadcasts S16x128
  broadcasts_S1x128_S16x128 : S1x128.Broadcasts S16x128
  natLt_1_32 : 1 < 32
  inb_S16x512_S16x512_0_0 : ∀ a, (![0, 0] : Fin 2 → Nat) a + S16x512.size a ≤ S16x512.size a
  h_S16x512 : 0 < S16x512.numel
  shapeCasts_S16x512_S16x512 : S16x512.ShapeCasts S16x512
  inb_S16x128_S16x128_0_0 : ∀ a, (![0, 0] : Fin 2 → Nat) a + S16x128.size a ≤ S16x128.size a
  h_S16x128 : 0 < S16x128.numel
  shapeCasts_S16x128_S16x128 : S16x128.ShapeCasts S16x128
  shapeCasts_S16x512_S16x512x1 : S16x512.ShapeCasts S16x512x1
  shapeCasts_S16x128_S16x1x128 : S16x128.ShapeCasts S16x1x128
  broadcasts_S16x512x1_S16x512x128 : S16x512x1.Broadcasts S16x512x128
  broadcasts_S16x1x128_S16x512x128 : S16x1x128.Broadcasts S16x512x128
  reduces_S16x512x128_S16x512 : S16x512x128.Reduces [2] S16x512
  reduces_S16x512_S16 : S16x512.Reduces [1] S16
  shapeCasts_S16_S16x1 : S16.ShapeCasts S16x1
  reduces_S16x1_S1 : S16x1.Reduces [0] S1
  shapeCasts_S1_S1x1 : S1.ShapeCasts S1x1
  shapeCasts_S1x1_S1x1 : S1x1.ShapeCasts S1x1
  bcast_S512_S512x1_0 : S512.BroadcastsInDim S512x1 (![0] : Fin 1 → Fin S512x1.rank)
  bcast_S512_S1x512_1 : S512.BroadcastsInDim S1x512 (![1] : Fin 1 → Fin S1x512.rank)
  bcast_S512x1_S512x512_0_1 : S512x1.BroadcastsInDim S512x512 (![0, 1] : Fin 2 → Fin S512x512.rank)
  bcast_S1x512_S512x512_0_1 : S1x512.BroadcastsInDim S512x512 (![0, 1] : Fin 2 → Fin S512x512.rank)
  bcast_S_S512x512 : S_.BroadcastsInDim S512x512 (![] : Fin 0 → Fin S512x512.rank)
  reducesTo_S512x512_S512_d1 : S512x512.ReducesTo [1] S512
  h_S_ : 0 < S_.numel
  reducesTo_S512_S_d0 : S512.ReducesTo [0] S_
  shapeCasts_S1x1_S_ : S1x1.ShapeCasts S_
  shapeCasts_S_S1 : S_.ShapeCasts S1
  dot_S512x128_S128x512_S512x512_1_0_0_1_n_n_wf : DotDims.WF S512x128 S128x512 S512x512 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S512x128.size a
  hwx0_0 : ∀ i : grid0.Coords, EltTy.bits .f32 = 32 ∨ (Rect.block (s := S512x128) S512x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16x512.size a ≤ S512x512.size a
  hwx1_0 : ∀ i : grid1.Coords, EltTy.bits .f32 = 32 ∨ (Rect.block (s := S512x512) S16x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S16x128.size a ≤ S512x512.size a
  hwx1_1 : ∀ i : grid1.Coords, EltTy.bits .f32 = 32 ∨ (Rect.block (s := S512x512) S16x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S16x1.size a ≤ S512x1.size a
  hwx1_2 : ∀ i : grid1.Coords, EltTy.bits .i32 = 32 ∨ (Rect.block (s := S512x1) S16x1.size (cc1_transform_2 i) (hinb1_2 i)).WholeWords (EltTy.packing .i32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x512.size a
  hwx1_3 : ∀ i : grid1.Coords, EltTy.bits .i32 = 32 ∨ (Rect.block (s := S1x512) S1x512.size (cc1_transform_3 i) (hinb1_3 i)).WholeWords (EltTy.packing .i32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x512.size a
  hwx1_4 : ∀ i : grid1.Coords, EltTy.bits .i32 = 32 ∨ (Rect.block (s := S1x512) S1x128.size (cc1_transform_4 i) (hinb1_4 i)).WholeWords (EltTy.packing .i32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x1.size a ≤ S1x1.size a
  hwx1_5 : ∀ i : grid1.Coords, EltTy.bits .f32 = 32 ∨ (Rect.block (s := S1x1) S1x1.size (cc1_transform_5 i) (hinb1_5 i)).WholeWords (EltTy.packing .f32)

variable [Facts₀]

def dot_S512x128_S128x512_S512x512_1_0_0_1_n_n : DotDims S512x128 S128x512 S512x512 where
  lhsContracting := [1]
  rhsContracting := [0]
  lhsNonContracting := [0]
  rhsNonContracting := [1]
  lhsBatch := []
  rhsBatch := []
  wf := dot_S512x128_S128x512_S512x512_1_0_0_1_n_n_wf

abbrev win0_0 : Pipeline.Window sig grid0 :=
  Pipeline.Window.ofSpec (Memref.whole main_arg0) S512x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x512.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v0) S16x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S16x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S16x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v2) S1x128.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v3) S1x1.size cc1_transform_5 reads1_5 true true 1 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S512x128 : Shape := ⟨2, ![512, 128]⟩
abbrev S512 : Shape := ⟨1, ![512]⟩
abbrev S_ : Shape := ⟨0, ![]⟩
abbrev S512x1 : Shape := ⟨2, ![512, 1]⟩
abbrev S1x512 : Shape := ⟨2, ![1, 512]⟩
abbrev S512x512 : Shape := ⟨2, ![512, 512]⟩
abbrev S128x512 : Shape := ⟨2, ![128, 512]⟩
abbrev S512x512x1 : Shape := ⟨3, ![512, 512, 1]⟩
abbrev S512x1x512 : Shape := ⟨3, ![512, 1, 512]⟩
abbrev S512x512x512 : Shape := ⟨3, ![512, 512, 512]⟩
abbrev S1 : Shape := ⟨1, ![1]⟩

abbrev nBuf : Space → Nat
  | .hbm => 84
  | .vmem => 0
  | .smem => 0
  | _ => 0

abbrev bufTy : (tb : Table) → Fin (tcTables nBuf tb) → BufTy
  | .hbm, ⟨0, _⟩ => ⟨S512x128, .f32⟩
  | .hbm, ⟨1, _⟩ => ⟨S512, .i32⟩
  | .hbm, ⟨2, _⟩ => ⟨S_, .f32⟩
  | .hbm, ⟨3, _⟩ => ⟨S512x128, .f32⟩
  | .hbm, ⟨4, _⟩ => ⟨S512x128, .f32⟩
  | .hbm, ⟨5, _⟩ => ⟨S512x128, .f32⟩
  | .hbm, ⟨6, _⟩ => ⟨S_, .f32⟩
  | .hbm, ⟨7, _⟩ => ⟨S512, .f32⟩
  | .hbm, ⟨8, _⟩ => ⟨S512x1, .f32⟩
  | .hbm, ⟨9, _⟩ => ⟨S512x1, .f32⟩
  | .hbm, ⟨10, _⟩ => ⟨S512x128, .f32⟩
  | .hbm, ⟨11, _⟩ => ⟨S512x128, .f32⟩
  | .hbm, ⟨12, _⟩ => ⟨S512x128, .f32⟩
  | .hbm, ⟨13, _⟩ => ⟨S_, .f32⟩
  | .hbm, ⟨14, _⟩ => ⟨S512, .f32⟩
  | .hbm, ⟨15, _⟩ => ⟨S512x1, .f32⟩
  | .hbm, ⟨16, _⟩ => ⟨S1x512, .f32⟩
  | .hbm, ⟨17, _⟩ => ⟨S512x512, .f32⟩
  | .hbm, ⟨18, _⟩ => ⟨S512x512, .f32⟩
  | .hbm, ⟨19, _⟩ => ⟨S512x512, .f32⟩
  | .hbm, ⟨20, _⟩ => ⟨S128x512, .f32⟩
  | .hbm, ⟨21, _⟩ => ⟨S512x512, .f32⟩
  | .hbm, ⟨22, _⟩ => ⟨S_, .f32⟩
  | .hbm, ⟨23, _⟩ => ⟨S512x512, .f32⟩
  | .hbm, ⟨24, _⟩ => ⟨S512x512, .f32⟩
  | .hbm, ⟨25, _⟩ => ⟨S512x512, .f32⟩
  | .hbm, ⟨26, _⟩ => ⟨S_, .f32⟩
  | .hbm, ⟨27, _⟩ => ⟨S_, .f32⟩
  | .hbm, ⟨28, _⟩ => ⟨S512x512, .f32⟩
  | .hbm, ⟨29, _⟩ => ⟨S512x512, .f32⟩
  | .hbm, ⟨30, _⟩ => ⟨S512x1, .i32⟩
  | .hbm, ⟨31, _⟩ => ⟨S1x512, .i32⟩
  | .hbm, ⟨32, _⟩ => ⟨S512x512, .i32⟩
  | .hbm, ⟨33, _⟩ => ⟨S512x512, .i32⟩
  | .hbm, ⟨34, _⟩ => ⟨S512x512, .i1⟩
  | .hbm, ⟨35, _⟩ => ⟨S512x512, .i32⟩
  | .hbm, ⟨36, _⟩ => ⟨S512x512, .i32⟩
  | .hbm, ⟨37, _⟩ => ⟨S_, .i32⟩
  | .hbm, ⟨38, _⟩ => ⟨S512x512, .i32⟩
  | .hbm, ⟨39, _⟩ => ⟨S512x512, .i32⟩
  | .hbm, ⟨40, _⟩ => ⟨S512x512, .i1⟩
  | .hbm, ⟨41, _⟩ => ⟨S512x512, .i1⟩
  | .hbm, ⟨42, _⟩ => ⟨S512x512, .i1⟩
  | .hbm, ⟨43, _⟩ => ⟨S512x1, .i32⟩
  | .hbm, ⟨44, _⟩ => ⟨S1x512, .i32⟩
  | .hbm, ⟨45, _⟩ => ⟨S512x512, .i32⟩
  | .hbm, ⟨46, _⟩ => ⟨S512x512, .i32⟩
  | .hbm, ⟨47, _⟩ => ⟨S512x512, .i1⟩
  | .hbm, ⟨48, _⟩ => ⟨S512x512x1, .i1⟩
  | .hbm, ⟨49, _⟩ => ⟨S512x1x512, .i1⟩
  | .hbm, ⟨50, _⟩ => ⟨S512x512x512, .i1⟩
  | .hbm, ⟨51, _⟩ => ⟨S512x512x512, .i1⟩
  | .hbm, ⟨52, _⟩ => ⟨S512x512x512, .i1⟩
  | .hbm, ⟨53, _⟩ => ⟨S512x512x1, .f32⟩
  | .hbm, ⟨54, _⟩ => ⟨S512x1x512, .f32⟩
  | .hbm, ⟨55, _⟩ => ⟨S512x512x512, .f32⟩
  | .hbm, ⟨56, _⟩ => ⟨S512x512x512, .f32⟩
  | .hbm, ⟨57, _⟩ => ⟨S512x512x512, .f32⟩
  | .hbm, ⟨58, _⟩ => ⟨S_, .f32⟩
  | .hbm, ⟨59, _⟩ => ⟨S512x512x512, .f32⟩
  | .hbm, ⟨60, _⟩ => ⟨S512x512x512, .f32⟩
  | .hbm, ⟨61, _⟩ => ⟨S512x512x512, .f32⟩
  | .hbm, ⟨62, _⟩ => ⟨S512x512x512, .f32⟩
  | .hbm, ⟨63, _⟩ => ⟨S512x512x512, .i1⟩
  | .hbm, ⟨64, _⟩ => ⟨S512x512x512, .f32⟩
  | .hbm, ⟨65, _⟩ => ⟨S512x512x512, .f32⟩
  | .hbm, ⟨66, _⟩ => ⟨S512x512x512, .f32⟩
  | .hbm, ⟨67, _⟩ => ⟨S512x512x512, .f32⟩
  | .hbm, ⟨68, _⟩ => ⟨S512x512x512, .f32⟩
  | .hbm, ⟨69, _⟩ => ⟨S512x512x512, .f32⟩
  | .hbm, ⟨70, _⟩ => ⟨S512x512x512, .f32⟩
  | .hbm, ⟨71, _⟩ => ⟨S512x512x512, .f32⟩
  | .hbm, ⟨72, _⟩ => ⟨S512x512x512, .i32⟩
  | .hbm, ⟨73, _⟩ => ⟨S_, .i32⟩
  | .hbm, ⟨74, _⟩ => ⟨S_, .i32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S512x512x512, .f32⟩
  | .hbm, ⟨79, _⟩ => ⟨S512x512x512, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S1, .f32⟩
  | _, _ => ⟨S512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_cst : Ref sig .tc := ⟨.hbm, 6, rfl⟩
abbrev main_call0_v1 : Ref sig .tc := ⟨.hbm, 7, rfl⟩
abbrev main_call0_v2 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_call1_v0 : Ref sig .tc := ⟨.hbm, 27, rfl⟩
abbrev main_call1_v1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_call2_cst : Ref sig .tc := ⟨.hbm, 58, rfl⟩
abbrev main_call2_v0 : Ref sig .tc := ⟨.hbm, 59, rfl⟩
abbrev main_call2_v1 : Ref sig .tc := ⟨.hbm, 60, rfl⟩
abbrev main_call2_v2 : Ref sig .tc := ⟨.hbm, 61, rfl⟩
abbrev main_call2_v3 : Ref sig .tc := ⟨.hbm, 62, rfl⟩
abbrev main_call2_v4 : Ref sig .tc := ⟨.hbm, 63, rfl⟩
abbrev main_call2_v5 : Ref sig .tc := ⟨.hbm, 64, rfl⟩
abbrev main_call2_v6 : Ref sig .tc := ⟨.hbm, 65, rfl⟩
abbrev main_call2_v7 : Ref sig .tc := ⟨.hbm, 66, rfl⟩
abbrev main_call2_v8 : Ref sig .tc := ⟨.hbm, 67, rfl⟩
abbrev main_call2_v9 : Ref sig .tc := ⟨.hbm, 68, rfl⟩
abbrev main_call2_v10 : Ref sig .tc := ⟨.hbm, 69, rfl⟩
abbrev main_call2_v11 : Ref sig .tc := ⟨.hbm, 70, rfl⟩
abbrev main_v45 : Ref sig .tc := ⟨.hbm, 71, rfl⟩
abbrev main_v46 : Ref sig .tc := ⟨.hbm, 72, rfl⟩
abbrev main_c_3 : Ref sig .tc := ⟨.hbm, 73, rfl⟩
abbrev main_v47 : Ref sig .tc := ⟨.hbm, 74, rfl⟩
abbrev main_v48 : Ref sig .tc := ⟨.hbm, 75, rfl⟩
abbrev main_cst_4 : Ref sig .tc := ⟨.hbm, 76, rfl⟩
abbrev main_call3_v0 : Ref sig .tc := ⟨.hbm, 77, rfl⟩
abbrev main_call3_v1 : Ref sig .tc := ⟨.hbm, 78, rfl⟩
abbrev main_v49 : Ref sig .tc := ⟨.hbm, 79, rfl⟩
abbrev main_cst_5 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩

abbrev nD : Nat := 1
abbrev τ : Topo := Topo.v7x

variable {F : FTy → Type} [FloatOps F]

class Facts₀ : Prop where
  bcast_S_S512x128 : S_.BroadcastsInDim S512x128 (![] : Fin 0 → Fin S512x128.rank)
  reducesTo_S512x128_S512_d1 : S512x128.ReducesTo [1] S512
  h_S_ : 0 < S_.numel
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  bcast_S512_S1x512_1 : S512.BroadcastsInDim S1x512 (![1] : Fin 1 → Fin S1x512.rank)
  bcast_S512x1_S512x512_0_1 : S512x1.BroadcastsInDim S512x512 (![0, 1] : Fin 2 → Fin S512x512.rank)
  bcast_S1x512_S512x512_0_1 : S1x512.BroadcastsInDim S512x512 (![0, 1] : Fin 2 → Fin S512x512.rank)
  transposes_S512x128_S128x512_1_0 : S512x128.Transposes [1, 0] S128x512
  bcast_S_S512x512 : S_.BroadcastsInDim S512x512 (![] : Fin 0 → Fin S512x512.rank)
  bcast_S512x512_S512x512x1_0_1 : S512x512.BroadcastsInDim S512x512x1 (![0, 1] : Fin 2 → Fin S512x512x1.rank)
  bcast_S512x512_S512x1x512_0_2 : S512x512.BroadcastsInDim S512x1x512 (![0, 2] : Fin 2 → Fin S512x1x512.rank)
  bcast_S512x512x1_S512x512x512_0_1_2 : S512x512x1.BroadcastsInDim S512x512x512 (![0, 1, 2] : Fin 3 → Fin S512x512x512.rank)
  bcast_S512x1x512_S512x512x512_0_1_2 : S512x1x512.BroadcastsInDim S512x512x512 (![0, 1, 2] : Fin 3 → Fin S512x512x512.rank)
  bcast_S_S512x512x512 : S_.BroadcastsInDim S512x512x512 (![] : Fin 0 → Fin S512x512x512.rank)
  natLt_1_32 : 1 < 32
  reducesTo_S512x512x512_S_d0_1_2 : S512x512x512.ReducesTo [0, 1, 2] S_
  shapeCasts_S_S1 : S_.ShapeCasts S1
  dot_S512x128_S128x512_S512x512_1_0_0_1_n_n_wf : DotDims.WF S512x128 S128x512 S512x512 [1] [0] [0] [1] [] []

variable [Facts₀]

def dot_S512x128_S128x512_S512x512_1_0_0_1_n_n : DotDims S512x128 S128x512 S512x512 where
  lhsContracting := [1]
  rhsContracting := [0]
  lhsNonContracting := [0]
  rhsNonContracting := [1]
  lhsBatch := []
  rhsBatch := []
  wf := dot_S512x128_S128x512_S512x512_1_0_0_1_n_n_wf

class Facts : Prop extends Facts₀ where

variable [Facts]
-- ==== Proof.Region0.lean ====
/-
  The first kernel region: the pairwise squared distances.

  The region has one grid point and two windows, each a whole array: the input x : f32[512, 128] is fetched into its
  staging buffer, the body reads it, reads the output's staging buffer (a value it does not use) and stores into that
  buffer, whole, the matrix of clamped squared distances between the rescaled rows; the buffer is then written back to
  the region's result array.  Stated here, at any entry contents V of the core's buffers and at either instance of the
  float operations: the input's block, what the body leaves in the output's buffer, and that the body runs from the two
  staging buffers held whole to its return, giving them back with the input's as it was.
-/
import proofs.«181167_j73899207295321_2_alg».proof.Proof.Gen.KernelIdeal.Launch
import proofs.«181167_j73899207295321_2_alg».proof.Proof.Gen.KernelIdeal.Skeleton
import proofs.«181167_j73899207295321_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Dist

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- A window's block at the one grid point, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The rectangle of the whole input block, and of the whole output block. -/
abbrev wholeX : Rect S512x128 := Rect.unit (s := S512x128) ![0, 0] S512x128.size inb_S512x128_S512x128_0_0
abbrev wholeD : Rect S512x512 := Rect.unit (s := S512x512) ![0, 0] S512x512.size inb_S512x512_S512x512_0_0

/-- What the body leaves in the output's staging buffer: its one store, of the distance matrix computed from the input
    block, over the whole buffer. -/
def distBuf (x0 : Vec F S512x128 .f32) : Vec F S512x512 .f32 :=
  View.canon [⟨wholeD, k0_pay1 (View.ld x0 wholeX)⟩]

/-- The one store covers the buffer. -/
theorem distBuf_cover (p0 : Vec F S512x512 .f32) (y : S512x512.Idx) :
    ∃ pc ∈ ([⟨wholeD, p0⟩] : List (View.Piece (Elt F) S512x512 .f32)), y ∈ pc.1.set :=
  View.cover_of_tiled [⟨wholeD, p0⟩] S512x512.size (by rfl) y

set_option maxHeartbeats 1000000 in
/-- The body, from the input's staging buffer held whole at x0 and the output's held whole at anything, runs to its
    return with the input's as it was and the output's at the distance matrix of x0. -/
theorem body_sound (c : Dev nD) (E : Set ℕ) (i : grid0.Coords)
    (arg1 : Memref sig .tc .vmem S512x128 .f32) (harg1 : arg1.IsWhole) (arg2 : Memref sig .tc .vmem S512x512 .f32) (harg2 : arg2.IsWhole)
    (x0 : Vec F S512x128 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (distBuf x0)) -∗ K ⟨⟩))
      ⊢ wp frame (wpE (defs₀ (F := F)) Variants.none c none) E (cc0_kernel i arg1 harg1 arg2 harg2) K := by
  simp only [cc0_kernel_eq_skeleton]; unfold cc0_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (distBuf_cover _)

/-- The input's current staging buffer holds the input block at the point, for any proof data over the region's entry
    contents whose body leaves that block in place. -/
theorem before_x_of {c : Dev nD} (dat : Dat τ (Elt F) Unit ℕ (UR sig nD τ) ℕ cfg0 c) (hA : dat.A 0 = V c (Pipeline.arrRef spec0 0))
    (hafter : ∀ t, dat.after 0 t = blockAt V c 0 t) (t : Fin cfg0.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- The region's proof data on a core: the arrays as the region finds them; after the body the input's buffer at its
    block and the output's at the distance matrix of that block; nothing else of the core's state is touched, nothing
    is owed, every share is full. -/
def dat (c : Dev nD) : Dat τ (Elt F) Unit ℕ (UR sig nD τ) ℕ cfg0 c where
  A w := V c (Pipeline.arrRef spec0 w)
  after w t := match w with
    | ⟨0, _⟩ => blockAt V c 0 t
    | ⟨1, _⟩ => distBuf (blockAt V c 0 t)
  Φ _ := Pipeline.ΦA spec0 c
  q _ := fullShare
  owed _ := 0

theorem dat_A (c : Dev nD) (w : Fin cfg0.W) : (dat V c).A w = V c (Pipeline.arrRef spec0 w) := by
  dsimp only [dat]

theorem after_x (c : Dev nD) (t : Fin cfg0.N) : (dat V c).after 0 t = blockAt V c 0 t := by dsimp only [dat]
theorem after_d (c : Dev nD) (t : Fin cfg0.N) : (dat V c).after 1 t = distBuf (blockAt V c 0 t) := by dsimp only [dat]

theorem before_x (c : Dev nD) (t : Fin cfg0.N) (d) : (dat V c).before 0 t d = blockAt V c 0 t :=
  before_x_of V (dat V c) (dat_A V c 0) (after_x V c) t d

/-- What the body is called with at the point, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t))

/-- The body at the point: the input's buffer holds its block, so the body's triple applies; the rest of the core's state
    and what the core owes pass through unread. -/
theorem body_at (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_x]
  rw [show (dat V c).Φ t.succ = (dat V c).Φ t.castSucc from rfl,
    show (dat V c).owesAt () t.succ = (dat V c).owesAt () t.castSucc from rfl,
    after_x, after_d]
  iintro ⟨HΦ, Ho, ⟨%d0, H0⟩, ⟨%d1, H1⟩⟩
  iapply (body_sound c Set.univ _ _ _ _ _ (blockAt V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation of the region, at every point. -/
theorem body_obligation (c : Dev nD) : BodyObligation (dat (F := F) V c) (defs₀ (F := F)) Variants.none () Set.univ := fun t => by
  rw [bigSep_W0, bigSep_W0]
  exact body_at V c t

end Cert.KernelIdeal.Dist

end
-- ==== Proof.Region1Body.lean ====
/-
  The second kernel region's body: the masked softplus sum over one tile of triplets, added into a running total.

  The region's grid has 32 x 4 points.  At a point the body is handed six staging buffers: a 16-row band of the distance
  matrix (all 512 columns), the 16 x 128 tile of the same matrix at the point's column block, the band's 16 labels, all
  512 labels, the column block's 128 labels, and the 1 x 1 running total.  At the first point only it stores 0 into the
  total; at every point it reads the five inputs and the total and stores the total plus the tile's sum.  Stated here:
  the reset condition as a function of the grid coordinates, in closed form over the grid, and that in either case the
  body runs from the six buffers held whole to its return, the inputs' as they were and the total's with the body's
  stores written.
-/
import proofs.«181167_j73899207295321_2_alg».proof.Proof.Gen.KernelIdeal.Launch
import proofs.«181167_j73899207295321_2_alg».proof.Proof.Gen.KernelIdeal.Skeleton
import proofs.«181167_j73899207295321_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Triplet

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body resets the total exactly when this holds of the point's coordinates: both are 0. -/
abbrev resetCond (i : grid1.Coords) : Prop :=
  Scalar.cmpi .ne (Scalar.extui (Scalar.andi (Scalar.cmpi .eq (BitVec.ofNat 32 (i 0).val) 0#32) (Scalar.cmpi .eq (BitVec.ofNat 32 (i 1).val) 0#32))) 0#32 = 1#1

/-- Over the grid that is the first point and no other. -/
theorem resetCond_iff : ∀ t : Fin cfg1.N, resetCond (grid1.coords t) ↔ t.val = 0 :=
  (by decide +kernel : ∀ t : Fin grid1.N, resetCond (grid1.coords t) ↔ t.val = 0)

set_option maxHeartbeats 2000000 in
/-- At the first point: the total's buffer may hold anything; the body leaves in it the pieces its two stores write. -/
noncomputable def runReset (c : Dev nD) (i : grid1.Coords)
    (arg2 : Memref sig .tc .vmem S16x512 .f32) (harg2 : arg2.IsWhole) (arg3 : Memref sig .tc .vmem S16x128 .f32) (harg3 : arg3.IsWhole)
    (arg4 : Memref sig .tc .vmem S16x1 .i32) (harg4 : arg4.IsWhole) (arg5 : Memref sig .tc .vmem S1x512 .i32) (harg5 : arg5.IsWhole)
    (arg6 : Memref sig .tc .vmem S1x128 .i32) (harg6 : arg6.IsWhole) (arg7 : Memref sig .tc .vmem S1x1 .f32) (harg7 : arg7.IsWhole)
    (hc : resetCond i)
    (x0 : Vec F S16x512 .f32) (x1 : Vec F S16x128 .f32) (x2 : Vec F S16x1 .i32) (x3 : Vec F S1x512 .i32) (x4 : Vec F S1x128 .i32) :
    { L : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2
                ∗ owns (c : Thread nD τ) arg5 fullShare x3 ∗ owns (c : Thread nD τ) arg6 fullShare x4
                ∗ (∃ f, arg7.view.loc (c : Thread nD τ) ↦[arg7.view.set]{fullShare} arg7.view.writes (Elt F) f L)) -∗ K ⟨⟩))
          ⊢ wp frame (wpE (defs₀ (F := F)) Variants.none c none) E (cc1_kernel i arg2 harg2 arg3 harg3 arg4 harg4 arg5 harg5 arg6 harg6 arg7 harg7) K } := by
  refine ⟨?_, fun E K => ?run⟩
  case run =>
    simp only [cc1_kernel_eq_skeleton]; unfold cc1_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact H5

set_option maxHeartbeats 2000000 in
/-- At every later point: the total's buffer holds the running total `acc`; the body leaves in it the piece its one
    store writes, the running total plus the tile's sum. -/
noncomputable def runAdd (c : Dev nD) (i : grid1.Coords)
    (arg2 : Memref sig .tc .vmem S16x512 .f32) (harg2 : arg2.IsWhole) (arg3 : Memref sig .tc .vmem S16x128 .f32) (harg3 : arg3.IsWhole)
    (arg4 : Memref sig .tc .vmem S16x1 .i32) (harg4 : arg4.IsWhole) (arg5 : Memref sig .tc .vmem S1x512 .i32) (harg5 : arg5.IsWhole)
    (arg6 : Memref sig .tc .vmem S1x128 .i32) (harg6 : arg6.IsWhole) (arg7 : Memref sig .tc .vmem S1x1 .f32) (harg7 : arg7.IsWhole)
    (hc : ¬resetCond i)
    (x0 : Vec F S16x512 .f32) (x1 : Vec F S16x128 .f32) (x2 : Vec F S16x1 .i32) (x3 : Vec F S1x512 .i32) (x4 : Vec F S1x128 .i32)
    (acc : Vec F S1x1 .f32) :
    { L : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare acc
            ∗ (iprop(owns (c : Thread nD τ) arg2 fullShare x0 ∗ owns (c : Thread nD τ) arg3 fullShare x1 ∗ owns (c : Thread nD τ) arg4 fullShare x2
                ∗ owns (c : Thread nD τ) arg5 fullShare x3 ∗ owns (c : Thread nD τ) arg6 fullShare x4
                ∗ (∃ f, arg7.view.loc (c : Thread nD τ) ↦[arg7.view.set]{fullShare} arg7.view.writes (Elt F) f L)) -∗ K ⟨⟩))
          ⊢ wp frame (wpE (defs₀ (F := F)) Variants.none c none) E (cc1_kernel i arg2 harg2 arg3 harg3 arg4 harg4 arg5 harg5 arg6 harg6 arg7 harg7) K } := by
  refine ⟨?_, fun E K => ?run⟩
  case run =>
    simp only [cc1_kernel_eq_skeleton]; unfold cc1_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact H5

end Cert.KernelIdeal.Triplet

end
-- ==== Proof.Region1.lean ====
/-
  The second kernel region as a pipeline: what its buffers hold point by point, and its body obligation.

  Over the 128 grid points the five input windows are only read: each one's current staging buffer holds, at every
  point, the window's block there of the array as the region finds it, whether the pipeline fetched it at that point or
  kept it from the point before.  The sixth window is the 1 x 1 running total: it is written back only after the last
  point, so at every point but the first its buffer holds what the body left at the point before; the first point
  resets it.  The total after each point is therefore defined by recursion over the points.  The distance matrix is
  handed to two windows and the label row to two windows: each of the two holds one half of that array's share.
-/
import proofs.«181167_j73899207295321_2_alg».proof.Proof.Gen.KernelIdeal.Launch
import proofs.«181167_j73899207295321_2_alg».proof.Proof.Gen.KernelIdeal.Skeleton
import proofs.«181167_j73899207295321_2_alg».proof.Proof.Gen.KernelIdeal.Points
import proofs.«181167_j73899207295321_2_alg».proof.Proof.Region1Body
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Triplet

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- A window's block at a point, read off its array as the region finds it. -/
def blockAt (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (unfetched, the block
    index has not moved), for any proof data over the region's entry contents whose body leaves the block in place: the
    five input windows, one by one. -/
theorem before_in0_of {c : Dev nD} (dat : Dat τ (Elt F) Unit ℕ (UR sig nD τ) ℕ cfg1 c) (hA : dat.A 0 = V c (Pipeline.arrRef spec1 0))
    (hafter : ∀ t, dat.after 0 t = blockAt V c 0 t) (t : Fin cfg1.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

theorem before_in1_of {c : Dev nD} (dat : Dat τ (Elt F) Unit ℕ (UR sig nD τ) ℕ cfg1 c) (hA : dat.A 1 = V c (Pipeline.arrRef spec1 1))
    (hafter : ∀ t, dat.after 1 t = blockAt V c 1 t) (t : Fin cfg1.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

theorem before_in2_of {c : Dev nD} (dat : Dat τ (Elt F) Unit ℕ (UR sig nD τ) ℕ cfg1 c) (hA : dat.A 2 = V c (Pipeline.arrRef spec1 2))
    (hafter : ∀ t, dat.after 2 t = blockAt V c 2 t) (t : Fin cfg1.N) (d) : dat.before 2 t d = blockAt V c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)

theorem before_in3_of {c : Dev nD} (dat : Dat τ (Elt F) Unit ℕ (UR sig nD τ) ℕ cfg1 c) (hA : dat.A 3 = V c (Pipeline.arrRef spec1 3))
    (hafter : ∀ t, dat.after 3 t = blockAt V c 3 t) (t : Fin cfg1.N) (d) : dat.before 3 t d = blockAt V c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)

theorem before_in4_of {c : Dev nD} (dat : Dat τ (Elt F) Unit ℕ (UR sig nD τ) ℕ cfg1 c) (hA : dat.A 4 = V c (Pipeline.arrRef spec1 4))
    (hafter : ∀ t, dat.after 4 t = blockAt V c 4 t) (t : Fin cfg1.N) (d) : dat.before 4 t d = blockAt V c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)

/-- One staging buffer of the total's window, through which its contents are stated. -/
abbrev totalView : View sig .tc .vmem S1x1 .f32 := (Memref.whole cc1_stg5_0 : Memref sig .tc .vmem S1x1 .f32).view

/-- Each window's current staging memref at a point, as the pipeline passes it to the body, and that it is whole. -/
abbrev ms0 (t : Fin cfg1.N) : Memref sig .tc .vmem S16x512 .f32 := win1_0.stage (cfg1.slots t 0)
abbrev hs0 (t : Fin cfg1.N) : (ms0 t).IsWhole := hstage1_0 ((cfg1.slots t 0).cast nbuf1_0)
abbrev ms1 (t : Fin cfg1.N) : Memref sig .tc .vmem S16x128 .f32 := win1_1.stage (cfg1.slots t 1)
abbrev hs1 (t : Fin cfg1.N) : (ms1 t).IsWhole := hstage1_1 ((cfg1.slots t 1).cast nbuf1_1)
abbrev ms2 (t : Fin cfg1.N) : Memref sig .tc .vmem S16x1 .i32 := win1_2.stage (cfg1.slots t 2)
abbrev hs2 (t : Fin cfg1.N) : (ms2 t).IsWhole := hstage1_2 ((cfg1.slots t 2).cast nbuf1_2)
abbrev ms3 (t : Fin cfg1.N) : Memref sig .tc .vmem S1x512 .i32 := win1_3.stage (cfg1.slots t 3)
abbrev hs3 (t : Fin cfg1.N) : (ms3 t).IsWhole := hstage1_3 ((cfg1.slots t 3).cast nbuf1_3)
abbrev ms4 (t : Fin cfg1.N) : Memref sig .tc .vmem S1x128 .i32 := win1_4.stage (cfg1.slots t 4)
abbrev hs4 (t : Fin cfg1.N) : (ms4 t).IsWhole := hstage1_4 ((cfg1.slots t 4).cast nbuf1_4)
abbrev ms5 (t : Fin cfg1.N) : Memref sig .tc .vmem S1x1 .f32 := win1_5.stage (cfg1.slots t 5)
abbrev hs5 (t : Fin cfg1.N) : (ms5 t).IsWhole := hstage1_5 ((cfg1.slots t 5).cast nbuf1_5)

/-- The total's buffer after the first point: the reset case's pieces read back. -/
def afterReset (c : Dev nD) (t : Fin cfg1.N) (hc : resetCond (grid1.coords t))
    (x0 : Vec F S16x512 .f32) (x1 : Vec F S16x128 .f32) (x2 : Vec F S16x1 .i32) (x3 : Vec F S1x512 .i32) (x4 : Vec F S1x128 .i32) : Vec F S1x1 .f32 :=
  totalView.read (Elt F) (totalView.writes (Elt F) totalView.junk
    (runReset c (grid1.coords t) (ms0 t) (hs0 t) (ms1 t) (hs1 t) (ms2 t) (hs2 t) (ms3 t) (hs3 t) (ms4 t) (hs4 t) (ms5 t) (hs5 t) hc x0 x1 x2 x3 x4).1)

/-- The total's buffer after a later point, from the running total `acc`: the adding case's piece read back. -/
def afterAdd (c : Dev nD) (t : Fin cfg1.N) (hc : ¬resetCond (grid1.coords t))
    (x0 : Vec F S16x512 .f32) (x1 : Vec F S16x128 .f32) (x2 : Vec F S16x1 .i32) (x3 : Vec F S1x512 .i32) (x4 : Vec F S1x128 .i32)
    (acc : Vec F S1x1 .f32) : Vec F S1x1 .f32 :=
  totalView.read (Elt F) (totalView.writes (Elt F) totalView.junk
    (runAdd c (grid1.coords t) (ms0 t) (hs0 t) (ms1 t) (hs1 t) (ms2 t) (hs2 t) (ms3 t) (hs3 t) (ms4 t) (hs4 t) (ms5 t) (hs5 t) hc x0 x1 x2 x3 x4 acc).1)

/-- In either case the stores cover the 1 x 1 buffer. -/
theorem reset_cover (c : Dev nD) (t : Fin cfg1.N) (hc : resetCond (grid1.coords t))
    (x0 : Vec F S16x512 .f32) (x1 : Vec F S16x128 .f32) (x2 : Vec F S16x1 .i32) (x3 : Vec F S1x512 .i32) (x4 : Vec F S1x128 .i32) (y : S1x1.Idx) :
    ∃ pc ∈ (runReset c (grid1.coords t) (ms0 t) (hs0 t) (ms1 t) (hs1 t) (ms2 t) (hs2 t) (ms3 t) (hs3 t) (ms4 t) (hs4 t) (ms5 t) (hs5 t) hc x0 x1 x2 x3 x4).1, y ∈ pc.1.set :=
  View.cover_of_tiledL _ S1x1.size (by sl_kernel_rfl) y

theorem add_cover (c : Dev nD) (t : Fin cfg1.N) (hc : ¬resetCond (grid1.coords t))
    (x0 : Vec F S16x512 .f32) (x1 : Vec F S16x128 .f32) (x2 : Vec F S16x1 .i32) (x3 : Vec F S1x512 .i32) (x4 : Vec F S1x128 .i32)
    (acc : Vec F S1x1 .f32) (y : S1x1.Idx) :
    ∃ pc ∈ (runAdd c (grid1.coords t) (ms0 t) (hs0 t) (ms1 t) (hs1 t) (ms2 t) (hs2 t) (ms3 t) (hs3 t) (ms4 t) (hs4 t) (ms5 t) (hs5 t) hc x0 x1 x2 x3 x4 acc).1, y ∈ pc.1.set :=
  View.cover_of_tiledL _ S1x1.size (by sl_kernel_rfl) y

/-- The running total after each point: reset and first tile at point 0, then each point's tile added to what the point
    before left. -/
def totalAt (c : Dev nD) : (n : ℕ) → n < cfg1.N → Vec F S1x1 .f32
  | 0, hn => afterReset c ⟨0, hn⟩ ((resetCond_iff ⟨0, hn⟩).mpr rfl)
      (blockAt V c 0 ⟨0, hn⟩) (blockAt V c 1 ⟨0, hn⟩) (blockAt V c 2 ⟨0, hn⟩) (blockAt V c 3 ⟨0, hn⟩) (blockAt V c 4 ⟨0, hn⟩)
  | n + 1, hn => afterAdd c ⟨n + 1, hn⟩ (fun h => Nat.succ_ne_zero n ((resetCond_iff ⟨n + 1, hn⟩).mp h))
      (blockAt V c 0 ⟨n + 1, hn⟩) (blockAt V c 1 ⟨n + 1, hn⟩) (blockAt V c 2 ⟨n + 1, hn⟩) (blockAt V c 3 ⟨n + 1, hn⟩) (blockAt V c 4 ⟨n + 1, hn⟩)
      (totalAt c n (Nat.lt_of_succ_lt hn))

/-- The running total at the first point: the reset case. -/
theorem totalAt_first (c : Dev nD) (t : Fin cfg1.N) (h0 : t.val = 0) :
    totalAt V c t.val t.isLt = afterReset c t ((resetCond_iff t).mpr h0)
      (blockAt V c 0 t) (blockAt V c 1 t) (blockAt V c 2 t) (blockAt V c 3 t) (blockAt V c 4 t) := by
  obtain ⟨n, hn⟩ := t
  cases n with
  | zero => exact rfl
  | succ n => exact absurd h0 (Nat.succ_ne_zero n)

/-- The running total at a later point: the adding case over what the point before left. -/
theorem totalAt_later (c : Dev nD) (t : Fin cfg1.N) (h0 : ¬t.val = 0) :
    totalAt V c t.val t.isLt = afterAdd c t (fun h => h0 ((resetCond_iff t).mp h))
      (blockAt V c 0 t) (blockAt V c 1 t) (blockAt V c 2 t) (blockAt V c 3 t) (blockAt V c 4 t)
      (totalAt V c (t.val - 1) (Nat.lt_of_le_of_lt (Nat.sub_le _ _) t.isLt)) := by
  obtain ⟨n, hn⟩ := t
  cases n with
  | zero => exact absurd rfl h0
  | succ n => exact rfl

/-- The region's proof data on a core: the arrays as the region finds them; after the body each input's buffer at its
    block and the total's at the running total; the rest of the core's state untouched; nothing owed.  The distance
    matrix is the array of windows 0 and 1 and the label row that of windows 3 and 4: each pair splits its array's
    share in two halves; the label column and the total are each one window's, whole. -/
def dat (c : Dev nD) : Dat τ (Elt F) Unit ℕ (UR sig nD τ) ℕ cfg1 c where
  A w := V c (Pipeline.arrRef spec1 w)
  after w t := match w with
    | ⟨0, _⟩ => blockAt V c 0 t
    | ⟨1, _⟩ => blockAt V c 1 t
    | ⟨2, _⟩ => blockAt V c 2 t
    | ⟨3, _⟩ => blockAt V c 3 t
    | ⟨4, _⟩ => blockAt V c 4 t
    | ⟨5, _⟩ => totalAt V c t.val t.isLt
  Φ _ := Pipeline.ΦA spec1 c
  q w := match w with
    | ⟨0, _⟩ => fullShare.left
    | ⟨1, _⟩ => fullShare.right
    | ⟨3, _⟩ => fullShare.left
    | ⟨4, _⟩ => fullShare.right
    | _ => fullShare
  owed _ := 0

theorem dat_A (c : Dev nD) (w : Fin cfg1.W) : (dat V c).A w = V c (Pipeline.arrRef spec1 w) := by
  dsimp only [dat]

theorem after0 (c : Dev nD) (t : Fin cfg1.N) : (dat V c).after 0 t = blockAt V c 0 t := by dsimp only [dat]
theorem after1 (c : Dev nD) (t : Fin cfg1.N) : (dat V c).after 1 t = blockAt V c 1 t := by dsimp only [dat]
theorem after2 (c : Dev nD) (t : Fin cfg1.N) : (dat V c).after 2 t = blockAt V c 2 t := by dsimp only [dat]
theorem after3 (c : Dev nD) (t : Fin cfg1.N) : (dat V c).after 3 t = blockAt V c 3 t := by dsimp only [dat]
theorem after4 (c : Dev nD) (t : Fin cfg1.N) : (dat V c).after 4 t = blockAt V c 4 t := by dsimp only [dat]
theorem after5 (c : Dev nD) (t : Fin cfg1.N) : (dat V c).after 5 t = totalAt V c t.val t.isLt := by dsimp only [dat]

theorem before0 (c : Dev nD) (t : Fin cfg1.N) (d) : (dat V c).before 0 t d = blockAt V c 0 t :=
  before_in0_of V (dat V c) (dat_A V c 0) (after0 V c) t d
theorem before1 (c : Dev nD) (t : Fin cfg1.N) (d) : (dat V c).before 1 t d = blockAt V c 1 t :=
  before_in1_of V (dat V c) (dat_A V c 1) (after1 V c) t d
theorem before2 (c : Dev nD) (t : Fin cfg1.N) (d) : (dat V c).before 2 t d = blockAt V c 2 t :=
  before_in2_of V (dat V c) (dat_A V c 2) (after2 V c) t d
theorem before3 (c : Dev nD) (t : Fin cfg1.N) (d) : (dat V c).before 3 t d = blockAt V c 3 t :=
  before_in3_of V (dat V c) (dat_A V c 3) (after3 V c) t d
theorem before4 (c : Dev nD) (t : Fin cfg1.N) (d) : (dat V c).before 4 t d = blockAt V c 4 t :=
  before_in4_of V (dat V c) (dat_A V c 4) (after4 V c) t d

/-- At every point but the first the total's buffer holds what the body left at the point before: the buffer is written
    back only after the last point, so never between two points. -/
theorem before5_later (c : Dev nD) (t : Fin cfg1.N) (h0 : ¬t.val = 0) (d) :
    (dat V c).before 5 t d = totalAt V c (t.val - 1) (Nat.lt_of_le_of_lt (Nat.sub_le _ _) t.isLt) := by
  have hN : t.val < 128 := lt_of_lt_of_eq t.isLt (show cfg1.N = 128 from N_1)
  rw [Dat.before_out_kept _ 5 rfl t h0 (Bool.eq_false_iff.mpr fun h => by have := (flush1_5 _).mp h; dsimp only at this; omega)
    (fun _ => rfl) (fun _ _ => rfl)]
  dsimp only [dat]

/-- What the body is called with at a point, the windows one by one, -/
def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d)))

/-- and what it returns. -/
def bodyPost (c : Dev nD) (t : Fin cfg1.N) : sProp 𝕄 :=
  iprop((dat V c).Φ t.succ ∗ (dat V c).owesAt () t.succ
    ∗ owns (c : Thread nD τ) (ms0 t) fullShare ((dat V c).after 0 t)
    ∗ owns (c : Thread nD τ) (ms1 t) fullShare ((dat V c).after 1 t)
    ∗ owns (c : Thread nD τ) (ms2 t) fullShare ((dat V c).after 2 t)
    ∗ owns (c : Thread nD τ) (ms3 t) fullShare ((dat V c).after 3 t)
    ∗ owns (c : Thread nD τ) (ms4 t) fullShare ((dat V c).after 4 t)
    ∗ owns (c : Thread nD τ) (ms5 t) fullShare ((dat V c).after 5 t))

set_option maxHeartbeats 1600000 in
/-- The body at any point: the inputs' buffers hold their blocks; the point is the first or not; at a later point the
    total's buffer holds what the point before left; so that case's run applies; the rest of the core's state and what
    the core owes pass through unread. -/
theorem body_at (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0, before1, before2, before3, before4]
  rw [show (dat V c).Φ t.succ = (dat V c).Φ t.castSucc from rfl,
    show (dat V c).owesAt () t.succ = (dat V c).owesAt () t.castSucc from rfl,
    after0, after1, after2, after3, after4, after5]
  by_cases h0 : t.val = 0
  · rw [totalAt_first V c t h0]
    unfold afterReset
    iintro ⟨HΦ, Ho, ⟨%d0, H0⟩, ⟨%d1, H1⟩, ⟨%d2, H2⟩, ⟨%d3, H3⟩, ⟨%d4, H4⟩, ⟨%d5, H5⟩⟩
    iapply ((runReset c (grid1.coords t) _ _ _ _ _ _ _ _ _ _ _ _ ((resetCond_iff t).mpr h0)
      (blockAt V c 0 t) (blockAt V c 1 t) (blockAt V c 2 t) (blockAt V c 3 t) (blockAt V c 4 t)).2 Set.univ _)
    isplitl [H0]; · iexact H0
    isplitl [H1]; · iexact H1
    isplitl [H2]; · iexact H2
    isplitl [H3]; · iexact H3
    isplitl [H4]; · iexact H4
    isplitl [H5]; · iexists _; iexact H5
    iintro ⟨H0, H1, H2, H3, H4, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (reset_cover c t _ _ _ _ _ _)
  · rw [totalAt_later V c t h0]
    simp only [before5_later V c t h0]
    unfold afterAdd
    iintro ⟨HΦ, Ho, ⟨%d0, H0⟩, ⟨%d1, H1⟩, ⟨%d2, H2⟩, ⟨%d3, H3⟩, ⟨%d4, H4⟩, ⟨%d5, H5⟩⟩
    iapply ((runAdd c (grid1.coords t) _ _ _ _ _ _ _ _ _ _ _ _ (fun h => h0 ((resetCond_iff t).mp h))
      (blockAt V c 0 t) (blockAt V c 1 t) (blockAt V c 2 t) (blockAt V c 3 t) (blockAt V c 4 t) _).2 Set.univ _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, H4, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (add_cover c t _ _ _ _ _ _ _)

/-- The body obligation of the region, at every point. -/
theorem body_obligation (c : Dev nD) : BodyObligation (dat (F := F) V c) (defs₀ (F := F)) Variants.none () Set.univ := fun t => by
  rw [bigSep_W1, bigSep_W1]
  exact body_at V c t

end Cert.KernelIdeal.Triplet

end
-- ==== Proof.Region1Shares.lean ====
/-
  The second kernel region's arrays and their shares.

  The region's six windows stand on four arrays: the distance matrix (windows 0 and 1), the label column (window 2), the
  label row (windows 3 and 4) and the running total (window 5).  Holding the four buffers whole, each at the full share,
  is the same as holding the six windows' arrays at their shares: the matrix's full share is its left half for window 0
  beside its right half for window 1, and the label row's likewise for windows 3 and 4.
-/
import proofs.«181167_j73899207295321_2_alg».proof.Proof.Gen.KernelIdeal.Launch
import proofs.«181167_j73899207295321_2_alg».proof.Proof.Gen.KernelIdeal.Skeleton
import proofs.«181167_j73899207295321_2_alg».proof.Proof.Gen.KernelIdeal.Points
import proofs.«181167_j73899207295321_2_alg».proof.Proof.Region1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Triplet

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The region's four distinct arrays, conjoined one by one. -/
theorem bigSep_arrays {M : Type} [URA M] (Φ : Ref sig .tc → sProp M) :
    bigSep (Finset.univ.image (Pipeline.arrRef spec1)) Φ = iprop(Φ main_v0 ∗ Φ main_v1 ∗ Φ main_v2 ∗ Φ main_v3) :=
  bigSep_eq_bigSepL_of_eq [main_v0, main_v1, main_v2, main_v3] (by decide) (by decide) Φ

/-- Holding the four buffers whole is holding the six windows' arrays at their shares, and conversely. -/
theorem arrays_deal (c : Dev nD) (G : (b : Ref sig .tc) → Buf (Elt F) ((c : Thread nD τ).loc b)) :
    (Pipeline.arrBufs spec1 c G : sProp 𝕄) ⊣⊢ (dat V c).arrays fun w => G (Pipeline.arrRef spec1 w) := by
  unfold Pipeline.arrBufs Dat.arrays
  rw [bigSep_arrays, bigSep_W1]
  simp only [View.set_whole]
  rw [show (dat V c).share 0 = fullShare.left from rfl, show (dat V c).share 1 = fullShare.right from rfl,
    show (dat V c).share 2 = fullShare from rfl, show (dat V c).share 3 = fullShare.left from rfl,
    show (dat V c).share 4 = fullShare.right from rfl, show (dat V c).share 5 = fullShare from rfl]
  refine ⟨?_, ?_⟩
  · iintro ⟨H0, H1, H2, H3⟩
    ihave H0' := (pointsTo_share (q := fullShare) (q₁ := fullShare.left) (q₂ := fullShare.right) (by rw [PosShare.left_op_right]; exact Part.mem_some _)).1 $$ H0
    icases H0' with ⟨H0L, H0R⟩
    ihave H2' := (pointsTo_share (q := fullShare) (q₁ := fullShare.left) (q₂ := fullShare.right) (by rw [PosShare.left_op_right]; exact Part.mem_some _)).1 $$ H2
    icases H2' with ⟨H2L, H2R⟩
    isplitl [H0L]; · iexact H0L
    isplitl [H0R]; · iexact H0R
    isplitl [H1]; · iexact H1
    isplitl [H2L]; · iexact H2L
    isplitl [H2R]; · iexact H2R
    iexact H3
  · iintro ⟨H0L, H0R, H1, H2L, H2R, H3⟩
    isplitl [H0L H0R]
    · iapply (pointsTo_share (q := fullShare) (q₁ := fullShare.left) (q₂ := fullShare.right) (by rw [PosShare.left_op_right]; exact Part.mem_some _)).2; isplitl [H0L] <;> iassumption
    isplitl [H1]; · iexact H1
    isplitl [H2L H2R]
    · iapply (pointsTo_share (q := fullShare) (q₁ := fullShare.left) (q₂ := fullShare.right) (by rw [PosShare.left_op_right]; exact Part.mem_some _)).2; isplitl [H2L] <;> iassumption
    iexact H3

/-- ENTRY: a core's unscoped buffers at contents `G` are the region's arrays, window by window at their shares, at the
    contents read off `G`, beside the unscoped buffers that are no array of the region. -/
theorem arrays_of_unscopedBufs (c : Dev nD) (G : (b : Ref sig .tc) → Buf (Elt F) ((c : Thread nD τ).loc b)) :
    (unscopedBufs c G : sProp 𝕄) ⊢ iprop((dat V c).arrays (fun w => G (Pipeline.arrRef spec1 w)) ∗ Pipeline.unscopedRest spec1 c G) := by
  rw [Pipeline.unscopedBufs_split₀ cfgs 1 winFacts₀1.arr_unscoped c G]
  exact sep_mono (arrays_deal V c G).1 .rfl

/-- EXIT: the region's arrays at the contents read off `G'` and the other unscoped buffers at `G` are the core's
    unscoped buffers at `G'`, when `G'` agrees with `G` off the region's arrays. -/
theorem unscopedBufs_of_arrays (c : Dev nD) (G G' : (b : Ref sig .tc) → Buf (Elt F) ((c : Thread nD τ).loc b))
    (hrest : ∀ b, b ∉ Finset.univ.image (Pipeline.arrRef spec1) → G' b = G b) :
    iprop((dat V c).arrays (fun w => G' (Pipeline.arrRef spec1 w)) ∗ Pipeline.unscopedRest spec1 c G) ⊢ (unscopedBufs c G' : sProp 𝕄) := by
  rw [Pipeline.unscopedBufs_split₀ cfgs 1 winFacts₀1.arr_unscoped c G']
  refine sep_mono (arrays_deal V c G').2 (Entails.of_eq ?_)
  unfold Pipeline.unscopedRest
  exact bigSep_congr fun b hb => by rw [hrest b (Finset.mem_sdiff.mp hb).2]

end Cert.KernelIdeal.Triplet

end
-- ==== Proof.Run.lean ====
/-
  The whole program: the first region, two reshapes of the labels, the second region, the host tail.

  The core's unscoped buffers are followed from the launch to the return: as launched; after the first region, the
  distance matrix's array at what that region writes back; after the reshapes; after the second region, the total's
  array at what it writes back (its input arrays are never written); after the host tail.  Each region is entered from
  every unscoped buffer at the contents before it and left at the contents after it, its arrays taken out of those
  buffers and put back.  Every weakly fair execution ends with every unscoped buffer at the last contents; the argument
  arrays are never written, so they end as launched.
-/
import proofs.«181167_j73899207295321_2_alg».proof.Proof.Gen.KernelIdeal.Launch
import proofs.«181167_j73899207295321_2_alg».proof.Proof.Gen.KernelIdeal.Skeleton
import proofs.«181167_j73899207295321_2_alg».proof.Proof.Gen.KernelIdeal.Points
import proofs.«181167_j73899207295321_2_alg».proof.Proof.Gen.KernelIdeal.Regions
import proofs.«181167_j73899207295321_2_alg».proof.Proof.Region0
import proofs.«181167_j73899207295321_2_alg».proof.Proof.Region1Shares
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Whole

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the segments -/

/-- As launched. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- After the first region: its arrays at what the pipeline leaves, every other buffer as entered. -/
def W1 (c : Dev nD) : Valuation τ sig (Elt F) :=
  Pipeline.withArrays spec0 c (W0 m ρ c) fun w => (Dist.dat (V0 m ρ) c).arrAt w cfg0.N
theorem W1_arr (c : Dev nD) (w : Fin cfg0.W) :
    W1 m ρ c (Proc.devRef .tc (Pipeline.arrRef spec0 w)) = (Dist.dat (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem exit0_arr (c : Dev nD) (w : Fin cfg0.W) : (Dist.dat (V0 m ρ) c).arrAt w cfg0.N = V1 m ρ c (Pipeline.arrRef spec0 w) :=
  (W1_arr m ρ c w).symm
theorem exit0_rest (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the two reshapes of the labels. -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b
/-- After the second region: the total's array at what the pipeline leaves, every other buffer as entered. -/
def W3 (c : Dev nD) : Valuation τ sig (Elt F) :=
  Function.update (W2 m ρ c) (Proc.devRef .tc main_v3) ((Triplet.dat (V2 m ρ) c).arrAt 5 cfg1.N)
abbrev V3 : (c : Dev nD) → (b : Ref sig .tc) → Buf (Elt F) ((c : Thread nD τ).loc b) := fun c b => W3 m ρ c b
theorem W3_total (c : Dev nD) : W3 m ρ c (Proc.devRef .tc main_v3) = (Triplet.dat (V2 m ρ) c).arrAt 5 cfg1.N := by
  unfold W3; exact Function.update_self ..
theorem W3_of_ne (c : Dev nD) (b : Ref sig .tc) (hb : b ≠ main_v3) : W3 m ρ c (Proc.devRef .tc b) = W2 m ρ c (Proc.devRef .tc b) := by
  unfold W3; exact Function.update_of_ne (StableHlo.devRef_ne_of_ne hb) ..
theorem exit1_rest (c : Dev nD) : ∀ b, b ∉ Finset.univ.image (Pipeline.arrRef spec1) → V3 m ρ c b = V2 m ρ c b :=
  fun b hb => W3_of_ne m ρ c b fun e => hb (Finset.mem_image.mpr ⟨5, Finset.mem_univ _, e.symm⟩)
/-- At the second region's exit each window's array holds what the pipeline leaves: an input's array its entry contents,
    the total's what is written back. -/
theorem exit1_arr (c : Dev nD) : (fun w => V3 m ρ c (Pipeline.arrRef spec1 w)) = fun w => (Triplet.dat (V2 m ρ) c).arrAt w cfg1.N := by
  funext w
  match w with
  | ⟨0, _⟩ => exact (W3_of_ne m ρ c main_v0 (by decide)).trans (((Triplet.dat (V2 m ρ) c).arrAt_in 0 rfl _).trans (Triplet.dat_A (V2 m ρ) c 0)).symm
  | ⟨1, _⟩ => exact (W3_of_ne m ρ c main_v0 (by decide)).trans (((Triplet.dat (V2 m ρ) c).arrAt_in 1 rfl _).trans (Triplet.dat_A (V2 m ρ) c 1)).symm
  | ⟨2, _⟩ => exact (W3_of_ne m ρ c main_v1 (by decide)).trans (((Triplet.dat (V2 m ρ) c).arrAt_in 2 rfl _).trans (Triplet.dat_A (V2 m ρ) c 2)).symm
  | ⟨3, _⟩ => exact (W3_of_ne m ρ c main_v2 (by decide)).trans (((Triplet.dat (V2 m ρ) c).arrAt_in 3 rfl _).trans (Triplet.dat_A (V2 m ρ) c 3)).symm
  | ⟨4, _⟩ => exact (W3_of_ne m ρ c main_v2 (by decide)).trans (((Triplet.dat (V2 m ρ) c).arrAt_in 4 rfl _).trans (Triplet.dat_A (V2 m ρ) c 4)).symm
  | ⟨5, _⟩ => exact W3_total m ρ c
/-- After the host tail. -/
abbrev W4 : Dev nD → Valuation τ sig (Elt F) := fun c => StableHlo.after hostOps2 (W3 m ρ c)

/-! ## The proof data family and the thread state -/

/-- No pipeline has a prefetched table. -/
abbrev adm : (p : Fin 2) → (pcfgs (F := F) p).Adm := fun p => (cfgs p).toPCfg_adm
/-- Each region's proof data at its entry contents. -/
def pdats : (p : Fin 2) → (c : Dev nD) → Dat τ (Elt F) Unit ℕ (UR sig nD τ) ℕ (Pipeline.pin (pcfgs (F := F)) adm p) c
  | ⟨0, _⟩ => fun c => Dist.dat (V0 m ρ) c
  | ⟨1, _⟩ => fun c => Triplet.dat (V2 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A stretch of host operations as a segment over every unscoped buffer from given contents. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last contents, the generator register at
    some state. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- The first region: entered from every unscoped buffer as launched, left with the distance matrix's array written. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Dist.body_obligation (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (exit0_arr m ρ c) (exit0_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from every unscoped buffer after the reshapes, left with the total's array written.  Its
    windows share arrays, so its arrays are taken out of the unscoped buffers and put back by the dealing of shares. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (Triplet.body_obligation (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Triplet.arrays_of_unscopedBufs (V2 m ρ) c (V2 m ρ c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m ρ 1 c).arrays ((pdats m ρ 1 c).arrAt · cfg1.N)
        ∗ Pipeline.unscopedRest (Ix := Unit) (Name := ℕ) (U := UR sig nD τ) (Lvl := ℕ) spec1 c (V2 m ρ c))
        ⊢ (unscopedBufs c (V3 m ρ c) : sProp 𝕄) := by
      have h := Triplet.unscopedBufs_of_arrays (V2 m ρ) c (V2 m ρ c) (V3 m ρ c) (exit1_rest m ρ c)
      rw [exit1_arr m ρ c] at h
      exact h
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the run -/

/-- The program's four segments in order. -/
abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ),
    .host (hseg hostOps2 hostOps2_sub hostOps2_fresh (W3 m ρ)) ]
/-- The program is the run of its segments. -/
theorem main_run (c : Dev nD) : main (F := F) c = Pipeline.Seg.run (segs m ρ) := (main_chain c).trans (by chain_rfl)

set_option backward.isDefEq.respectTransparency.types false in
/-- From any memory with zero counters every weakly fair execution of the program terminates, nothing faulting, and every
    final state holds every unscoped buffer at the last contents of the fold. -/
theorem run : θ_run defs (onTc (τ := τ) (main (F := F))) ⟨m, fun _ => 0, ρ⟩ (fun r => ∀ c : Dev nD,
      ∀ b : Ref sig .tc, ¬ (Proc.devRef .tc b : DevRef τ sig).isScoped →
        r.2.mem ((c.tc : Thread nD τ).loc b) = W4 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (W4 m ρ c) ∗ R c) ⊢ _
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c b hb => h c _ (mem_uc b hb))

/-! ## The arguments end as launched -/

/-- No host operation and no region writes the input array: the first region only reads it through its input window. -/
theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := StableHlo.after_of_writes_sub hostOps2 _ hostOps2_writes (by decide)
    _ = W2 m ρ c (Proc.devRef .tc main_arg0) := W3_of_ne m ρ c main_arg0 (by decide)
    _ = W1 m ρ c (Proc.devRef .tc main_arg0) := StableHlo.after_of_writes_sub hostOps1 _ hostOps1_writes (by decide)
    _ = W0 m ρ c (Proc.devRef .tc main_arg0) := (W1_arr m ρ c 0).trans (((Dist.dat (V0 m ρ) c).arrAt_in 0 rfl _).trans (Dist.dat_A (V0 m ρ) c 0))
    _ = m ((c : Thread nD τ).loc main_arg0) := rfl

/-- Nor the labels: no region has them for an array. -/
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := StableHlo.after_of_writes_sub hostOps2 _ hostOps2_writes (by decide)
    _ = W2 m ρ c (Proc.devRef .tc main_arg1) := W3_of_ne m ρ c main_arg1 (by decide)
    _ = W1 m ρ c (Proc.devRef .tc main_arg1) := StableHlo.after_of_writes_sub hostOps1 _ hostOps1_writes (by decide)
    _ = W0 m ρ c (Proc.devRef .tc main_arg1) := W1_of_ne m ρ c main_arg1 (by decide)
    _ = m ((c : Thread nD τ).loc main_arg1) := rfl

/-- The frame: every weakly fair execution terminates, nothing faulting, with both argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c main_arg0 (by decide)).trans (W4_main_arg0 m ρ c),
    (h c main_arg1 (by decide)).trans (W4_main_arg1 m ρ c)⟩) (run m ρ)

end Cert.KernelIdeal.Whole

end
-- ==== Proof.Word.Region0.lean ====
/-
  The first kernel region: the pairwise squared distances.

  The region has one grid point and two windows, each a whole array: the input x : f32[512, 128] is fetched into its
  staging buffer, the body reads it, reads the output's staging buffer (a value it does not use) and stores into that
  buffer, whole, the matrix of clamped squared distances between the rescaled rows; the buffer is then written back to
  the region's result array.  Stated here, at any entry contents V of the core's buffers and at either instance of the
  float operations: the input's block, what the body leaves in the output's buffer, and that the body runs from the two
  staging buffers held whole to its return, giving them back with the input's as it was.
-/
import proofs.«181167_j73899207295321_2_alg».proof.Proof.Gen.Kernel.Launch
import proofs.«181167_j73899207295321_2_alg».proof.Proof.Gen.Kernel.Skeleton
import proofs.«181167_j73899207295321_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Dist

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- A window's block at the one grid point, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The rectangle of the whole input block, and of the whole output block. -/
abbrev wholeX : Rect S512x128 := Rect.unit (s := S512x128) ![0, 0] S512x128.size inb_S512x128_S512x128_0_0
abbrev wholeD : Rect S512x512 := Rect.unit (s := S512x512) ![0, 0] S512x512.size inb_S512x512_S512x512_0_0

/-- What the body leaves in the output's staging buffer: its one store, of the distance matrix computed from the input
    block, over the whole buffer. -/
def distBuf (x0 : Vec F S512x128 .f32) : Vec F S512x512 .f32 :=
  View.canon [⟨wholeD, k0_pay1 (View.ld x0 wholeX)⟩]

/-- The one store covers the buffer. -/
theorem distBuf_cover (p0 : Vec F S512x512 .f32) (y : S512x512.Idx) :
    ∃ pc ∈ ([⟨wholeD, p0⟩] : List (View.Piece (Elt F) S512x512 .f32)), y ∈ pc.1.set :=
  View.cover_of_tiled [⟨wholeD, p0⟩] S512x512.size (by rfl) y

set_option maxHeartbeats 1000000 in
/-- The body, from the input's staging buffer held whole at x0 and the output's held whole at anything, runs to its
    return with the input's as it was and the output's at the distance matrix of x0. -/
theorem body_sound (c : Dev nD) (E : Set ℕ) (i : grid0.Coords)
    (arg1 : Memref sig .tc .vmem S512x128 .f32) (harg1 : arg1.IsWhole) (arg2 : Memref sig .tc .vmem S512x512 .f32) (harg2 : arg2.IsWhole)
    (x0 : Vec F S512x128 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (distBuf x0)) -∗ K ⟨⟩))
      ⊢ wp frame (wpE (defs₀ (F := F)) Variants.none c none) E (cc0_kernel i arg1 harg1 arg2 harg2) K := by
  simp only [cc0_kernel_eq_skeleton]; unfold cc0_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (distBuf_cover _)

/-- The input's current staging buffer holds the input block at the point, for any proof data over the region's entry
    contents whose body leaves that block in place. -/
theorem before_x_of {c : Dev nD} (dat : Dat τ (Elt F) Unit ℕ (UR sig nD τ) ℕ cfg0 c) (hA : dat.A 0 = V c (Pipeline.arrRef spec0 0))
    (hafter : ∀ t, dat.after 0 t = blockAt V c 0 t) (t : Fin cfg0.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- The region's proof data on a core: the arrays as the region finds them; after the body the input's buffer at its
    block and the output's at the distance matrix of that block; nothing else of the core's state is touched, nothing
    is owed, every share is full. -/
def dat (c : Dev nD) : Dat τ (Elt F) Unit ℕ (UR sig nD τ) ℕ cfg0 c where
  A w := V c (Pipeline.arrRef spec0 w)
  after w t := match w with
    | ⟨0, _⟩ => blockAt V c 0 t
    | ⟨1, _⟩ => distBuf (blockAt V c 0 t)
  Φ _ := Pipeline.ΦA spec0 c
  q _ := fullShare
  owed _ := 0

theorem dat_A (c : Dev nD) (w : Fin cfg0.W) : (dat V c).A w = V c (Pipeline.arrRef spec0 w) := by
  dsimp only [dat]

theorem after_x (c : Dev nD) (t : Fin cfg0.N) : (dat V c).after 0 t = blockAt V c 0 t := by dsimp only [dat]
theorem after_d (c : Dev nD) (t : Fin cfg0.N) : (dat V c).after 1 t = distBuf (blockAt V c 0 t) := by dsimp only [dat]

theorem before_x (c : Dev nD) (t : Fin cfg0.N) (d) : (dat V c).before 0 t d = blockAt V c 0 t :=
  before_x_of V (dat V c) (dat_A V c 0) (after_x V c) t d

/-- What the body is called with at the point, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t))

/-- The body at the point: the input's buffer holds its block, so the body's triple applies; the rest of the core's state
    and what the core owes pass through unread. -/
theorem body_at (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_x]
  rw [show (dat V c).Φ t.succ = (dat V c).Φ t.castSucc from rfl,
    show (dat V c).owesAt () t.succ = (dat V c).owesAt () t.castSucc from rfl,
    after_x, after_d]
  iintro ⟨HΦ, Ho, ⟨%d0, H0⟩, ⟨%d1, H1⟩⟩
  iapply (body_sound c Set.univ _ _ _ _ _ (blockAt V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation of the region, at every point. -/
theorem body_obligation (c : Dev nD) : BodyObligation (dat (F := F) V c) (defs₀ (F := F)) Variants.none () Set.univ := fun t => by
  rw [bigSep_W0, bigSep_W0]
  exact body_at V c t

end Cert.Kernel.Dist

end
-- ==== Proof.Word.Region1Body.lean ====
/-
  The second kernel region's body: the masked softplus sum over one tile of triplets, added into a running total.

  The region's grid has 32 x 4 points.  At a point the body is handed six staging buffers: a 16-row band of the distance
  matrix (all 512 columns), the 16 x 128 tile of the same matrix at the point's column block, the band's 16 labels, all
  512 labels, the column block's 128 labels, and the 1 x 1 running total.  At the first point only it stores 0 into the
  total; at every point it reads the five inputs and the total and stores the total plus the tile's sum.  Stated here:
  the reset condition as a function of the grid coordinates, in closed form over the grid, and that in either case the
  body runs from the six buffers held whole to its return, the inputs' as they were and the total's with the body's
  stores written.
-/
import proofs.«181167_j73899207295321_2_alg».proof.Proof.Gen.Kernel.Launch
import proofs.«181167_j73899207295321_2_alg».proof.Proof.Gen.Kernel.Skeleton
import proofs.«181167_j73899207295321_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Triplet

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body resets the total exactly when this holds of the point's coordinates: both are 0. -/
abbrev resetCond (i : grid1.Coords) : Prop :=
  Scalar.cmpi .ne (Scalar.extui (Scalar.andi (Scalar.cmpi .eq (BitVec.ofNat 32 (i 0).val) 0#32) (Scalar.cmpi .eq (BitVec.ofNat 32 (i 1).val) 0#32))) 0#32 = 1#1

/-- Over the grid that is the first point and no other. -/
theorem resetCond_iff : ∀ t : Fin cfg1.N, resetCond (grid1.coords t) ↔ t.val = 0 :=
  (by decide +kernel : ∀ t : Fin grid1.N, resetCond (grid1.coords t) ↔ t.val = 0)

set_option maxHeartbeats 2000000 in
/-- At the first point: the total's buffer may hold anything; the body leaves in it the pieces its two stores write. -/
noncomputable def runReset (c : Dev nD) (i : grid1.Coords)
    (arg2 : Memref sig .tc .vmem S16x512 .f32) (harg2 : arg2.IsWhole) (arg3 : Memref sig .tc .vmem S16x128 .f32) (harg3 : arg3.IsWhole)
    (arg4 : Memref sig .tc .vmem S16x1 .i32) (harg4 : arg4.IsWhole) (arg5 : Memref sig .tc .vmem S1x512 .i32) (harg5 : arg5.IsWhole)
    (arg6 : Memref sig .tc .vmem S1x128 .i32) (harg6 : arg6.IsWhole) (arg7 : Memref sig .tc .vmem S1x1 .f32) (harg7 : arg7.IsWhole)
    (hc : resetCond i)
    (x0 : Vec F S16x512 .f32) (x1 : Vec F S16x128 .f32) (x2 : Vec F S16x1 .i32) (x3 : Vec F S1x512 .i32) (x4 : Vec F S1x128 .i32) :
    { L : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2
                ∗ owns (c : Thread nD τ) arg5 fullShare x3 ∗ owns (c : Thread nD τ) arg6 fullShare x4
                ∗ (∃ f, arg7.view.loc (c : Thread nD τ) ↦[arg7.view.set]{fullShare} arg7.view.writes (Elt F) f L)) -∗ K ⟨⟩))
          ⊢ wp frame (wpE (defs₀ (F := F)) Variants.none c none) E (cc1_kernel i arg2 harg2 arg3 harg3 arg4 harg4 arg5 harg5 arg6 harg6 arg7 harg7) K } := by
  refine ⟨?_, fun E K => ?run⟩
  case run =>
    simp only [cc1_kernel_eq_skeleton]; unfold cc1_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact H5

set_option maxHeartbeats 2000000 in
/-- At every later point: the total's buffer holds the running total `acc`; the body leaves in it the piece its one
    store writes, the running total plus the tile's sum. -/
noncomputable def runAdd (c : Dev nD) (i : grid1.Coords)
    (arg2 : Memref sig .tc .vmem S16x512 .f32) (harg2 : arg2.IsWhole) (arg3 : Memref sig .tc .vmem S16x128 .f32) (harg3 : arg3.IsWhole)
    (arg4 : Memref sig .tc .vmem S16x1 .i32) (harg4 : arg4.IsWhole) (arg5 : Memref sig .tc .vmem S1x512 .i32) (harg5 : arg5.IsWhole)
    (arg6 : Memref sig .tc .vmem S1x128 .i32) (harg6 : arg6.IsWhole) (arg7 : Memref sig .tc .vmem S1x1 .f32) (harg7 : arg7.IsWhole)
    (hc : ¬resetCond i)
    (x0 : Vec F S16x512 .f32) (x1 : Vec F S16x128 .f32) (x2 : Vec F S16x1 .i32) (x3 : Vec F S1x512 .i32) (x4 : Vec F S1x128 .i32)
    (acc : Vec F S1x1 .f32) :
    { L : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare acc
            ∗ (iprop(owns (c : Thread nD τ) arg2 fullShare x0 ∗ owns (c : Thread nD τ) arg3 fullShare x1 ∗ owns (c : Thread nD τ) arg4 fullShare x2
                ∗ owns (c : Thread nD τ) arg5 fullShare x3 ∗ owns (c : Thread nD τ) arg6 fullShare x4
                ∗ (∃ f, arg7.view.loc (c : Thread nD τ) ↦[arg7.view.set]{fullShare} arg7.view.writes (Elt F) f L)) -∗ K ⟨⟩))
          ⊢ wp frame (wpE (defs₀ (F := F)) Variants.none c none) E (cc1_kernel i arg2 harg2 arg3 harg3 arg4 harg4 arg5 harg5 arg6 harg6 arg7 harg7) K } := by
  refine ⟨?_, fun E K => ?run⟩
  case run =>
    simp only [cc1_kernel_eq_skeleton]; unfold cc1_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact H5

end Cert.Kernel.Triplet

end
-- ==== Proof.Word.Region1.lean ====
/-
  The second kernel region as a pipeline: what its buffers hold point by point, and its body obligation.

  Over the 128 grid points the five input windows are only read: each one's current staging buffer holds, at every
  point, the window's block there of the array as the region finds it, whether the pipeline fetched it at that point or
  kept it from the point before.  The sixth window is the 1 x 1 running total: it is written back only after the last
  point, so at every point but the first its buffer holds what the body left at the point before; the first point
  resets it.  The total after each point is therefore defined by recursion over the points.  The distance matrix is
  handed to two windows and the label row to two windows: each of the two holds one half of that array's share.
-/
import proofs.«181167_j73899207295321_2_alg».proof.Proof.Gen.Kernel.Launch
import proofs.«181167_j73899207295321_2_alg».proof.Proof.Gen.Kernel.Skeleton
import proofs.«181167_j73899207295321_2_alg».proof.Proof.Gen.Kernel.Points
import proofs.«181167_j73899207295321_2_alg».proof.Proof.Word.Region1Body
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Triplet

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- A window's block at a point, read off its array as the region finds it. -/
def blockAt (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (unfetched, the block
    index has not moved), for any proof data over the region's entry contents whose body leaves the block in place: the
    five input windows, one by one. -/
theorem before_in0_of {c : Dev nD} (dat : Dat τ (Elt F) Unit ℕ (UR sig nD τ) ℕ cfg1 c) (hA : dat.A 0 = V c (Pipeline.arrRef spec1 0))
    (hafter : ∀ t, dat.after 0 t = blockAt V c 0 t) (t : Fin cfg1.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

theorem before_in1_of {c : Dev nD} (dat : Dat τ (Elt F) Unit ℕ (UR sig nD τ) ℕ cfg1 c) (hA : dat.A 1 = V c (Pipeline.arrRef spec1 1))
    (hafter : ∀ t, dat.after 1 t = blockAt V c 1 t) (t : Fin cfg1.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

theorem before_in2_of {c : Dev nD} (dat : Dat τ (Elt F) Unit ℕ (UR sig nD τ) ℕ cfg1 c) (hA : dat.A 2 = V c (Pipeline.arrRef spec1 2))
    (hafter : ∀ t, dat.after 2 t = blockAt V c 2 t) (t : Fin cfg1.N) (d) : dat.before 2 t d = blockAt V c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)

theorem before_in3_of {c : Dev nD} (dat : Dat τ (Elt F) Unit ℕ (UR sig nD τ) ℕ cfg1 c) (hA : dat.A 3 = V c (Pipeline.arrRef spec1 3))
    (hafter : ∀ t, dat.after 3 t = blockAt V c 3 t) (t : Fin cfg1.N) (d) : dat.before 3 t d = blockAt V c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)

theorem before_in4_of {c : Dev nD} (dat : Dat τ (Elt F) Unit ℕ (UR sig nD τ) ℕ cfg1 c) (hA : dat.A 4 = V c (Pipeline.arrRef spec1 4))
    (hafter : ∀ t, dat.after 4 t = blockAt V c 4 t) (t : Fin cfg1.N) (d) : dat.before 4 t d = blockAt V c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)

/-- One staging buffer of the total's window, through which its contents are stated. -/
abbrev totalView : View sig .tc .vmem S1x1 .f32 := (Memref.whole cc1_stg5_0 : Memref sig .tc .vmem S1x1 .f32).view

/-- Each window's current staging memref at a point, as the pipeline passes it to the body, and that it is whole. -/
abbrev ms0 (t : Fin cfg1.N) : Memref sig .tc .vmem S16x512 .f32 := win1_0.stage (cfg1.slots t 0)
abbrev hs0 (t : Fin cfg1.N) : (ms0 t).IsWhole := hstage1_0 ((cfg1.slots t 0).cast nbuf1_0)
abbrev ms1 (t : Fin cfg1.N) : Memref sig .tc .vmem S16x128 .f32 := win1_1.stage (cfg1.slots t 1)
abbrev hs1 (t : Fin cfg1.N) : (ms1 t).IsWhole := hstage1_1 ((cfg1.slots t 1).cast nbuf1_1)
abbrev ms2 (t : Fin cfg1.N) : Memref sig .tc .vmem S16x1 .i32 := win1_2.stage (cfg1.slots t 2)
abbrev hs2 (t : Fin cfg1.N) : (ms2 t).IsWhole := hstage1_2 ((cfg1.slots t 2).cast nbuf1_2)
abbrev ms3 (t : Fin cfg1.N) : Memref sig .tc .vmem S1x512 .i32 := win1_3.stage (cfg1.slots t 3)
abbrev hs3 (t : Fin cfg1.N) : (ms3 t).IsWhole := hstage1_3 ((cfg1.slots t 3).cast nbuf1_3)
abbrev ms4 (t : Fin cfg1.N) : Memref sig .tc .vmem S1x128 .i32 := win1_4.stage (cfg1.slots t 4)
abbrev hs4 (t : Fin cfg1.N) : (ms4 t).IsWhole := hstage1_4 ((cfg1.slots t 4).cast nbuf1_4)
abbrev ms5 (t : Fin cfg1.N) : Memref sig .tc .vmem S1x1 .f32 := win1_5.stage (cfg1.slots t 5)
abbrev hs5 (t : Fin cfg1.N) : (ms5 t).IsWhole := hstage1_5 ((cfg1.slots t 5).cast nbuf1_5)

/-- The total's buffer after the first point: the reset case's pieces read back. -/
def afterReset (c : Dev nD) (t : Fin cfg1.N) (hc : resetCond (grid1.coords t))
    (x0 : Vec F S16x512 .f32) (x1 : Vec F S16x128 .f32) (x2 : Vec F S16x1 .i32) (x3 : Vec F S1x512 .i32) (x4 : Vec F S1x128 .i32) : Vec F S1x1 .f32 :=
  totalView.read (Elt F) (totalView.writes (Elt F) totalView.junk
    (runReset c (grid1.coords t) (ms0 t) (hs0 t) (ms1 t) (hs1 t) (ms2 t) (hs2 t) (ms3 t) (hs3 t) (ms4 t) (hs4 t) (ms5 t) (hs5 t) hc x0 x1 x2 x3 x4).1)

/-- The total's buffer after a later point, from the running total `acc`: the adding case's piece read back. -/
def afterAdd (c : Dev nD) (t : Fin cfg1.N) (hc : ¬resetCond (grid1.coords t))
    (x0 : Vec F S16x512 .f32) (x1 : Vec F S16x128 .f32) (x2 : Vec F S16x1 .i32) (x3 : Vec F S1x512 .i32) (x4 : Vec F S1x128 .i32)
    (acc : Vec F S1x1 .f32) : Vec F S1x1 .f32 :=
  totalView.read (Elt F) (totalView.writes (Elt F) totalView.junk
    (runAdd c (grid1.coords t) (ms0 t) (hs0 t) (ms1 t) (hs1 t) (ms2 t) (hs2 t) (ms3 t) (hs3 t) (ms4 t) (hs4 t) (ms5 t) (hs5 t) hc x0 x1 x2 x3 x4 acc).1)

/-- In either case the stores cover the 1 x 1 buffer. -/
theorem reset_cover (c : Dev nD) (t : Fin cfg1.N) (hc : resetCond (grid1.coords t))
    (x0 : Vec F S16x512 .f32) (x1 : Vec F S16x128 .f32) (x2 : Vec F S16x1 .i32) (x3 : Vec F S1x512 .i32) (x4 : Vec F S1x128 .i32) (y : S1x1.Idx) :
    ∃ pc ∈ (runReset c (grid1.coords t) (ms0 t) (hs0 t) (ms1 t) (hs1 t) (ms2 t) (hs2 t) (ms3 t) (hs3 t) (ms4 t) (hs4 t) (ms5 t) (hs5 t) hc x0 x1 x2 x3 x4).1, y ∈ pc.1.set :=
  View.cover_of_tiledL _ S1x1.size (by sl_kernel_rfl) y

theorem add_cover (c : Dev nD) (t : Fin cfg1.N) (hc : ¬resetCond (grid1.coords t))
    (x0 : Vec F S16x512 .f32) (x1 : Vec F S16x128 .f32) (x2 : Vec F S16x1 .i32) (x3 : Vec F S1x512 .i32) (x4 : Vec F S1x128 .i32)
    (acc : Vec F S1x1 .f32) (y : S1x1.Idx) :
    ∃ pc ∈ (runAdd c (grid1.coords t) (ms0 t) (hs0 t) (ms1 t) (hs1 t) (ms2 t) (hs2 t) (ms3 t) (hs3 t) (ms4 t) (hs4 t) (ms5 t) (hs5 t) hc x0 x1 x2 x3 x4 acc).1, y ∈ pc.1.set :=
  View.cover_of_tiledL _ S1x1.size (by sl_kernel_rfl) y

/-- The running total after each point: reset and first tile at point 0, then each point's tile added to what the point
    before left. -/
def totalAt (c : Dev nD) : (n : ℕ) → n < cfg1.N → Vec F S1x1 .f32
  | 0, hn => afterReset c ⟨0, hn⟩ ((resetCond_iff ⟨0, hn⟩).mpr rfl)
      (blockAt V c 0 ⟨0, hn⟩) (blockAt V c 1 ⟨0, hn⟩) (blockAt V c 2 ⟨0, hn⟩) (blockAt V c 3 ⟨0, hn⟩) (blockAt V c 4 ⟨0, hn⟩)
  | n + 1, hn => afterAdd c ⟨n + 1, hn⟩ (fun h => Nat.succ_ne_zero n ((resetCond_iff ⟨n + 1, hn⟩).mp h))
      (blockAt V c 0 ⟨n + 1, hn⟩) (blockAt V c 1 ⟨n + 1, hn⟩) (blockAt V c 2 ⟨n + 1, hn⟩) (blockAt V c 3 ⟨n + 1, hn⟩) (blockAt V c 4 ⟨n + 1, hn⟩)
      (totalAt c n (Nat.lt_of_succ_lt hn))

/-- The running total at the first point: the reset case. -/
theorem totalAt_first (c : Dev nD) (t : Fin cfg1.N) (h0 : t.val = 0) :
    totalAt V c t.val t.isLt = afterReset c t ((resetCond_iff t).mpr h0)
      (blockAt V c 0 t) (blockAt V c 1 t) (blockAt V c 2 t) (blockAt V c 3 t) (blockAt V c 4 t) := by
  obtain ⟨n, hn⟩ := t
  cases n with
  | zero => exact rfl
  | succ n => exact absurd h0 (Nat.succ_ne_zero n)

/-- The running total at a later point: the adding case over what the point before left. -/
theorem totalAt_later (c : Dev nD) (t : Fin cfg1.N) (h0 : ¬t.val = 0) :
    totalAt V c t.val t.isLt = afterAdd c t (fun h => h0 ((resetCond_iff t).mp h))
      (blockAt V c 0 t) (blockAt V c 1 t) (blockAt V c 2 t) (blockAt V c 3 t) (blockAt V c 4 t)
      (totalAt V c (t.val - 1) (Nat.lt_of_le_of_lt (Nat.sub_le _ _) t.isLt)) := by
  obtain ⟨n, hn⟩ := t
  cases n with
  | zero => exact absurd rfl h0
  | succ n => exact rfl

/-- The region's proof data on a core: the arrays as the region finds them; after the body each input's buffer at its
    block and the total's at the running total; the rest of the core's state untouched; nothing owed.  The distance
    matrix is the array of windows 0 and 1 and the label row that of windows 3 and 4: each pair splits its array's
    share in two halves; the label column and the total are each one window's, whole. -/
def dat (c : Dev nD) : Dat τ (Elt F) Unit ℕ (UR sig nD τ) ℕ cfg1 c where
  A w := V c (Pipeline.arrRef spec1 w)
  after w t := match w with
    | ⟨0, _⟩ => blockAt V c 0 t
    | ⟨1, _⟩ => blockAt V c 1 t
    | ⟨2, _⟩ => blockAt V c 2 t
    | ⟨3, _⟩ => blockAt V c 3 t
    | ⟨4, _⟩ => blockAt V c 4 t
    | ⟨5, _⟩ => totalAt V c t.val t.isLt
  Φ _ := Pipeline.ΦA spec1 c
  q w := match w with
    | ⟨0, _⟩ => fullShare.left
    | ⟨1, _⟩ => fullShare.right
    | ⟨3, _⟩ => fullShare.left
    | ⟨4, _⟩ => fullShare.right
    | _ => fullShare
  owed _ := 0

theorem dat_A (c : Dev nD) (w : Fin cfg1.W) : (dat V c).A w = V c (Pipeline.arrRef spec1 w) := by
  dsimp only [dat]

theorem after0 (c : Dev nD) (t : Fin cfg1.N) : (dat V c).after 0 t = blockAt V c 0 t := by dsimp only [dat]
theorem after1 (c : Dev nD) (t : Fin cfg1.N) : (dat V c).after 1 t = blockAt V c 1 t := by dsimp only [dat]
theorem after2 (c : Dev nD) (t : Fin cfg1.N) : (dat V c).after 2 t = blockAt V c 2 t := by dsimp only [dat]
theorem after3 (c : Dev nD) (t : Fin cfg1.N) : (dat V c).after 3 t = blockAt V c 3 t := by dsimp only [dat]
theorem after4 (c : Dev nD) (t : Fin cfg1.N) : (dat V c).after 4 t = blockAt V c 4 t := by dsimp only [dat]
theorem after5 (c : Dev nD) (t : Fin cfg1.N) : (dat V c).after 5 t = totalAt V c t.val t.isLt := by dsimp only [dat]

theorem before0 (c : Dev nD) (t : Fin cfg1.N) (d) : (dat V c).before 0 t d = blockAt V c 0 t :=
  before_in0_of V (dat V c) (dat_A V c 0) (after0 V c) t d
theorem before1 (c : Dev nD) (t : Fin cfg1.N) (d) : (dat V c).before 1 t d = blockAt V c 1 t :=
  before_in1_of V (dat V c) (dat_A V c 1) (after1 V c) t d
theorem before2 (c : Dev nD) (t : Fin cfg1.N) (d) : (dat V c).before 2 t d = blockAt V c 2 t :=
  before_in2_of V (dat V c) (dat_A V c 2) (after2 V c) t d
theorem before3 (c : Dev nD) (t : Fin cfg1.N) (d) : (dat V c).before 3 t d = blockAt V c 3 t :=
  before_in3_of V (dat V c) (dat_A V c 3) (after3 V c) t d
theorem before4 (c : Dev nD) (t : Fin cfg1.N) (d) : (dat V c).before 4 t d = blockAt V c 4 t :=
  before_in4_of V (dat V c) (dat_A V c 4) (after4 V c) t d

/-- At every point but the first the total's buffer holds what the body left at the point before: the buffer is written
    back only after the last point, so never between two points. -/
theorem before5_later (c : Dev nD) (t : Fin cfg1.N) (h0 : ¬t.val = 0) (d) :
    (dat V c).before 5 t d = totalAt V c (t.val - 1) (Nat.lt_of_le_of_lt (Nat.sub_le _ _) t.isLt) := by
  have hN : t.val < 128 := lt_of_lt_of_eq t.isLt (show cfg1.N = 128 from N_1)
  rw [Dat.before_out_kept _ 5 rfl t h0 (Bool.eq_false_iff.mpr fun h => by have := (flush1_5 _).mp h; dsimp only at this; omega)
    (fun _ => rfl) (fun _ _ => rfl)]
  dsimp only [dat]

/-- What the body is called with at a point, the windows one by one, -/
def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d)))

/-- and what it returns. -/
def bodyPost (c : Dev nD) (t : Fin cfg1.N) : sProp 𝕄 :=
  iprop((dat V c).Φ t.succ ∗ (dat V c).owesAt () t.succ
    ∗ owns (c : Thread nD τ) (ms0 t) fullShare ((dat V c).after 0 t)
    ∗ owns (c : Thread nD τ) (ms1 t) fullShare ((dat V c).after 1 t)
    ∗ owns (c : Thread nD τ) (ms2 t) fullShare ((dat V c).after 2 t)
    ∗ owns (c : Thread nD τ) (ms3 t) fullShare ((dat V c).after 3 t)
    ∗ owns (c : Thread nD τ) (ms4 t) fullShare ((dat V c).after 4 t)
    ∗ owns (c : Thread nD τ) (ms5 t) fullShare ((dat V c).after 5 t))

set_option maxHeartbeats 1600000 in
/-- The body at any point: the inputs' buffers hold their blocks; the point is the first or not; at a later point the
    total's buffer holds what the point before left; so that case's run applies; the rest of the core's state and what
    the core owes pass through unread. -/
theorem body_at (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0, before1, before2, before3, before4]
  rw [show (dat V c).Φ t.succ = (dat V c).Φ t.castSucc from rfl,
    show (dat V c).owesAt () t.succ = (dat V c).owesAt () t.castSucc from rfl,
    after0, after1, after2, after3, after4, after5]
  by_cases h0 : t.val = 0
  · rw [totalAt_first V c t h0]
    unfold afterReset
    iintro ⟨HΦ, Ho, ⟨%d0, H0⟩, ⟨%d1, H1⟩, ⟨%d2, H2⟩, ⟨%d3, H3⟩, ⟨%d4, H4⟩, ⟨%d5, H5⟩⟩
    iapply ((runReset c (grid1.coords t) _ _ _ _ _ _ _ _ _ _ _ _ ((resetCond_iff t).mpr h0)
      (blockAt V c 0 t) (blockAt V c 1 t) (blockAt V c 2 t) (blockAt V c 3 t) (blockAt V c 4 t)).2 Set.univ _)
    isplitl [H0]; · iexact H0
    isplitl [H1]; · iexact H1
    isplitl [H2]; · iexact H2
    isplitl [H3]; · iexact H3
    isplitl [H4]; · iexact H4
    isplitl [H5]; · iexists _; iexact H5
    iintro ⟨H0, H1, H2, H3, H4, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (reset_cover c t _ _ _ _ _ _)
  · rw [totalAt_later V c t h0]
    simp only [before5_later V c t h0]
    unfold afterAdd
    iintro ⟨HΦ, Ho, ⟨%d0, H0⟩, ⟨%d1, H1⟩, ⟨%d2, H2⟩, ⟨%d3, H3⟩, ⟨%d4, H4⟩, ⟨%d5, H5⟩⟩
    iapply ((runAdd c (grid1.coords t) _ _ _ _ _ _ _ _ _ _ _ _ (fun h => h0 ((resetCond_iff t).mp h))
      (blockAt V c 0 t) (blockAt V c 1 t) (blockAt V c 2 t) (blockAt V c 3 t) (blockAt V c 4 t) _).2 Set.univ _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, H4, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (add_cover c t _ _ _ _ _ _ _)

/-- The body obligation of the region, at every point. -/
theorem body_obligation (c : Dev nD) : BodyObligation (dat (F := F) V c) (defs₀ (F := F)) Variants.none () Set.univ := fun t => by
  rw [bigSep_W1, bigSep_W1]
  exact body_at V c t

end Cert.Kernel.Triplet

end
-- ==== Proof.Word.Region1Shares.lean ====
/-
  The second kernel region's arrays and their shares.

  The region's six windows stand on four arrays: the distance matrix (windows 0 and 1), the label column (window 2), the
  label row (windows 3 and 4) and the running total (window 5).  Holding the four buffers whole, each at the full share,
  is the same as holding the six windows' arrays at their shares: the matrix's full share is its left half for window 0
  beside its right half for window 1, and the label row's likewise for windows 3 and 4.
-/
import proofs.«181167_j73899207295321_2_alg».proof.Proof.Gen.Kernel.Launch
import proofs.«181167_j73899207295321_2_alg».proof.Proof.Gen.Kernel.Skeleton
import proofs.«181167_j73899207295321_2_alg».proof.Proof.Gen.Kernel.Points
import proofs.«181167_j73899207295321_2_alg».proof.Proof.Word.Region1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Triplet

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The region's four distinct arrays, conjoined one by one. -/
theorem bigSep_arrays {M : Type} [URA M] (Φ : Ref sig .tc → sProp M) :
    bigSep (Finset.univ.image (Pipeline.arrRef spec1)) Φ = iprop(Φ main_v0 ∗ Φ main_v1 ∗ Φ main_v2 ∗ Φ main_v3) :=
  bigSep_eq_bigSepL_of_eq [main_v0, main_v1, main_v2, main_v3] (by decide) (by decide) Φ

/-- Holding the four buffers whole is holding the six windows' arrays at their shares, and conversely. -/
theorem arrays_deal (c : Dev nD) (G : (b : Ref sig .tc) → Buf (Elt F) ((c : Thread nD τ).loc b)) :
    (Pipeline.arrBufs spec1 c G : sProp 𝕄) ⊣⊢ (dat V c).arrays fun w => G (Pipeline.arrRef spec1 w) := by
  unfold Pipeline.arrBufs Dat.arrays
  rw [bigSep_arrays, bigSep_W1]
  simp only [View.set_whole]
  rw [show (dat V c).share 0 = fullShare.left from rfl, show (dat V c).share 1 = fullShare.right from rfl,
    show (dat V c).share 2 = fullShare from rfl, show (dat V c).share 3 = fullShare.left from rfl,
    show (dat V c).share 4 = fullShare.right from rfl, show (dat V c).share 5 = fullShare from rfl]
  refine ⟨?_, ?_⟩
  · iintro ⟨H0, H1, H2, H3⟩
    ihave H0' := (pointsTo_share (q := fullShare) (q₁ := fullShare.left) (q₂ := fullShare.right) (by rw [PosShare.left_op_right]; exact Part.mem_some _)).1 $$ H0
    icases H0' with ⟨H0L, H0R⟩
    ihave H2' := (pointsTo_share (q := fullShare) (q₁ := fullShare.left) (q₂ := fullShare.right) (by rw [PosShare.left_op_right]; exact Part.mem_some _)).1 $$ H2
    icases H2' with ⟨H2L, H2R⟩
    isplitl [H0L]; · iexact H0L
    isplitl [H0R]; · iexact H0R
    isplitl [H1]; · iexact H1
    isplitl [H2L]; · iexact H2L
    isplitl [H2R]; · iexact H2R
    iexact H3
  · iintro ⟨H0L, H0R, H1, H2L, H2R, H3⟩
    isplitl [H0L H0R]
    · iapply (pointsTo_share (q := fullShare) (q₁ := fullShare.left) (q₂ := fullShare.right) (by rw [PosShare.left_op_right]; exact Part.mem_some _)).2; isplitl [H0L] <;> iassumption
    isplitl [H1]; · iexact H1
    isplitl [H2L H2R]
    · iapply (pointsTo_share (q := fullShare) (q₁ := fullShare.left) (q₂ := fullShare.right) (by rw [PosShare.left_op_right]; exact Part.mem_some _)).2; isplitl [H2L] <;> iassumption
    iexact H3

/-- ENTRY: a core's unscoped buffers at contents `G` are the region's arrays, window by window at their shares, at the
    contents read off `G`, beside the unscoped buffers that are no array of the region. -/
theorem arrays_of_unscopedBufs (c : Dev nD) (G : (b : Ref sig .tc) → Buf (Elt F) ((c : Thread nD τ).loc b)) :
    (unscopedBufs c G : sProp 𝕄) ⊢ iprop((dat V c).arrays (fun w => G (Pipeline.arrRef spec1 w)) ∗ Pipeline.unscopedRest spec1 c G) := by
  rw [Pipeline.unscopedBufs_split₀ cfgs 1 winFacts₀1.arr_unscoped c G]
  exact sep_mono (arrays_deal V c G).1 .rfl

/-- EXIT: the region's arrays at the contents read off `G'` and the other unscoped buffers at `G` are the core's
    unscoped buffers at `G'`, when `G'` agrees with `G` off the region's arrays. -/
theorem unscopedBufs_of_arrays (c : Dev nD) (G G' : (b : Ref sig .tc) → Buf (Elt F) ((c : Thread nD τ).loc b))
    (hrest : ∀ b, b ∉ Finset.univ.image (Pipeline.arrRef spec1) → G' b = G b) :
    iprop((dat V c).arrays (fun w => G' (Pipeline.arrRef spec1 w)) ∗ Pipeline.unscopedRest spec1 c G) ⊢ (unscopedBufs c G' : sProp 𝕄) := by
  rw [Pipeline.unscopedBufs_split₀ cfgs 1 winFacts₀1.arr_unscoped c G']
  refine sep_mono (arrays_deal V c G').2 (Entails.of_eq ?_)
  unfold Pipeline.unscopedRest
  exact bigSep_congr fun b hb => by rw [hrest b (Finset.mem_sdiff.mp hb).2]

end Cert.Kernel.Triplet

end
-- ==== Proof.Word.Run.lean ====
/-
  The whole program: the first region, two reshapes of the labels, the second region, the host tail.

  The core's unscoped buffers are followed from the launch to the return: as launched; after the first region, the
  distance matrix's array at what that region writes back; after the reshapes; after the second region, the total's
  array at what it writes back (its input arrays are never written); after the host tail.  Each region is entered from
  every unscoped buffer at the contents before it and left at the contents after it, its arrays taken out of those
  buffers and put back.  Every weakly fair execution ends with every unscoped buffer at the last contents; the argument
  arrays are never written, so they end as launched.
-/
import proofs.«181167_j73899207295321_2_alg».proof.Proof.Gen.Kernel.Launch
import proofs.«181167_j73899207295321_2_alg».proof.Proof.Gen.Kernel.Skeleton
import proofs.«181167_j73899207295321_2_alg».proof.Proof.Gen.Kernel.Points
import proofs.«181167_j73899207295321_2_alg».proof.Proof.Gen.Kernel.Regions
import proofs.«181167_j73899207295321_2_alg».proof.Proof.Word.Region0
import proofs.«181167_j73899207295321_2_alg».proof.Proof.Word.Region1Shares
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Whole

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the segments -/

/-- As launched. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- After the first region: its arrays at what the pipeline leaves, every other buffer as entered. -/
def W1 (c : Dev nD) : Valuation τ sig (Elt F) :=
  Pipeline.withArrays spec0 c (W0 m ρ c) fun w => (Dist.dat (V0 m ρ) c).arrAt w cfg0.N
theorem W1_arr (c : Dev nD) (w : Fin cfg0.W) :
    W1 m ρ c (Proc.devRef .tc (Pipeline.arrRef spec0 w)) = (Dist.dat (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem exit0_arr (c : Dev nD) (w : Fin cfg0.W) : (Dist.dat (V0 m ρ) c).arrAt w cfg0.N = V1 m ρ c (Pipeline.arrRef spec0 w) :=
  (W1_arr m ρ c w).symm
theorem exit0_rest (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the two reshapes of the labels. -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b
/-- After the second region: the total's array at what the pipeline leaves, every other buffer as entered. -/
def W3 (c : Dev nD) : Valuation τ sig (Elt F) :=
  Function.update (W2 m ρ c) (Proc.devRef .tc main_v3) ((Triplet.dat (V2 m ρ) c).arrAt 5 cfg1.N)
abbrev V3 : (c : Dev nD) → (b : Ref sig .tc) → Buf (Elt F) ((c : Thread nD τ).loc b) := fun c b => W3 m ρ c b
theorem W3_total (c : Dev nD) : W3 m ρ c (Proc.devRef .tc main_v3) = (Triplet.dat (V2 m ρ) c).arrAt 5 cfg1.N := by
  unfold W3; exact Function.update_self ..
theorem W3_of_ne (c : Dev nD) (b : Ref sig .tc) (hb : b ≠ main_v3) : W3 m ρ c (Proc.devRef .tc b) = W2 m ρ c (Proc.devRef .tc b) := by
  unfold W3; exact Function.update_of_ne (StableHlo.devRef_ne_of_ne hb) ..
theorem exit1_rest (c : Dev nD) : ∀ b, b ∉ Finset.univ.image (Pipeline.arrRef spec1) → V3 m ρ c b = V2 m ρ c b :=
  fun b hb => W3_of_ne m ρ c b fun e => hb (Finset.mem_image.mpr ⟨5, Finset.mem_univ _, e.symm⟩)
/-- At the second region's exit each window's array holds what the pipeline leaves: an input's array its entry contents,
    the total's what is written back. -/
theorem exit1_arr (c : Dev nD) : (fun w => V3 m ρ c (Pipeline.arrRef spec1 w)) = fun w => (Triplet.dat (V2 m ρ) c).arrAt w cfg1.N := by
  funext w
  match w with
  | ⟨0, _⟩ => exact (W3_of_ne m ρ c main_v0 (by decide)).trans (((Triplet.dat (V2 m ρ) c).arrAt_in 0 rfl _).trans (Triplet.dat_A (V2 m ρ) c 0)).symm
  | ⟨1, _⟩ => exact (W3_of_ne m ρ c main_v0 (by decide)).trans (((Triplet.dat (V2 m ρ) c).arrAt_in 1 rfl _).trans (Triplet.dat_A (V2 m ρ) c 1)).symm
  | ⟨2, _⟩ => exact (W3_of_ne m ρ c main_v1 (by decide)).trans (((Triplet.dat (V2 m ρ) c).arrAt_in 2 rfl _).trans (Triplet.dat_A (V2 m ρ) c 2)).symm
  | ⟨3, _⟩ => exact (W3_of_ne m ρ c main_v2 (by decide)).trans (((Triplet.dat (V2 m ρ) c).arrAt_in 3 rfl _).trans (Triplet.dat_A (V2 m ρ) c 3)).symm
  | ⟨4, _⟩ => exact (W3_of_ne m ρ c main_v2 (by decide)).trans (((Triplet.dat (V2 m ρ) c).arrAt_in 4 rfl _).trans (Triplet.dat_A (V2 m ρ) c 4)).symm
  | ⟨5, _⟩ => exact W3_total m ρ c
/-- After the host tail. -/
abbrev W4 : Dev nD → Valuation τ sig (Elt F) := fun c => StableHlo.after hostOps2 (W3 m ρ c)

/-! ## The proof data family and the thread state -/

/-- No pipeline has a prefetched table. -/
abbrev adm : (p : Fin 2) → (pcfgs (F := F) p).Adm := fun p => (cfgs p).toPCfg_adm
/-- Each region's proof data at its entry contents. -/
def pdats : (p : Fin 2) → (c : Dev nD) → Dat τ (Elt F) Unit ℕ (UR sig nD τ) ℕ (Pipeline.pin (pcfgs (F := F)) adm p) c
  | ⟨0, _⟩ => fun c => Dist.dat (V0 m ρ) c
  | ⟨1, _⟩ => fun c => Triplet.dat (V2 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A stretch of host operations as a segment over every unscoped buffer from given contents. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last contents, the generator register at
    some state. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- The first region: entered from every unscoped buffer as launched, left with the distance matrix's array written. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Dist.body_obligation (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (exit0_arr m ρ c) (exit0_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from every unscoped buffer after the reshapes, left with the total's array written.  Its
    windows share arrays, so its arrays are taken out of the unscoped buffers and put back by the dealing of shares. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (Triplet.body_obligation (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Triplet.arrays_of_unscopedBufs (V2 m ρ) c (V2 m ρ c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m ρ 1 c).arrays ((pdats m ρ 1 c).arrAt · cfg1.N)
        ∗ Pipeline.unscopedRest (Ix := Unit) (Name := ℕ) (U := UR sig nD τ) (Lvl := ℕ) spec1 c (V2 m ρ c))
        ⊢ (unscopedBufs c (V3 m ρ c) : sProp 𝕄) := by
      have h := Triplet.unscopedBufs_of_arrays (V2 m ρ) c (V2 m ρ c) (V3 m ρ c) (exit1_rest m ρ c)
      rw [exit1_arr m ρ c] at h
      exact h
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the run -/

/-- The program's four segments in order. -/
abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ),
    .host (hseg hostOps2 hostOps2_sub hostOps2_fresh (W3 m ρ)) ]
/-- The program is the run of its segments. -/
theorem main_run (c : Dev nD) : main (F := F) c = Pipeline.Seg.run (segs m ρ) := (main_chain c).trans (by chain_rfl)

set_option backward.isDefEq.respectTransparency.types false in
/-- From any memory with zero counters every weakly fair execution of the program terminates, nothing faulting, and every
    final state holds every unscoped buffer at the last contents of the fold. -/
theorem run : θ_run defs (onTc (τ := τ) (main (F := F))) ⟨m, fun _ => 0, ρ⟩ (fun r => ∀ c : Dev nD,
      ∀ b : Ref sig .tc, ¬ (Proc.devRef .tc b : DevRef τ sig).isScoped →
        r.2.mem ((c.tc : Thread nD τ).loc b) = W4 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (W4 m ρ c) ∗ R c) ⊢ _
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c b hb => h c _ (mem_uc b hb))

/-! ## The arguments end as launched -/

/-- No host operation and no region writes the input array: the first region only reads it through its input window. -/
theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := StableHlo.after_of_writes_sub hostOps2 _ hostOps2_writes (by decide)
    _ = W2 m ρ c (Proc.devRef .tc main_arg0) := W3_of_ne m ρ c main_arg0 (by decide)
    _ = W1 m ρ c (Proc.devRef .tc main_arg0) := StableHlo.after_of_writes_sub hostOps1 _ hostOps1_writes (by decide)
    _ = W0 m ρ c (Proc.devRef .tc main_arg0) := (W1_arr m ρ c 0).trans (((Dist.dat (V0 m ρ) c).arrAt_in 0 rfl _).trans (Dist.dat_A (V0 m ρ) c 0))
    _ = m ((c : Thread nD τ).loc main_arg0) := rfl

/-- Nor the labels: no region has them for an array. -/
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := StableHlo.after_of_writes_sub hostOps2 _ hostOps2_writes (by decide)
    _ = W2 m ρ c (Proc.devRef .tc main_arg1) := W3_of_ne m ρ c main_arg1 (by decide)
    _ = W1 m ρ c (Proc.devRef .tc main_arg1) := StableHlo.after_of_writes_sub hostOps1 _ hostOps1_writes (by decide)
    _ = W0 m ρ c (Proc.devRef .tc main_arg1) := W1_of_ne m ρ c main_arg1 (by decide)
    _ = m ((c : Thread nD τ).loc main_arg1) := rfl

/-- The frame: every weakly fair execution terminates, nothing faulting, with both argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c main_arg0 (by decide)).trans (W4_main_arg0 m ρ c),
    (h c main_arg1 (by decide)).trans (W4_main_arg1 m ρ c)⟩) (run m ρ)

end Cert.Kernel.Whole

end
-- ==== Proof.Finals.lean ====
/-
  What the two regions leave in their result arrays.

  Each result window is a single block, the whole array, written back at one grid point: the first region's at its only
  point, the second region's after its last point.  So the first region's result array ends holding the distance matrix
  computed from the whole input array, and the second region's the running total after the last point.
-/
import proofs.«181167_j73899207295321_2_alg».proof.Proof.Gen.KernelIdeal.Launch
import proofs.«181167_j73899207295321_2_alg».proof.Proof.Gen.KernelIdeal.Skeleton
import proofs.«181167_j73899207295321_2_alg».proof.Proof.Gen.KernelIdeal.Points
import proofs.«181167_j73899207295321_2_alg».proof.Proof.Run
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Finals

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem hz2 : (![0, 0] : Fin 2 → Nat) = fun _ => 0 := funext fun a => by fin_cases a <;> rfl

/-- The first region's index maps are constant 0 over its one point. -/
theorem idx0 : ∀ t : Fin cfg0.N, win0_0.index t (0 : Fin 2) = 0 ∧ win0_0.index t (1 : Fin 2) = 0
    ∧ win0_1.index t (0 : Fin 2) = 0 ∧ win0_1.index t (1 : Fin 2) = 0 :=
  (by decide +kernel : ∀ t : Fin grid0.N, _)

/-- The input's block at the one point is the whole input array. -/
theorem block_x (c : Dev nD) (t : Fin cfg0.N) : Dist.blockAt V c 0 t = V c main_arg0 := by
  funext j
  unfold Dist.blockAt
  show V c main_arg0 (((cfg0.win 0).blk t).view.emb j) = V c main_arg0 j
  obtain ⟨e0, e1, -, -⟩ := idx0 t
  refine congrArg _ (funext fun a => Fin.ext ?_)
  match a with
  | ⟨0, _⟩ => show win0_0.index t (0 : Fin 2) * 512 + 1 * (j 0).val = (j 0).val; omega
  | ⟨1, _⟩ => show win0_0.index t (1 : Fin 2) * 128 + 1 * (j 1).val = (j 1).val; omega

/-- What the one point writes back is the distance matrix of the whole input array. -/
theorem flushed_d (c : Dev nD) (t : Fin cfg0.N) :
    (Dist.dat V c).flushed 1 t = ((cfg0.win 1).blk t).view.read (Elt F) (k0_pay1 (V c main_arg0)) := by
  show (cfg0.win 1).cut (grid0.coords t) ((Dist.dat V c).after 1 t) = _
  rw [Dist.after_d]
  unfold Dist.distBuf
  rw [View.canon_unit_zero hz2]
  simp only [View.ld_unit_zero (S := S512x128) hz2]
  rw [block_x]
  obtain ⟨-, -, e2, e3⟩ := idx0 t
  funext j
  show k0_pay1 (V c main_arg0) j = k0_pay1 (V c main_arg0) (((cfg0.win 1).blk t).view.emb j)
  refine congrArg _ (funext fun a => Fin.ext ?_)
  match a with
  | ⟨0, _⟩ => show (j 0).val = win0_1.index t (0 : Fin 2) * 512 + 1 * (j 0).val; omega
  | ⟨1, _⟩ => show (j 1).val = win0_1.index t (1 : Fin 2) * 512 + 1 * (j 1).val; omega

/-- An index of the result array is in the one point's block: the block is the whole array. -/
theorem mem_blk_d (t : Fin cfg0.N) (i : S512x512.Idx) : i ∈ ((cfg0.win 1).blk t).view.set := by
  show i ∈ ((View.whole main_v0).slice (win0_1.rect t)).set
  rw [View.set_slice_whole, Rect.mem_set_unit]
  obtain ⟨-, -, e2, e3⟩ := idx0 t
  intro a
  match a with
  | ⟨0, _⟩ => show win0_1.index t (0 : Fin 2) * 512 ≤ (i 0).val ∧ (i 0).val < win0_1.index t (0 : Fin 2) * 512 + 512; have h : (i 0).val < 512 := (i 0).isLt; omega
  | ⟨1, _⟩ => show win0_1.index t (1 : Fin 2) * 512 ≤ (i 1).val ∧ (i 1).val < win0_1.index t (1 : Fin 2) * 512 + 512; have h : (i 1).val < 512 := (i 1).isLt; omega

/-- The first region's result array after the run. -/
theorem final_d (c : Dev nD) : (Dist.dat V c).arrAt 1 cfg0.N = k0_pay1 (V c main_arg0) :=
  (Dist.dat V c).arrAt_eq_of_cover 1 _ (fun t _ => flushed_d V c t) fun i => ⟨t0_0, flush0_1 t0_0, mem_blk_d t0_0 i⟩

/-- The total's index map is constant 0 over the grid. -/
theorem idx5 : ∀ t : Fin cfg1.N, win1_5.index t (0 : Fin 2) = 0 ∧ win1_5.index t (1 : Fin 2) = 0 :=
  (by decide +kernel : ∀ t : Fin grid1.N, _)

theorem last_lt : 127 < cfg1.N := by show 127 < grid1.N; rw [N_1]; decide

/-- What the last point writes back is the running total after it. -/
theorem flushed_total (c : Dev nD) (t : Fin cfg1.N) (hf : (cfg1.win 5).flush t = true) :
    (Triplet.dat V c).flushed 5 t = ((cfg1.win 5).blk t).view.read (Elt F) (Triplet.totalAt V c 127 last_lt) := by
  have hN : t.val < 128 := lt_of_lt_of_eq t.isLt N_1
  have h127 : t.val = 127 := by have := (flush1_5 t).mp hf; omega
  show (cfg1.win 5).cut (grid1.coords t) ((Triplet.dat V c).after 5 t) = _
  rw [Triplet.after5]
  obtain ⟨e0, e1⟩ := idx5 t
  funext j
  show Triplet.totalAt V c t.val t.isLt j = Triplet.totalAt V c 127 last_lt (((cfg1.win 5).blk t).view.emb j)
  have hj : ((cfg1.win 5).blk t).view.emb j = j := funext fun a => Fin.ext (by
    match a with
    | ⟨0, _⟩ => show win1_5.index t (0 : Fin 2) * 1 + 1 * (j 0).val = (j 0).val; omega
    | ⟨1, _⟩ => show win1_5.index t (1 : Fin 2) * 1 + 1 * (j 1).val = (j 1).val; omega)
  rw [hj]
  obtain ⟨tv, ht⟩ := t
  simp only at h127
  subst h127
  rfl

theorem mem_blk_total (t : Fin cfg1.N) (i : S1x1.Idx) : i ∈ ((cfg1.win 5).blk t).view.set := by
  show i ∈ ((View.whole main_v3).slice (win1_5.rect t)).set
  rw [View.set_slice_whole, Rect.mem_set_unit]
  obtain ⟨e0, e1⟩ := idx5 t
  intro a
  match a with
  | ⟨0, _⟩ => show win1_5.index t (0 : Fin 2) * 1 ≤ (i 0).val ∧ (i 0).val < win1_5.index t (0 : Fin 2) * 1 + 1; have h : (i 0).val < 1 := (i 0).isLt; omega
  | ⟨1, _⟩ => show win1_5.index t (1 : Fin 2) * 1 ≤ (i 1).val ∧ (i 1).val < win1_5.index t (1 : Fin 2) * 1 + 1; have h : (i 1).val < 1 := (i 1).isLt; omega

/-- The second region's result array after the run: the running total after the last point. -/
theorem final_total (c : Dev nD) : (Triplet.dat V c).arrAt 5 cfg1.N = Triplet.totalAt V c 127 last_lt :=
  (Triplet.dat V c).arrAt_eq_of_cover 5 _ (fun t hf => flushed_total V c t hf)
    fun i => ⟨⟨127, last_lt⟩, (flush1_5 _).mpr (by decide), mem_blk_total _ i⟩

end Cert.KernelIdeal.Finals

end
-- ==== Proof.CountTerms.lean ====
/-
  The number of valid triplets, as each program computes it from the labels l : i32[512], in 32-bit integers.

  A triplet (i, j, k) is valid when i and j are different rows with equal labels and k is a row whose label differs from
  i's.  The kernel's host code counts them row by row: for each i the number of valid j times the number of valid k,
  summed over i.  The reference counts them one by one over all 512^3 triples.
-/
import proofs.«181167_j73899207295321_2_alg».proof.KernelIdeal
import proofs.«181167_j73899207295321_2_alg».proof.ReferenceIdeal

noncomputable section

namespace Cert.Count

open Idealize.ShloMosaic

section Kernel
open Cert.KernelIdeal Cert.KernelIdeal.Facts₀ Cert.KernelIdeal.Facts
variable [Cert.KernelIdeal.Facts]

/-- same label and different row, as a 512 x 512 array of bits (the kernel's host code). -/
def kSame (l : IVec S512 32) : IVec S512x512 1 :=
  andi (cmpi .eq (broadcastInDim S512x512 ![0, 1] bcast_S512x1_S512x512_0_1 (broadcastInDim S512x1 ![0] bcast_S512_S512x1_0 l))
                 (broadcastInDim S512x512 ![0, 1] bcast_S1x512_S512x512_0_1 (broadcastInDim S1x512 ![1] bcast_S512_S1x512_1 l)))
       (noti (cmpi .eq (addi (iotaInDim S512x512 32 0) (broadcastInDim S512x512 ![] bcast_S_S512x512 (constantI S_ 32 0#32))) (iotaInDim S512x512 32 1)))

/-- different label (the kernel's host code). -/
def kDiff (l : IVec S512 32) : IVec S512x512 1 :=
  cmpi .ne (broadcastInDim S512x512 ![0, 1] bcast_S512x1_S512x512_0_1 (broadcastInDim S512x1 ![0] bcast_S512_S512x1_0 l))
           (broadcastInDim S512x512 ![0, 1] bcast_S1x512_S512x512_0_1 (broadcastInDim S1x512 ![1] bcast_S512_S1x512_1 l))

/-- The kernel's count: the sum over i of (number of valid j) times (number of valid k). -/
def kernelCount (l : IVec S512 32) : IVec S_ 32 :=
  Host.reduce IntOp.addi
    (muli (Host.reduce IntOp.addi (extui 32 (kSame l) natLt_1_32) (constantI S_ 32 0#32) reducesTo_S512x512_S512_d1 h_S_)
          (Host.reduce IntOp.addi (extui 32 (kDiff l) natLt_1_32) (constantI S_ 32 0#32) reducesTo_S512x512_S512_d1 h_S_))
    (constantI S_ 32 0#32) reducesTo_S512_S_d0 h_S_
end Kernel

section Reference
open Cert.ReferenceIdeal Cert.ReferenceIdeal.Facts₀ Cert.ReferenceIdeal.Facts
variable [Cert.ReferenceIdeal.Facts]

/-- same label and different row (the reference). -/
def rSame (l : IVec S512 32) : IVec S512x512 1 :=
  andi (cmpi .eq (broadcastInDim S512x512 ![0, 1] bcast_S512x1_S512x512_0_1 (broadcastInDim S512x1 ![0] bcast_S512_S512x1_0 l))
                 (broadcastInDim S512x512 ![0, 1] bcast_S1x512_S512x512_0_1 (broadcastInDim S1x512 ![1] bcast_S512_S1x512_1 l)))
       (noti (cmpi .eq (addi (iotaInDim S512x512 32 0) (broadcastInDim S512x512 ![] bcast_S_S512x512 (constantI S_ 32 0#32))) (iotaInDim S512x512 32 1)))

/-- different label (the reference). -/
def rDiff (l : IVec S512 32) : IVec S512x512 1 :=
  cmpi .ne (broadcastInDim S512x512 ![0, 1] bcast_S512x1_S512x512_0_1 (broadcastInDim S512x1 ![0] bcast_S512_S512x1_0 l))
           (broadcastInDim S512x512 ![0, 1] bcast_S1x512_S512x512_0_1 (broadcastInDim S1x512 ![1] bcast_S512_S1x512_1 l))

/-- The mask of valid triplets over all (i, j, k) (the reference). -/
def rMask (l : IVec S512 32) : IVec S512x512x512 1 :=
  andi (broadcastInDim S512x512x512 ![0, 1, 2] bcast_S512x512x1_S512x512x512_0_1_2 (broadcastInDim S512x512x1 ![0, 1] bcast_S512x512_S512x512x1_0_1 (rSame l)))
       (broadcastInDim S512x512x512 ![0, 1, 2] bcast_S512x1x512_S512x512x512_0_1_2 (broadcastInDim S512x1x512 ![0, 2] bcast_S512x512_S512x1x512_0_2 (rDiff l)))

/-- The reference's count: the number of valid triplets. -/
def refCount (l : IVec S512 32) : IVec S_ 32 :=
  Host.reduce IntOp.addi (extui 32 (rMask l) natLt_1_32) (constantI S_ 32 0#32) reducesTo_S512x512x512_S_d0_1_2 h_S_
end Reference

end Cert.Count

end
-- ==== Proof.HostValues.lean ====
/-
  What the host operations around the two regions compute.

  Between the regions the labels are reshaped to a column and to a row; the second region also finds the distance
  matrix the first region wrote.  After the second region the host tail divides the total by the number of valid
  triplets, counted in 32-bit integers and converted to a float, and reshapes the quotient to a one-element vector.
-/
import proofs.«181167_j73899207295321_2_alg».proof.Proof.Gen.KernelIdeal.Launch
import proofs.«181167_j73899207295321_2_alg».proof.Proof.Gen.KernelIdeal.Skeleton
import proofs.«181167_j73899207295321_2_alg».proof.Proof.Gen.KernelIdeal.Points
import proofs.«181167_j73899207295321_2_alg».proof.Proof.Finals
import proofs.«181167_j73899207295321_2_alg».proof.Proof.CountTerms
import Idealize.ShloMosaic.Lib.StableHlo.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Whole

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.StableHlo

variable (m : (ℓ : Loc nD τ sig) → Buf (Elt F) ℓ) (ρ : Dev nD → PrngReg)

/-- The labels reach both regions as launched. -/
theorem W1_labels (c : Dev nD) : W1 m ρ c (Proc.devRef .tc main_arg1) = m ((c : Thread nD τ).loc main_arg1) :=
  (W1_of_ne m ρ c main_arg1 (by decide)).trans rfl

/-- The second region finds the distance matrix the first region computed from the input array. -/
theorem V2_dist (c : Dev nD) : V2 m ρ c main_v0 = k0_pay1 (m ((c : Thread nD τ).loc main_arg0)) :=
  calc W2 m ρ c (Proc.devRef .tc main_v0)
    _ = W1 m ρ c (Proc.devRef .tc main_v0) := StableHlo.after_of_writes_sub hostOps1 _ hostOps1_writes (by decide)
    _ = (Dist.dat (V0 m ρ) c).arrAt 1 cfg0.N := W1_arr m ρ c 1
    _ = k0_pay1 (V0 m ρ c main_arg0) := Finals.final_d (V0 m ρ) c
    _ = k0_pay1 (m ((c : Thread nD τ).loc main_arg0)) := rfl

/-- The label column and the label row are the labels reshaped. -/
theorem V2_lcol (c : Dev nD) :
    V2 m ρ c main_v1 = shapeCast S512x1 (W1 m ρ c (Proc.devRef .tc main_arg1)) shapeCasts_S512_S512x1 := by
  show StableHlo.after hostOps1 (W1 m ρ c) (Proc.devRef .tc main_v1) = _
  after_results
  rfl
theorem V2_lrow (c : Dev nD) :
    V2 m ρ c main_v2 = shapeCast S1x512 (W1 m ρ c (Proc.devRef .tc main_arg1)) shapeCasts_S512_S1x512 := by
  show StableHlo.after hostOps1 (W1 m ρ c) (Proc.devRef .tc main_v2) = _
  after_results
  rfl

set_option maxHeartbeats 8000000 in
/-- The result: the total divided by the count, reshaped. -/
theorem W4_result (c : Dev nD) :
    W4 m ρ c (Proc.devRef .tc main_v30)
      = shapeCast S1 (Host.divf (shapeCast S_ (W3 m ρ c (Proc.devRef .tc main_v3)) shapeCasts_S1x1_S_)
          (sitofp .f32 (Cert.Count.kernelCount (W3 m ρ c (Proc.devRef .tc main_arg1))))) shapeCasts_S_S1 := by
  show StableHlo.after hostOps2 (W3 m ρ c) (Proc.devRef .tc main_v30) = _
  after_results
  rfl

end Cert.KernelIdeal.Whole

end
-- ==== Proof.Pieces.lean ====
/-
  The running total's buffer after a point, as the body's arithmetic.

  The body's stores into the 1 x 1 buffer were found by running it; read back they are the body's payload terms: at a
  later point the running total plus the tile's sum, at the first point the tile's sum added to the zero just stored.
-/
import proofs.«181167_j73899207295321_2_alg».proof.Proof.Gen.KernelIdeal.Launch
import proofs.«181167_j73899207295321_2_alg».proof.Proof.Gen.KernelIdeal.Skeleton
import proofs.«181167_j73899207295321_2_alg».proof.Proof.Gen.KernelIdeal.Points
import proofs.«181167_j73899207295321_2_alg».proof.Proof.Region1
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Triplet

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl

theorem afterAdd_eq (c : Dev nD) (t : Fin cfg1.N) (hc : ¬resetCond (grid1.coords t))
    (x0 : Vec F S16x512 .f32) (x1 : Vec F S16x128 .f32) (x2 : Vec F S16x1 .i32) (x3 : Vec F S1x512 .i32) (x4 : Vec F S1x128 .i32)
    (acc : Vec F S1x1 .f32) :
    afterAdd c t hc x0 x1 x2 x3 x4 acc
      = k1_pay1 (k1_pay4 (grid1.coords t) x2 x3) (k1_pay5 x2 x4) (k1_pay6 x0 x1) (Scalar.ofBits .f32 0x00000000#32) (k1_pay7 x0 x1) k1_pay8 acc := by
  unfold afterAdd
  rw [View.read_writes_eq_canon _ _ _ (add_cover c t hc x0 x1 x2 x3 x4 acc)]
  unfold runAdd
  dsimp only
  sl_unfold_words
  rw [View.canon_unit_zero hz2]
  simp only [View.readAt_eq_ld, (hs0 t).read_unread, (hs1 t).read_unread, (hs2 t).read_unread, (hs3 t).read_unread,
    (hs4 t).read_unread, (hs5 t).read_unread,
    View.ld_unit_zero (S := S16x512) hz2, View.ld_unit_zero (S := S16x128) hz2, View.ld_unit_zero (S := S16x1) hz2,
    View.ld_unit_zero (S := S1x512) hz2, View.ld_unit_zero (S := S1x128) hz2, View.ld_unit_zero (S := S1x1) hz2]

theorem afterReset_eq (c : Dev nD) (t : Fin cfg1.N) (hc : resetCond (grid1.coords t))
    (x0 : Vec F S16x512 .f32) (x1 : Vec F S16x128 .f32) (x2 : Vec F S16x1 .i32) (x3 : Vec F S1x512 .i32) (x4 : Vec F S1x128 .i32) :
    afterReset c t hc x0 x1 x2 x3 x4
      = k1_pay1 (k1_pay4 (grid1.coords t) x2 x3) (k1_pay5 x2 x4) (k1_pay6 x0 x1) (Scalar.ofBits .f32 0x00000000#32) (k1_pay7 x0 x1) k1_pay8 k1_pay2 := by
  unfold afterReset
  rw [View.read_writes_eq_canon _ _ _ (reset_cover c t hc x0 x1 x2 x3 x4)]
  unfold runReset
  dsimp only
  sl_unfold_words
  rw [View.canon_cons_unit_zero hz2]
  simp only [View.readAt_eq_ld, (hs0 t).read_unread, (hs1 t).read_unread, (hs2 t).read_unread, (hs3 t).read_unread,
    (hs4 t).read_unread, View.readCov_unit_zero (S := S1x1) (ms5 t).view hz2,
    View.ld_unit_zero (S := S16x512) hz2, View.ld_unit_zero (S := S16x128) hz2, View.ld_unit_zero (S := S16x1) hz2,
    View.ld_unit_zero (S := S1x512) hz2, View.ld_unit_zero (S := S1x128) hz2, View.ld_unit_zero (S := S1x1) hz2]

end Cert.KernelIdeal.Triplet

end
-- ==== Proof.Blocks.lean ====
/-
  The second region's blocks in the arrays' own coordinates.

  Grid point t is row band t / 4 and column block t % 4.  At that point the band window holds rows 16 (t/4) + r of the
  distance matrix, all columns; the tile window the same rows at columns 128 (t%4) + k; the label column the same rows'
  labels; the label row all labels; the label tile the labels of columns 128 (t%4) + k.
-/
import proofs.«181167_j73899207295321_2_alg».proof.Proof.Gen.KernelIdeal.Launch
import proofs.«181167_j73899207295321_2_alg».proof.Proof.Gen.KernelIdeal.Skeleton
import proofs.«181167_j73899207295321_2_alg».proof.Proof.Gen.KernelIdeal.Points
import proofs.«181167_j73899207295321_2_alg».proof.Proof.Region1
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Triplet

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (V : (c : Dev nD) → (b : Ref sig .tc) → Buf (Elt F) ((c : Thread nD τ).loc b))

/-- The index maps over the grid. -/
theorem idx1 : ∀ t : Fin cfg1.N,
    win1_0.index t (0 : Fin 2) = t.val / 4 ∧ win1_0.index t (1 : Fin 2) = 0
    ∧ win1_1.index t (0 : Fin 2) = t.val / 4 ∧ win1_1.index t (1 : Fin 2) = t.val % 4
    ∧ win1_2.index t (0 : Fin 2) = t.val / 4 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = t.val % 4
    ∧ ((grid1.coords t) 0).val = t.val / 4 :=
  (by decide +kernel : ∀ t : Fin grid1.N, _)

theorem row_lt (t : Fin cfg1.N) (r : Fin 16) : t.val / 4 * 16 + r.val < 512 := by
  have h : t.val < 128 := lt_of_lt_of_eq t.isLt N_1
  have := r.isLt; omega
theorem col_lt (t : Fin cfg1.N) (k : Fin 128) : t.val % 4 * 128 + k.val < 512 := by
  have := k.isLt; omega

theorem block0_apply (c : Dev nD) (t : Fin cfg1.N) (r : Fin 16) (j : Fin 512) :
    blockAt V c 0 t (ix2 r j) = V c main_v0 (ix2 ⟨t.val / 4 * 16 + r.val, row_lt t r⟩ j) := by
  unfold blockAt
  show V c main_v0 (((cfg1.win 0).blk t).view.emb (ix2 r j)) = _
  obtain ⟨e0, e1, -⟩ := idx1 t
  refine congrArg _ (funext fun a => Fin.ext ?_)
  match a with
  | ⟨0, _⟩ => show win1_0.index t (0 : Fin 2) * 16 + 1 * r.val = t.val / 4 * 16 + r.val; omega
  | ⟨1, _⟩ => show win1_0.index t (1 : Fin 2) * 512 + 1 * j.val = j.val; omega

theorem block1_apply (c : Dev nD) (t : Fin cfg1.N) (r : Fin 16) (k : Fin 128) :
    blockAt V c 1 t (ix2 r k) = V c main_v0 (ix2 ⟨t.val / 4 * 16 + r.val, row_lt t r⟩ ⟨t.val % 4 * 128 + k.val, col_lt t k⟩) := by
  unfold blockAt
  show V c main_v0 (((cfg1.win 1).blk t).view.emb (ix2 r k)) = _
  obtain ⟨-, -, e0, e1, -⟩ := idx1 t
  refine congrArg _ (funext fun a => Fin.ext ?_)
  match a with
  | ⟨0, _⟩ => show win1_1.index t (0 : Fin 2) * 16 + 1 * r.val = t.val / 4 * 16 + r.val; omega
  | ⟨1, _⟩ => show win1_1.index t (1 : Fin 2) * 128 + 1 * k.val = t.val % 4 * 128 + k.val; omega

theorem block2_apply (c : Dev nD) (t : Fin cfg1.N) (r : Fin 16) (u : Fin 1) :
    blockAt V c 2 t (ix2 r u) = V c main_v1 (ix2 ⟨t.val / 4 * 16 + r.val, row_lt t r⟩ u) := by
  unfold blockAt
  show V c main_v1 (((cfg1.win 2).blk t).view.emb (ix2 r u)) = _
  obtain ⟨-, -, -, -, e0, e1, -⟩ := idx1 t
  refine congrArg _ (funext fun a => Fin.ext ?_)
  match a with
  | ⟨0, _⟩ => show win1_2.index t (0 : Fin 2) * 16 + 1 * r.val = t.val / 4 * 16 + r.val; omega
  | ⟨1, _⟩ => show win1_2.index t (1 : Fin 2) * 1 + 1 * u.val = u.val; omega

theorem block3_apply (c : Dev nD) (t : Fin cfg1.N) (u : Fin 1) (j : Fin 512) :
    blockAt V c 3 t (ix2 u j) = V c main_v2 (ix2 u j) := by
  unfold blockAt
  show V c main_v2 (((cfg1.win 3).blk t).view.emb (ix2 u j)) = _
  obtain ⟨-, -, -, -, -, -, e0, e1, -⟩ := idx1 t
  refine congrArg _ (funext fun a => Fin.ext ?_)
  match a with
  | ⟨0, _⟩ => show win1_3.index t (0 : Fin 2) * 1 + 1 * u.val = u.val; omega
  | ⟨1, _⟩ => show win1_3.index t (1 : Fin 2) * 512 + 1 * j.val = j.val; omega

theorem block4_apply (c : Dev nD) (t : Fin cfg1.N) (u : Fin 1) (k : Fin 128) :
    blockAt V c 4 t (ix2 u k) = V c main_v2 (ix2 u ⟨t.val % 4 * 128 + k.val, col_lt t k⟩) := by
  unfold blockAt
  show V c main_v2 (((cfg1.win 4).blk t).view.emb (ix2 u k)) = _
  obtain ⟨-, -, -, -, -, -, -, -, e0, e1, -⟩ := idx1 t
  refine congrArg _ (funext fun a => Fin.ext ?_)
  match a with
  | ⟨0, _⟩ => show win1_4.index t (0 : Fin 2) * 1 + 1 * u.val = u.val; omega
  | ⟨1, _⟩ => show win1_4.index t (1 : Fin 2) * 128 + 1 * k.val = t.val % 4 * 128 + k.val; omega

end Cert.KernelIdeal.Triplet

end
-- ==== Proof.Spec.lean ====
/-
  The common specification of the triplet loss, over the extended reals.

  For labels l and a matrix D of squared distances, a triplet (i, j, k) is valid when i and j are different rows with
  equal labels and k is a row whose label differs from i's; its loss is softplus (D i j - D i k), where
  softplus s = max s 0 + log (1 + exp (-|s|)).  The loss sum is the sum of the valid triplets' losses.  Both programs
  compute this sum (the kernel tile by tile with 0/1 masks as factors, the reference over all triples with the mask as a
  selector) and divide it by the number of valid triplets.
-/
import Idealize.ShloMosaic.PureOps.Ideal
import Idealize.ShloMosaic.Lib.ValueIdx

noncomputable section

namespace Cert.Spec

open Idealize.ShloMosaic

/-- softplus, in the form both programs compute it: max s 0 + log1p (exp (-|s|)), with |s| = max s (-s). -/
def softplus (s : EReal) : EReal := max s 0 + Ideal.log1p (Ideal.exp (-(max s (-s))))

/-- Rows i and j are different and carry equal labels. -/
def Same (l : Fin 512 → BitVec 32) (i j : Fin 512) : Prop := l i = l j ∧ i ≠ j

/-- Rows i and k carry different labels. -/
def Diff (l : Fin 512 → BitVec 32) (i k : Fin 512) : Prop := l i ≠ l k

instance (l : Fin 512 → BitVec 32) (i j : Fin 512) : Decidable (Same l i j) := by unfold Same; infer_instance
instance (l : Fin 512 → BitVec 32) (i k : Fin 512) : Decidable (Diff l i k) := by unfold Diff; infer_instance

/-- The loss sum over all valid triplets. -/
def lossSum (D : Fin 512 → Fin 512 → EReal) (l : Fin 512 → BitVec 32) : EReal :=
  ∑ i : Fin 512, ∑ j : Fin 512, ∑ k : Fin 512, if Same l i j ∧ Diff l i k then softplus (D i j - D i k) else 0

end Cert.Spec

end
-- ==== Proof.Total.lean ====
/-
  The running total is the sum of the tiles.

  At each grid point the body adds one tile's sum to the 1 x 1 running total, which the first point starts from the zero
  it has just stored.  So after point n the total is the sum of the tile sums of points 0 … n.  A tile's sum is, over the
  16 rows of the band, the 512 columns and the tile's 128 columns, the softplus of the difference of two distances,
  times the 0/1 factor "different labels", summed over the tile's columns, times the 0/1 factor "same label, different
  row".
-/
import proofs.«181167_j73899207295321_2_alg».proof.Proof.Pieces
import proofs.«181167_j73899207295321_2_alg».proof.Proof.Blocks
import proofs.«181167_j73899207295321_2_alg».proof.Proof.Spec
import Idealize.ShloMosaic.PureOps.Ideal
import Idealize.ShloMosaic.PureOps.Ideal.Laws
import Idealize.ShloMosaic.Lib.ValueIdx

set_option maxRecDepth 16384

noncomputable section

namespace Cert.KernelIdeal.Triplet

open Cert.KernelIdeal Cert.KernelIdeal.Gen
open Idealize.ShloMosaic Idealize.ShloMosaic.ValueIdx Idealize.ShloMosaic.TcCoe Idealize.SL.Sem

/-- One tile's sum, from the blocks the body reads at grid coordinates i. -/
def tileSum (i : grid1.Coords) (x0 : Vec Ideal S16x512 .f32) (x1 : Vec Ideal S16x128 .f32) (x2 : Vec Ideal S16x1 .i32)
    (x3 : Vec Ideal S1x512 .i32) (x4 : Vec Ideal S1x128 .i32) : EReal :=
  ∑ r : Fin 16, ∑ j : Fin 512,
    (∑ k : Fin 128, Cert.Spec.softplus (x0 (ix2 r j) - x1 (ix2 r k)) * (if x2 (ix2 r 0) ≠ x4 (ix2 0 k) then (1 : EReal) else 0))
      * (if x2 (ix2 r 0) = x3 (ix2 0 j) ∧ (i 0).val * 16 + r.val ≠ j.val then (1 : EReal) else 0)

/-- The law of one tile: the body's arithmetic at the one entry of the total is the running total plus the tile's sum. -/
def TileLaw : Prop :=
  ∀ (i : grid1.Coords) (x0 : Vec Ideal S16x512 .f32) (x1 : Vec Ideal S16x128 .f32) (x2 : Vec Ideal S16x1 .i32)
    (x3 : Vec Ideal S1x512 .i32) (x4 : Vec Ideal S1x128 .i32) (acc : Vec Ideal S1x1 .f32),
    k1_pay1 (F := Ideal) (k1_pay4 i x2 x3) (k1_pay5 x2 x4) (k1_pay6 x0 x1) (Scalar.ofBits .f32 0x00000000#32) (k1_pay7 x0 x1) k1_pay8 acc (ix2 0 0)
      = acc (ix2 0 0) + tileSum i x0 x1 x2 x3 x4

variable (V : (c : Dev nD) → (b : Ref sig .tc) → Buf (Elt Ideal) ((c : Thread nD τ).loc b))

/-- The tile's sum at point n, from the windows' blocks there (0 past the grid). -/
def tileAt (c : Dev nD) (n : ℕ) : EReal :=
  if hn : n < cfg1.N then
    tileSum (grid1.coords ⟨n, hn⟩) (blockAt V c 0 ⟨n, hn⟩) (blockAt V c 1 ⟨n, hn⟩) (blockAt V c 2 ⟨n, hn⟩) (blockAt V c 3 ⟨n, hn⟩) (blockAt V c 4 ⟨n, hn⟩)
  else 0

/-- The zero the first point stores. -/
theorem zero_stored : k1_pay2 (F := Ideal) (ix2 0 0) = 0 := by
  show Ideal.ofBits .f32 0x00000000#32 = 0
  exact Ideal.ofBits_zero_f32

/-- After point n the running total is the sum of the tile sums of points 0 … n. -/
theorem total_eq (h : TileLaw) (c : Dev nD) : ∀ (n : ℕ) (hn : n < cfg1.N),
    totalAt V c n hn (ix2 0 0) = ∑ k ∈ Finset.range (n + 1), tileAt V c k
  | 0, hn => by
    show afterReset c ⟨0, hn⟩ _ _ _ _ _ _ (ix2 0 0) = _
    rw [afterReset_eq, h, zero_stored, zero_add, Finset.sum_range_one, tileAt, dif_pos hn]
  | n + 1, hn => by
    show afterAdd c ⟨n + 1, hn⟩ _ _ _ _ _ _ (totalAt V c n (Nat.lt_of_succ_lt hn)) (ix2 0 0) = _
    rw [afterAdd_eq, h, total_eq h c n (Nat.lt_of_succ_lt hn), Finset.sum_range_succ _ (n + 1), tileAt, dif_pos hn]

end Cert.KernelIdeal.Triplet

end
-- ==== Proof.LibBlockSums.lean ====
/-
  Two laws of finite sums in an additive commutative monoid (no finiteness of the values is needed, so they
  hold in the extended reals as they stand): a sum over n·b indices is the sum over the n blocks of the sums
  within each block, and an accumulator that adds one term per step holds the partial sum.
-/
import Idealize.ShloMosaic.PureOps.Ideal
import Mathlib.Algebra.BigOperators.Fin
import Mathlib.Logic.Equiv.Fin.Basic

open scoped BigOperators

namespace Cert.BlockSums

/-- The `j`-th index of block `t`, among `n` blocks of `b` indices each, is below `n * b`. -/
theorem blk_lt {n b : ℕ} (t : Fin n) (j : Fin b) : t.val * b + j.val < n * b :=
  calc t.val * b + j.val < t.val * b + b := Nat.add_lt_add_left j.isLt _
    _ = (t.val + 1) * b := (Nat.succ_mul _ _).symm
    _ ≤ n * b := Nat.mul_le_mul_right b t.isLt

/-- a sum over n·b indices is the sum over n blocks of the sums over each block's b indices -/
theorem sum_blocks {M : Type*} [AddCommMonoid M] (n b : ℕ) (f : Fin (n * b) → M) :
    ∑ i : Fin (n * b), f i = ∑ t : Fin n, ∑ j : Fin b, f ⟨t.val * b + j.val, blk_lt t j⟩ := by
  rw [← Equiv.sum_comp (finProdFinEquiv (m := n) (n := b)) f, Fintype.sum_prod_type]
  refine Finset.sum_congr rfl fun t _ => Finset.sum_congr rfl fun j _ => ?_
  refine congrArg f (Fin.ext ?_)
  show j.val + b * t.val = t.val * b + j.val
  rw [Nat.mul_comm, Nat.add_comm]

/-- 4096 indices are 8 blocks of 512. -/
theorem sum_blocks_4096 {M : Type*} [AddCommMonoid M] (f : Fin 4096 → M) :
    ∑ i : Fin 4096, f i = ∑ t : Fin 8, ∑ j : Fin 512, f ⟨t.val * 512 + j.val, by
      have := t.isLt; have := j.isLt; omega⟩ :=
  sum_blocks 8 512 f

/-- 16384 indices are 16 blocks of 1024. -/
theorem sum_blocks_16384 {M : Type*} [AddCommMonoid M] (f : Fin 16384 → M) :
    ∑ k : Fin 16384, f k = ∑ t : Fin 16, ∑ j : Fin 1024, f ⟨t.val * 1024 + j.val, by
      have := t.isLt; have := j.isLt; omega⟩ :=
  sum_blocks 16 1024 f

/-- an accumulator that starts at zero-plus-first-block and adds one block per step holds the sum of the blocks so far -/
theorem acc_eq_sum {M : Type*} [AddCommMonoid M] (p : ℕ → M) (acc : ℕ → M) (h0 : acc 0 = 0 + p 0)
    (hs : ∀ n, acc (n + 1) = acc n + p (n + 1)) (n : ℕ) :
    acc n = ∑ k ∈ Finset.range (n + 1), p k := by
  induction n with
  | zero => rw [h0, zero_add, Finset.sum_range_one]
  | succ n ih => rw [Finset.sum_range_succ _ (n + 1), hs, ih]

/-- after the last step the accumulator holds the sum of all the blocks -/
theorem acc_last {M : Type*} [AddCommMonoid M] (N : ℕ) (p : ℕ → M) (acc : ℕ → M) (h0 : acc 0 = 0 + p 0)
    (hs : ∀ n, acc (n + 1) = acc n + p (n + 1)) :
    acc N = ∑ t : Fin (N + 1), p t.val := by
  rw [acc_eq_sum p acc h0 hs N, Finset.sum_range]

end Cert.BlockSums
-- ==== Proof.Regroup.lean ====
/-
  Regrouping the tiles' sums into one sum over all triples.

  The 128 grid points are 32 row bands times 4 column blocks: point t is band t / 4 and block t % 4, a band holds 16 rows
  and a block 128 columns.  Summing, over the points, each point's sum over its 16 rows, all 512 columns j and its 128
  columns k is summing over all 512 rows i, all j and all 512 columns k: sums in an additive commutative monoid can be
  regrouped and reordered freely.  A factor that is exactly 0 or 1 can be moved inside a sum as a selector, whatever the
  terms are, because a * 1 = a and a * 0 = 0 for every extended real.
-/
import proofs.«181167_j73899207295321_2_alg».proof.Proof.LibBlockSums
import proofs.«181167_j73899207295321_2_alg».proof.Proof.Spec

open scoped BigOperators

noncomputable section

namespace Cert.Regroup

/-- Row 16 (t/4) + r of band t / 4, and column 128 (t%4) + k of block t % 4. -/
def rowOf (t : Fin 128) (r : Fin 16) : Fin 512 := ⟨t.val / 4 * 16 + r.val, by have := t.isLt; have := r.isLt; omega⟩
def colOf (t : Fin 128) (k : Fin 128) : Fin 512 := ⟨t.val % 4 * 128 + k.val, by have := k.isLt; omega⟩

/-- A 0/1 factor on a sum is a selector on its terms. -/
theorem sum_mul_ind {ι : Type} (s : Finset ι) (f : ι → EReal) (p : Prop) [Decidable p] :
    (∑ x ∈ s, f x) * (if p then (1 : EReal) else 0) = ∑ x ∈ s, if p then f x else 0 := by
  split
  · rw [mul_one]
  · rw [mul_zero, Finset.sum_const_zero]

/-- The same for one term. -/
theorem mul_ind (a : EReal) (p : Prop) [Decidable p] : a * (if p then (1 : EReal) else 0) = if p then a else 0 := by
  split
  · rw [mul_one]
  · rw [mul_zero]

/-- Points are bands times blocks; rows are bands times 16; columns are blocks times 128. -/
theorem sum_points {M : Type*} [AddCommMonoid M] (H : Fin 512 → Fin 512 → Fin 512 → M) :
    ∑ t : Fin 128, ∑ r : Fin 16, ∑ j : Fin 512, ∑ k : Fin 128, H (rowOf t r) j (colOf t k)
      = ∑ i : Fin 512, ∑ j : Fin 512, ∑ k : Fin 512, H i j k := by
  have e1 : ∑ t : Fin 128, ∑ r : Fin 16, ∑ j : Fin 512, ∑ k : Fin 128, H (rowOf t r) j (colOf t k)
      = ∑ b : Fin 32, ∑ q : Fin 4, ∑ r : Fin 16, ∑ j : Fin 512, ∑ k : Fin 128,
          H ⟨b.val * 16 + r.val, Cert.BlockSums.blk_lt b r⟩ j ⟨q.val * 128 + k.val, Cert.BlockSums.blk_lt q k⟩ := by
    rw [Cert.BlockSums.sum_blocks 32 4 (fun t : Fin (32 * 4) => ∑ r : Fin 16, ∑ j : Fin 512, ∑ k : Fin 128, H (rowOf t r) j (colOf t k))]
    refine Finset.sum_congr rfl fun b _ => Finset.sum_congr rfl fun q _ => Finset.sum_congr rfl fun r _ =>
      Finset.sum_congr rfl fun j _ => Finset.sum_congr rfl fun k _ => ?_
    have hb := b.isLt; have hq := q.isLt
    congr 1
    · exact Fin.ext (by show (b.val * 4 + q.val) / 4 * 16 + r.val = b.val * 16 + r.val; omega)
    · exact Fin.ext (by show (b.val * 4 + q.val) % 4 * 128 + k.val = q.val * 128 + k.val; omega)
  rw [e1]
  -- bring the blocks next to their columns
  have e2 : ∀ b : Fin 32, ∑ q : Fin 4, ∑ r : Fin 16, ∑ j : Fin 512, ∑ k : Fin 128,
        H ⟨b.val * 16 + r.val, Cert.BlockSums.blk_lt b r⟩ j ⟨q.val * 128 + k.val, Cert.BlockSums.blk_lt q k⟩
      = ∑ r : Fin 16, ∑ j : Fin 512, ∑ k : Fin 512, H ⟨b.val * 16 + r.val, Cert.BlockSums.blk_lt b r⟩ j k := fun b => by
    rw [Finset.sum_comm]
    refine Finset.sum_congr rfl fun r _ => ?_
    rw [Finset.sum_comm]
    refine Finset.sum_congr rfl fun j _ => ?_
    exact (Cert.BlockSums.sum_blocks 4 128 (fun k : Fin (4 * 128) => H ⟨b.val * 16 + r.val, Cert.BlockSums.blk_lt b r⟩ j k)).symm
  rw [Finset.sum_congr rfl fun b _ => e2 b]
  exact (Cert.BlockSums.sum_blocks 32 16 (fun i : Fin (32 * 16) => ∑ j : Fin 512, ∑ k : Fin 512, H i j k)).symm

/-- The tiles' sums, with the two 0/1 factors, are the specification's loss sum. -/
theorem tiles_eq_lossSum (D : Fin 512 → Fin 512 → EReal) (l : Fin 512 → BitVec 32) :
    ∑ t : Fin 128, ∑ r : Fin 16, ∑ j : Fin 512,
        (∑ k : Fin 128, Cert.Spec.softplus (D (rowOf t r) j - D (rowOf t r) (colOf t k))
            * (if l (rowOf t r) ≠ l (colOf t k) then (1 : EReal) else 0))
          * (if l (rowOf t r) = l j ∧ (rowOf t r) ≠ j then (1 : EReal) else 0)
      = Cert.Spec.lossSum D l := by
  unfold Cert.Spec.lossSum
  rw [← sum_points (fun i j k => if Cert.Spec.Same l i j ∧ Cert.Spec.Diff l i k then Cert.Spec.softplus (D i j - D i k) else 0)]
  refine Finset.sum_congr rfl fun t _ => Finset.sum_congr rfl fun r _ => Finset.sum_congr rfl fun j _ => ?_
  rw [sum_mul_ind]
  refine Finset.sum_congr rfl fun k _ => ?_
  rw [mul_ind]
  unfold Cert.Spec.Same Cert.Spec.Diff
  by_cases hs : l (rowOf t r) = l j ∧ rowOf t r ≠ j <;> by_cases hd : l (rowOf t r) ≠ l (colOf t k) <;> simp [hs, hd]

end Cert.Regroup

end
-- ==== Proof.LibColumn.lean ====
/-
  Two layout operations read at an index given by coordinates, for a column kept after a sum along the rows'
  entries (`keepdims`): a vector `[a]` cast to the column `[a, 1]`, and a column `[a, 1]` broadcast along a new
  second axis to `[a, b]`. Both are instances of the general "layout operation read at an index" lemmas with the
  coordinates' arithmetic discharged, in the same form as the row versions the index library already has.
-/
import Idealize.ShloMosaic.Lib.Pipeline.Value
import Idealize.ShloMosaic.Lib.ValueIdx

namespace Cert.GraphConv.Column

open Idealize.ShloMosaic Idealize.ShloMosaic.ValueIdx

variable {α : Type}

/-- A vector `[a]` cast to the column `[a, 1]` reads, at `(i, u)`, the operand at `i`, whatever the unit
    coordinate `u`: both indices have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.GraphConv.Column
-- ==== Proof.KernelValue.lean ====
/-
  The idealized kernel's result, as a function of its arguments.

  Read at the ideal instance from the launch contents x (the input array) and l (the labels): the second region finds the
  distance matrix D = the first region's arithmetic of x, the labels as a column and the labels as a row; at point t its
  tile sum is over rows 16 (t/4) + r, all columns j and columns 128 (t%4) + k of D; the total after the last point is the
  sum of the 128 tile sums, which regrouped is the loss sum over all valid triplets; the result is that sum divided by
  the kernel's count of valid triplets.
-/
import proofs.«181167_j73899207295321_2_alg».proof.Proof.HostValues
import proofs.«181167_j73899207295321_2_alg».proof.Proof.Total
import proofs.«181167_j73899207295321_2_alg».proof.Proof.Regroup
import proofs.«181167_j73899207295321_2_alg».proof.Proof.LibColumn
import Idealize.ShloMosaic.Lib.Pipeline.Value
import Idealize.ShloMosaic.Lib.ValueIdx
import Idealize.ShloMosaic.PureOps.Ideal.Laws

set_option maxRecDepth 16384

noncomputable section

namespace Cert.KernelIdeal.Value

open Cert.KernelIdeal Cert.KernelIdeal.Gen Cert.KernelIdeal.Whole Cert.KernelIdeal.Triplet
open Idealize.ShloMosaic Idealize.ShloMosaic.ValueIdx Idealize.ShloMosaic.TcCoe Idealize.SL.Sem
open Cert.Regroup

variable (m : (ℓ : Loc nD τ sig) → Buf (Elt Ideal) ℓ) (ρ : Dev nD → PrngReg)

/-- The input array and the labels on a core, as launched. -/
abbrev xOf (c : Dev nD) : FVec Ideal S512x128 .f32 := m ((c : Thread nD τ).loc main_arg0)
abbrev lOf (c : Dev nD) : IVec S512 32 := m ((c : Thread nD τ).loc main_arg1)
/-- The distance matrix and the labels, by coordinates. -/
abbrev D (c : Dev nD) (i j : Fin 512) : EReal := k0_pay1 (F := Ideal) (xOf m c) (ix2 i j)
abbrev lab (c : Dev nD) (i : Fin 512) : BitVec 32 := lOf m c (ix1 i)

/-- A vector [a] cast to the row [1, a] reads, at (u, j), the operand at j. -/
theorem shapeCast_a_1a_apply {α : Type} {a : ℕ} (x : (⟨1, ![a]⟩ : Shape).Idx → α) (h : (⟨1, ![a]⟩ : Shape).ShapeCasts ⟨2, ![1, a]⟩)
    (u : Fin 1) (j : Fin a) : shapeCast ⟨2, ![1, a]⟩ x h (ix2 u j) = x (ix1 j) :=
  shapeCast_apply x h _ _ (by
    have hu : u.val = 0 := by omega
    rw [Shape.rowMajor_val_two, Shape.rowMajor_val_one]
    show j.val = u.val * a + j.val
    rw [hu, Nat.zero_mul, Nat.zero_add])

theorem dist_apply (c : Dev nD) (i j : Fin 512) : V2 m ρ c main_v0 (ix2 i j) = D m c i j := by
  rw [V2_dist]
theorem lcol_apply (c : Dev nD) (i : Fin 512) (u : Fin 1) : V2 m ρ c main_v1 (ix2 i u) = lab m c i := by
  rw [V2_lcol, W1_labels]
  exact Cert.GraphConv.Column.shapeCast_a_a1_apply _ _ i u
theorem lrow_apply (c : Dev nD) (u : Fin 1) (j : Fin 512) : V2 m ρ c main_v2 (ix2 u j) = lab m c j := by
  rw [V2_lrow, W1_labels]
  exact shapeCast_a_1a_apply _ _ u j

theorem pt_lt (t : Fin 128) : t.val < cfg1.N := lt_of_lt_of_eq t.isLt N_1.symm

set_option maxHeartbeats 1000000 in
/-- A point's tile sum in the arrays' coordinates. -/
theorem tileAt_eq (c : Dev nD) (t : Fin 128) :
    tileAt (V2 m ρ) c t.val = ∑ r : Fin 16, ∑ j : Fin 512,
        (∑ k : Fin 128, Cert.Spec.softplus (D m c (rowOf t r) j - D m c (rowOf t r) (colOf t k))
            * (if lab m c (rowOf t r) ≠ lab m c (colOf t k) then (1 : EReal) else 0))
          * (if lab m c (rowOf t r) = lab m c j ∧ (rowOf t r) ≠ j then (1 : EReal) else 0) := by
  have hrow : ∀ r : Fin 16, (⟨t.val / 4 * 16 + r.val, row_lt ⟨t.val, pt_lt t⟩ r⟩ : Fin 512) = rowOf t r := fun r => rfl
  have hcol : ∀ k : Fin 128, (⟨t.val % 4 * 128 + k.val, col_lt ⟨t.val, pt_lt t⟩ k⟩ : Fin 512) = colOf t k := fun k => rfl
  have hi : ((grid1.coords ⟨t.val, pt_lt t⟩) 0).val = t.val / 4 := (idx1 ⟨t.val, pt_lt t⟩).2.2.2.2.2.2.2.2.2.2
  unfold tileAt
  rw [dif_pos (pt_lt t)]
  unfold tileSum
  refine Finset.sum_congr rfl fun r _ => Finset.sum_congr rfl fun j _ => ?_
  have e0 := block0_apply (V2 m ρ) c ⟨t.val, pt_lt t⟩ r j
  have e2 := block2_apply (V2 m ρ) c ⟨t.val, pt_lt t⟩ r 0
  have e3 := block3_apply (V2 m ρ) c ⟨t.val, pt_lt t⟩ 0 j
  rw [hrow, dist_apply] at e0
  rw [hrow, lcol_apply] at e2
  rw [lrow_apply] at e3
  have hne : (t.val / 4 * 16 + r.val ≠ j.val) ↔ (rowOf t r ≠ j) := by
    rw [Ne, Ne, Fin.ext_iff]; rfl
  rw [e0, e2, e3, hi]
  simp only [hne]
  refine congrArg (· * _) (Finset.sum_congr rfl fun k _ => ?_)
  have e1 := block1_apply (V2 m ρ) c ⟨t.val, pt_lt t⟩ r k
  have e4 := block4_apply (V2 m ρ) c ⟨t.val, pt_lt t⟩ 0 k
  rw [hrow, hcol, dist_apply] at e1
  rw [hcol, lrow_apply] at e4
  rw [e1, e4]

/-- The total after the last point is the loss sum over all valid triplets. -/
theorem total_last (h : TileLaw) (c : Dev nD) :
    totalAt (V2 m ρ) c 127 Finals.last_lt (ix2 0 0) = Cert.Spec.lossSum (D m c) (lab m c) := by
  rw [total_eq (V2 m ρ) h c 127 Finals.last_lt, Finset.sum_range (fun k => tileAt (V2 m ρ) c k),
    Finset.sum_congr rfl fun t _ => tileAt_eq m ρ c t]
  exact tiles_eq_lossSum (D m c) (lab m c)

end Cert.KernelIdeal.Value

end
-- ==== Proof.LibLaneSum.lean ====
/-
  A float sum along ONE axis of a vector, read over the extended reals at an index given by coordinates: it is the
  finite sum over that axis's coordinate of the source at the index with the coordinate put back. Three forms:
  along the last axis of a matrix `[a, b]` (each row's sum), along the last axis of a rank-3 array `[a, c, b]`
  (each row's sum, slab by slab), and along the first axis of a matrix `[a, b]` (each column's sum). Each is the
  general one-axis law with the re-inserted index written by coordinates.
-/
import Idealize.ShloMosaic.PureOps.Ideal.Laws
import Idealize.ShloMosaic.Lib.ValueIdx

namespace Cert.LaneSum

open Idealize.ShloMosaic Idealize.ShloMosaic.ValueIdx

variable {φ : FTy}

/-- The sum of row `i` of a matrix: over the column coordinate. -/
theorem sum_last2 {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ d : Fin b, src (ix2 i d) := by
  refine (Ideal.multiReduction_add_single src acc h hφ hacc (ix1 i)).trans ?_
  refine Finset.sum_congr rfl fun d _ => ?_
  exact congrArg src (funext fun ax => Fin.ext (by match ax with | ⟨0, _⟩ => rfl | ⟨1, _⟩ => rfl))

/-- The sum of row `(i, j)` of a rank-3 array: over the last coordinate. -/
theorem sum_last3 {a c b : ℕ} (src : FVec Ideal ⟨3, ![a, c, b]⟩ φ) (acc : BitVec φ.bits)
    (h : (⟨3, ![a, c, b]⟩ : Shape).Reduces [2] ⟨2, ![a, c]⟩) (hφ : FKind.Formats φ) (hacc : acc = FKind.add.neutral φ hφ)
    (i : Fin a) (j : Fin c) :
    multiReduction .add [2] ⟨2, ![a, c]⟩ src acc h hφ hacc (ix2 i j) = ∑ d : Fin b, src (ix3 i j d) := by
  refine (Ideal.multiReduction_add_single src acc h hφ hacc (ix2 i j)).trans ?_
  refine Finset.sum_congr rfl fun d _ => ?_
  exact congrArg src (funext fun ax => Fin.ext (by match ax with | ⟨0, _⟩ => rfl | ⟨1, _⟩ => rfl | ⟨2, _⟩ => rfl))

/-- The sum of column `j` of a matrix: over the row coordinate. -/
theorem sum_first2 {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (j : Fin b) :
    multiReduction .add [0] ⟨1, ![b]⟩ src acc h hφ hacc (ix1 j) = ∑ i : Fin a, src (ix2 i j) := by
  refine (Ideal.multiReduction_add_single src acc h hφ hacc (ix1 j)).trans ?_
  refine Finset.sum_congr rfl fun i _ => ?_
  exact congrArg src (funext fun ax => Fin.ext (by match ax with | ⟨0, _⟩ => rfl | ⟨1, _⟩ => rfl))

end Cert.LaneSum
-- ==== Proof.LibMidAxis.lean ====
/-
  Two layout operations read at an index given by coordinates, for a unit axis in the MIDDLE of a rank-3 shape: a
  matrix `[a, b]` cast to `[a, 1, b]` (each row kept as a one-row slab), and such a slab array `[a, 1, b]` broadcast
  along the unit axis to `[a, c, b]` (each row repeated `c` times). Both are instances of the general "layout operation
  read at an index" lemmas with the coordinates' arithmetic discharged, in the form the index library has for a
  leading unit axis.
-/
import Idealize.ShloMosaic.Lib.Pipeline.Value
import Idealize.ShloMosaic.Lib.ValueIdx

namespace Cert.MidAxis

open Idealize.ShloMosaic Idealize.ShloMosaic.ValueIdx

variable {α : Type}

/-- A matrix `[a, b]` cast to `[a, 1, b]` reads, at `(i, u, j)`, the operand at `(i, j)`, whatever the unit coordinate
    `u`: both indices have row-major position `i · b + j`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- A slab array `[a, 1, b]` broadcast to `[a, c, b]` reads, at `(i, k, j)`, the slab of row `i` at `j`. -/
theorem broadcastTo_a1b_acb_apply {a c b : ℕ} (v : (⟨3, ![a, 1, b]⟩ : Shape).Idx → α)
    (h : (⟨3, ![a, 1, b]⟩ : Shape).Broadcasts ⟨3, ![a, c, b]⟩) (i : Fin a) (k : Fin c) (j : Fin b) :
    broadcastTo ⟨3, ![a, c, b]⟩ v h (ix3 i k j) = v (ix3 i (0 : Fin 1) j) := by
  refine broadcastTo_apply v h (ix3 i k j) (ix3 i (0 : Fin 1) j) fun ax => ?_
  match ax with
  | ⟨0, _⟩ =>
    show i.val = if a = 1 then 0 else i.val
    split
    · have := i.isLt; omega
    · rfl
  | ⟨1, _⟩ => rfl
  | ⟨2, _⟩ =>
    show j.val = if b = 1 then 0 else j.val
    split
    · have := j.isLt; omega
    · rfl

end Cert.MidAxis
-- ==== Proof.TileSum.lean ====
/-
  One tile of the kernel's second region, as an explicit triple sum over the extended reals.

  At a grid point the body reads a 16 x 512 band and a 16 x 128 tile of the distance matrix, the labels of the band's
  rows (a column), of all 512 columns (a row) and of the tile's 128 columns (a row), and the running total. It forms
  the differences d(r, j, k) = band(r, j) - tile(r, k), their softplus max d 0 + log1p (exp (-|d|)), multiplies by the
  0/1 mask "the labels of r and k differ", sums over k, multiplies by the 0/1 mask "the labels of r and j are equal and
  the row's number is not j", sums over j and over r, and adds the result to the running total. This file reads each
  payload of that body at coordinates and puts them together: the stored value is the running total plus
  the sum over r, j of (the sum over k of softplus (d r j k) times the first mask) times the second mask.
  No finiteness is used: only x - 0 = x and 0 - a = -a on the extended reals, and that the zero word denotes 0.
-/
import proofs.«181167_j73899207295321_2_alg».proof.Proof.Gen.KernelIdeal.Skeleton
import proofs.«181167_j73899207295321_2_alg».proof.Proof.Spec
import proofs.«181167_j73899207295321_2_alg».proof.Proof.LibLaneSum
import proofs.«181167_j73899207295321_2_alg».proof.Proof.LibMidAxis
import proofs.«181167_j73899207295321_2_alg».proof.Proof.LibColumn
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal.Laws

noncomputable section

namespace Cert.Tile

open Idealize.ShloMosaic Idealize.ShloMosaic.ValueIdx Cert.KernelIdeal Cert.KernelIdeal.Gen

/-! ## A trailing unit axis: a matrix cast to slabs of one column, and such slabs repeated along the last axis -/

section Layout
variable {α : Type}

/-- A matrix `[a, b]` cast to `[a, b, 1]` reads, at `(i, j, u)`, the operand at `(i, j)`, whatever the unit coordinate
    `u`: both indices have row-major position `i · b + j`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An array `[a, b, 1]` broadcast to `[a, b, c]` reads, at `(i, j, k)`, the entry `(i, j)` of the operand. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

end Layout

/-! ## Elementwise operations read at an index, and the words of the two masks -/

section Elementwise
variable {s : Shape} {w : ℕ} {φ : FTy}

theorem cmpi_apply (p : CmpIPredicate) (x y : IVec s w) (i : s.Idx) : cmpi p x y i = IntOp.cmpi p (x i) (y i) := rfl
theorem andi_apply (x y : IVec s w) (i : s.Idx) : andi x y i = IntOp.andi (x i) (y i) := rfl
theorem addi_apply (x y : IVec s w) (i : s.Idx) : addi x y i = IntOp.addi (x i) (y i) := rfl
theorem absf_apply (x : FVec Ideal s φ) (i : s.Idx) : absf x i = max (x i) (-(x i)) := rfl
theorem exp_apply (x : FVec Ideal s φ) (i : s.Idx) : exp x i = Ideal.exp (x i) := rfl
theorem log1p_apply (x : FVec Ideal s φ) (i : s.Idx) : log1p x i = Ideal.log1p (x i) := rfl

end Elementwise

/-- A one-bit condition widened to 32 bits and converted to a float is `1` where the bit is set and `0` elsewhere. -/
theorem bit_float (c : BitVec 1) :
    (FloatOps.sitofp (F := Ideal) .f32 (c.setWidth 32) : EReal) = if c = 1#1 then 1 else 0 := by
  show (((c.setWidth 32).toInt : ℝ) : EReal) = _
  rw [toInt_setWidth_bit]
  rcases BitVec.eq_zero_or_eq_one c with h | h
  · subst h; rw [if_neg (by decide)]; simp
  · subst h; rw [if_pos rfl]; simp

theorem cmpi_ne_one {w : ℕ} (a b : BitVec w) : IntOp.cmpi .ne a b = 1#1 ↔ a ≠ b := by
  show BitVec.ofBool (a != b) = 1#1 ↔ a ≠ b
  by_cases h : a = b
  · subst h; simp
  · have hb : (a != b) = true := bne_iff_ne.mpr h
    rw [hb]; simp [h]

theorem cmpi_eq_one {w : ℕ} (a b : BitVec w) : IntOp.cmpi .eq a b = 1#1 ↔ a = b := by
  show BitVec.ofBool (a == b) = 1#1 ↔ a = b
  by_cases h : a = b
  · subst h; simp
  · have hb : (a == b) = false := beq_eq_false_iff_ne.mpr h
    rw [hb]; simp [h]

theorem andi_one (p q : BitVec 1) : IntOp.andi p q = 1#1 ↔ p = 1#1 ∧ q = 1#1 := by
  unfold IntOp.andi; revert p q; decide

/-- The row number `g · 16 + r` of the tile's row `r`, as a 32-bit word, differs from the column number `j` as a word
    exactly when the numbers differ: all of them are far below `2³²`. -/
theorem row_word_ne (g r j : ℕ) (hg : g < 32) (hr : r < 16) (hj : j < 512) :
    IntOp.addi (Scalar.muli (BitVec.ofNat 32 g) 16#32) (BitVec.ofNat 32 r) ≠ BitVec.ofNat 32 j ↔ g * 16 + r ≠ j := by
  unfold IntOp.addi Scalar.muli IntOp.muli
  rw [Ne, ← BitVec.toNat_inj, BitVec.toNat_add, BitVec.toNat_mul, BitVec.toNat_ofNat, BitVec.toNat_ofNat, BitVec.toNat_ofNat,
    BitVec.toNat_ofNat]
  norm_num
  omega

/-! ## The payloads read at coordinates -/

/-- The difference array at `(r, j, k)`: the band's entry `(r, j)` minus the tile's entry `(r, k)`. -/
theorem pay6_apply (x0 : Vec Ideal S16x512 .f32) (x1 : Vec Ideal S16x128 .f32) (r : Fin 16) (j : Fin 512) (k : Fin 128) :
    k1_pay6 (F := Ideal) x0 x1 (ix3 r j k) = x0 (ix2 r j) - x1 (ix2 r k) := by
  simp only [k1_pay6]
  rw [subf_apply, broadcastTo_ab1_abc_apply, shapeCast_ab_ab1_apply, shapeCast_self,
    MidAxis.broadcastTo_a1b_acb_apply, MidAxis.shapeCast_ab_a1b_apply, shapeCast_self]

/-- The zero splat reads `0` everywhere. -/
theorem pay8_apply (r : Fin 16) (j : Fin 512) (k : Fin 128) : k1_pay8 (F := Ideal) (ix3 r j k) = 0 := by
  simp only [k1_pay8]
  rw [broadcast_apply]
  exact Ideal.ofBits_zero_f32

/-- The clamped difference at `(r, j, k)`. -/
theorem pay7_apply (x0 : Vec Ideal S16x512 .f32) (x1 : Vec Ideal S16x128 .f32) (r : Fin 16) (j : Fin 512) (k : Fin 128) :
    k1_pay7 (F := Ideal) x0 x1 (ix3 r j k) = max (x0 (ix2 r j) - x1 (ix2 r k)) 0 := by
  simp only [k1_pay7]
  rw [maximumf_apply, pay6_apply, broadcast_apply]
  exact congrArg (max _) Ideal.ofBits_zero_f32

/-- The mask of differing labels at `(r, k)`. -/
theorem pay5_apply (x2 : Vec Ideal S16x1 .i32) (x4 : Vec Ideal S1x128 .i32) (r : Fin 16) (k : Fin 128) :
    k1_pay5 (F := Ideal) x2 x4 (ix2 r k) = if x2 (ix2 r 0) ≠ x4 (ix2 0 k) then (1 : EReal) else 0 := by
  simp only [k1_pay5, k1_pay3]
  rw [sitofp_apply, extui_apply, bit_float, cmpi_apply, GraphConv.Column.broadcastTo_a1_ab_apply, shapeCast_self,
    broadcastTo_1b_ab_apply, shapeCast_self]
  exact if_congr (cmpi_ne_one _ _) rfl rfl

/-- The mask of equal labels off the diagonal at `(r, j)`: the row's label equals column `j`'s, and the row's number
    in the whole matrix, `16` times the grid coordinate plus `r`, is not `j`. -/
theorem pay4_apply (i : grid1.Coords) (x2 : Vec Ideal S16x1 .i32) (x3 : Vec Ideal S1x512 .i32) (r : Fin 16) (j : Fin 512) :
    k1_pay4 (F := Ideal) i x2 x3 (ix2 r j)
      = if x2 (ix2 r 0) = x3 (ix2 0 j) ∧ (i 0).val * 16 + r.val ≠ j.val then (1 : EReal) else 0 := by
  have hg : (i 0).val < 32 := (i 0).isLt
  simp only [k1_pay4, k1_pay3]
  rw [sitofp_apply, extui_apply, bit_float, andi_apply, cmpi_apply, cmpi_apply,
    GraphConv.Column.broadcastTo_a1_ab_apply, shapeCast_self, broadcastTo_1b_ab_apply, shapeCast_self,
    GraphConv.Column.broadcastTo_a1_ab_apply, addi_apply, broadcast_apply, iota_single_apply,
    broadcastTo_1b_ab_apply, iota_single_apply]
  refine if_congr ?_ rfl rfl
  rw [andi_one, cmpi_eq_one, cmpi_ne_one]
  exact and_congr Iff.rfl (row_word_ne (i 0).val r.val j.val hg r.isLt j.isLt)

/-! ## One tile's contribution -/

/-- A comparison "ordered and not equal" of a value with itself is never set, so a select on it takes its second value. -/
theorem select_one_self (s a b : EReal) : Scalar.select (Ideal.cmp .one s s) a b = b := by
  unfold Ideal.cmp Scalar.select
  simp

/-- The stored value at the one index of the running total: the total read plus the tile's triple sum. -/
theorem tile_eq (i : grid1.Coords) (x0 : Vec Ideal S16x512 .f32) (x1 : Vec Ideal S16x128 .f32) (x2 : Vec Ideal S16x1 .i32)
    (x3 : Vec Ideal S1x512 .i32) (x4 : Vec Ideal S1x128 .i32) (acc : Vec Ideal S1x1 .f32) :
    k1_pay1 (F := Ideal) (k1_pay4 i x2 x3) (k1_pay5 x2 x4) (k1_pay6 x0 x1) (Scalar.ofBits .f32 0x00000000#32) (k1_pay7 x0 x1) k1_pay8 acc (ix2 0 0)
      = acc (ix2 0 0) + ∑ r : Fin 16, ∑ j : Fin 512,
          (∑ k : Fin 128, Cert.Spec.softplus (x0 (ix2 r j) - x1 (ix2 r k)) * (if x2 (ix2 r 0) ≠ x4 (ix2 0 k) then (1 : EReal) else 0))
            * (if x2 (ix2 r 0) = x3 (ix2 0 j) ∧ (i 0).val * 16 + r.val ≠ j.val then (1 : EReal) else 0) := by
  simp only [k1_pay1]
  rw [addf_apply, shapeCast_self, GraphConv.Column.shapeCast_a_a1_apply]
  refine congrArg (acc (ix2 0 0) + ·) ?_
  refine (LaneSum.sum_first2 (a := 16) (b := 1) _ _ reduces_S16x1_S1 _ _ (0 : Fin 1)).trans ?_
  refine Finset.sum_congr rfl fun r _ => ?_
  rw [GraphConv.Column.shapeCast_a_a1_apply]
  refine (LaneSum.sum_last2 (a := 16) (b := 512) _ _ reduces_S16x512_S16 _ _ r).trans ?_
  refine Finset.sum_congr rfl fun j _ => ?_
  rw [mulf_apply, pay4_apply]
  refine congrArg (· * _) ?_
  refine (LaneSum.sum_last3 (a := 16) (c := 512) (b := 128) _ _ reduces_S16x512x128_S16x512 _ _ r j).trans ?_
  refine Finset.sum_congr rfl fun k _ => ?_
  rw [mulf_apply, MidAxis.broadcastTo_a1b_acb_apply, MidAxis.shapeCast_ab_a1b_apply, pay5_apply]
  refine congrArg (· * _) ?_
  rw [select_apply, cmpf_apply, Ideal.cmpf_def, select_one_self, addf_apply, log1p_apply, exp_apply, subf_apply, absf_apply,
    subf_apply, broadcast_apply, pay7_apply, pay6_apply, pay8_apply]
  show max _ 0 + Ideal.log1p (Ideal.exp (Ideal.ofBits .f32 0x00000000#32 - _)) = _
  rw [Ideal.ofBits_zero_f32, sub_zero, zero_sub]
  rfl

end Cert.Tile

end
-- ==== Proof.CountEq.lean ====
/-
  The number of valid triplets, computed two ways in 32-bit integers, is one number.

  In the commutative ring of 32-bit words, with a(i, j) the 0/1 word of "rows i and j differ and carry equal labels" and
  b(i, k) the 0/1 word of "rows i and k carry different labels",
      sum over i of (sum over j of a(i, j)) * (sum over k of b(i, k))  =  sum over (i, j, k) of a(i, j) * b(i, k),
  and for one-bit words p, q the widening of (p and q) is the product of the widenings.
-/
import proofs.«181167_j73899207295321_2_alg».proof.Proof.CountTerms
import Idealize.ShloMosaic.PureOps.Reduce
import Idealize.ShloMosaic.Lib.ValueIdx
import Idealize.ShloMosaic.Lib.Pipeline.Value
import Mathlib.Data.BitVec

noncomputable section

namespace Cert.Count

open Idealize.ShloMosaic Idealize.ShloMosaic.ValueIdx
open scoped BigOperators

/-! ## A reduce by addition is a sum -/

/-- A fold by addition of 32-bit words over a finite set is the initial word plus the sum. -/
theorem fold_addi_eq_sum {ι : Type} (S : Finset ι) (init : BitVec 32) (x : ι → BitVec 32) :
    S.fold IntOp.addi init x = init + ∑ i ∈ S, x i := by
  induction S using Finset.cons_induction with
  | empty => simp
  | cons a S ha ih =>
    rw [Finset.fold_cons, Finset.sum_cons, ih]
    show x a + (init + _) = _
    exact add_left_comm _ _ _

/-- A reduce by addition over ONE axis is, at a result index, the initial word plus the sum along that axis. -/
theorem hostReduce_addi_single {s t u : Shape} {a : Fin s.rank} (x : s.Idx → BitVec 32) (init : u.Idx → BitVec 32)
    (h' : s.ReducesTo [a] t) (h : s.Reduces [a] t) (hu : 0 < u.numel) (j : t.Idx) :
    Host.reduce IntOp.addi x init h' hu j = init (Shape.Idx.first hu) + ∑ k : Fin (s.size a), x (h.lift j k) := by
  rw [Host.reduce_eq_fold, fold_addi_eq_sum, Shape.ReducesTo.drop_eq_drop h' h, h.sum_filter_drop_single]

/-- A reduce by addition into the scalar shape is the initial word plus the sum over every index of the operand. -/
theorem hostReduce_addi_total {s u : Shape} {axes : List (Fin s.rank)} (x : s.Idx → BitVec 32) (init : u.Idx → BitVec 32)
    (h : s.ReducesTo axes ⟨0, ![]⟩) (hu : 0 < u.numel) (j : (⟨0, ![]⟩ : Shape).Idx) :
    Host.reduce IntOp.addi x init h hu j = init (Shape.Idx.first hu) + ∑ i, x i := by
  rw [Host.reduce_eq_fold, fold_addi_eq_sum,
    Finset.filter_true_of_mem (fun i _ => (eq_ix0 (h.drop i)).trans (eq_ix0 j).symm)]

/-! ## A rank-3 index set is the product of its three coordinate ranges -/

def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- For one-bit words the widening of the conjunction is the product of the widenings. -/
theorem setWidth_andi (p q : BitVec 1) : (IntOp.andi p q).setWidth 32 = p.setWidth 32 * q.setWidth 32 := by
  revert p q; decide

/-! ## A rank-1 index set is its one coordinate range -/

def idxEquiv1 {n : Nat} : (⟨1, ![n]⟩ : Shape).Idx ≃ Fin n where
  toFun i := i 0
  invFun a := ix1 a
  left_inv i := (eq_ix1 i).symm
  right_inv _ := rfl

theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## The kernel's count as sums over coordinates -/

section Kernel
open Cert.KernelIdeal Cert.KernelIdeal.Facts₀ Cert.KernelIdeal.Facts
variable [Cert.KernelIdeal.Facts]

/-- Dropping axis 1 of a 512 x 512 shape leaves the 512 rows. -/
theorem reduces_rows : S512x512.Reduces [1] S512 := by decide

/-- Row i with column k inserted is the index (i, k). -/
theorem lift_rows (i : S512.Idx) (k : Fin 512) : reduces_rows.lift i k = ix2 (i 0) k := by
  funext c
  match c with
  | ⟨0, _⟩ => exact Fin.ext rfl
  | ⟨1, _⟩ => exact Fin.ext rfl

/-- The sum along a row of the widened bits of a 512 x 512 array of bits. -/
theorem rowSum_eq (m : IVec S512x512 1) (i : Fin 512) :
    Host.reduce IntOp.addi (extui 32 m natLt_1_32) (constantI S_ 32 0#32) reducesTo_S512x512_S512_d1 h_S_ (ix1 i)
      = ∑ b : Fin 512, (m (ix2 i b)).setWidth 32 := by
  rw [hostReduce_addi_single _ _ _ reduces_rows]
  show (0 : BitVec 32) + ∑ b : Fin 512, _ = _
  rw [zero_add]
  refine Finset.sum_congr rfl fun b _ => ?_
  rw [lift_rows]
  rfl

theorem kernelCount_eq (l : IVec S512 32) (j : S_.Idx) :
    kernelCount l j = ∑ i : Fin 512,
      (∑ b : Fin 512, (kSame l (ix2 i b)).setWidth 32) * (∑ c : Fin 512, (kDiff l (ix2 i c)).setWidth 32) := by
  unfold kernelCount
  rw [hostReduce_addi_total, sum_idx1]
  show (0 : BitVec 32) + _ = _
  rw [zero_add]
  refine Finset.sum_congr rfl fun i _ => ?_
  show Host.reduce IntOp.addi _ _ _ _ (ix1 i) * Host.reduce IntOp.addi _ _ _ _ (ix1 i) = _
  rw [rowSum_eq, rowSum_eq]

end Kernel

/-! ## The reference's count as a sum over coordinates -/

section Reference
open Cert.ReferenceIdeal Cert.ReferenceIdeal.Facts₀ Cert.ReferenceIdeal.Facts
variable [Cert.ReferenceIdeal.Facts]

/-- The (i, j) mask copied along k reads (i, j) at (i, j, k). -/
theorem bcast_ij {α : Type} (m : S512x512.Idx → α) (a b c : Fin 512) :
    broadcastInDim S512x512x512 ![0, 1, 2] bcast_S512x512x1_S512x512x512_0_1_2
      (broadcastInDim S512x512x1 ![0, 1] bcast_S512x512_S512x512x1_0_1 m) (ix3 a b c) = m (ix2 a b) :=
  (broadcastInDim_apply ![0, 1, 2] bcast_S512x512x1_S512x512x512_0_1_2 _ (ix3 a b c) (ix3 a b ⟨0, Nat.one_pos⟩)
    (fun ax => match ax with | ⟨0, _⟩ => rfl | ⟨1, _⟩ => rfl | ⟨2, _⟩ => rfl)).trans
  (broadcastInDim_apply ![0, 1] bcast_S512x512_S512x512x1_0_1 m (ix3 a b ⟨0, Nat.one_pos⟩) (ix2 a b)
    (fun ax => match ax with | ⟨0, _⟩ => rfl | ⟨1, _⟩ => rfl))

/-- The (i, k) mask copied along j reads (i, k) at (i, j, k). -/
theorem bcast_ik {α : Type} (m : S512x512.Idx → α) (a b c : Fin 512) :
    broadcastInDim S512x512x512 ![0, 1, 2] bcast_S512x1x512_S512x512x512_0_1_2
      (broadcastInDim S512x1x512 ![0, 2] bcast_S512x512_S512x1x512_0_2 m) (ix3 a b c) = m (ix2 a c) :=
  (broadcastInDim_apply ![0, 1, 2] bcast_S512x1x512_S512x512x512_0_1_2 _ (ix3 a b c) (ix3 a ⟨0, Nat.one_pos⟩ c)
    (fun ax => match ax with | ⟨0, _⟩ => rfl | ⟨1, _⟩ => rfl | ⟨2, _⟩ => rfl)).trans
  (broadcastInDim_apply ![0, 2] bcast_S512x512_S512x1x512_0_2 m (ix3 a ⟨0, Nat.one_pos⟩ c) (ix2 a c)
    (fun ax => match ax with | ⟨0, _⟩ => rfl | ⟨1, _⟩ => rfl))

theorem rMask_apply (l : IVec S512 32) (a b c : Fin 512) :
    rMask l (ix3 a b c) = IntOp.andi (rSame l (ix2 a b)) (rDiff l (ix2 a c)) := by
  unfold rMask
  show IntOp.andi (broadcastInDim _ _ _ _ (ix3 a b c)) (broadcastInDim _ _ _ _ (ix3 a b c)) = _
  rw [bcast_ij, bcast_ik]

theorem refCount_eq (l : IVec S512 32) (j : S_.Idx) :
    refCount l j = ∑ a : Fin 512, ∑ b : Fin 512, ∑ c : Fin 512,
      (rSame l (ix2 a b)).setWidth 32 * (rDiff l (ix2 a c)).setWidth 32 := by
  unfold refCount
  rw [hostReduce_addi_total, sum_idx3]
  show (0 : BitVec 32) + _ = _
  rw [zero_add]
  refine Finset.sum_congr rfl fun a _ => Finset.sum_congr rfl fun b _ => Finset.sum_congr rfl fun c _ => ?_
  show (rMask l (ix3 a b c)).setWidth 32 = _
  rw [rMask_apply, setWidth_andi]

end Reference

/-! ## The two counts are equal -/

/-- The kernel's masks and the reference's are the same arrays of bits. -/
theorem kSame_eq_rSame [Cert.KernelIdeal.Facts] [Cert.ReferenceIdeal.Facts] (l : IVec Cert.KernelIdeal.S512 32) :
    kSame l = rSame l := rfl

theorem kDiff_eq_rDiff [Cert.KernelIdeal.Facts] [Cert.ReferenceIdeal.Facts] (l : IVec Cert.KernelIdeal.S512 32) :
    kDiff l = rDiff l := rfl

theorem count_eq [Cert.KernelIdeal.Facts] [Cert.ReferenceIdeal.Facts] (l : IVec Cert.KernelIdeal.S512 32) :
    kernelCount l = refCount l := by
  funext j
  rw [kernelCount_eq, refCount_eq, kSame_eq_rSame, kDiff_eq_rDiff]
  exact Finset.sum_congr rfl fun a _ => Finset.sum_mul_sum _ _ _ _

end Cert.Count

end
-- ==== Proof.LibPlainDot.lean ====
/-
  A plain matrix product — an [M, K] operand times a [K, N] operand, the left one contracted on its second axis
  and the right one on its first, no batch axis — read at the entry (r, c) over the extended reals: the sum over
  k of the left operand at (r, k) times the right operand at (k, c). Stated once for the on-chip product
  accumulated into a zero splat and once for the host's dot_general, for any dimension record that is the plain
  one, so that both sides of a comparison land on the same sum over `Fin K`.
-/
import Idealize.ShloMosaic.Lib.ValueIdx
import Idealize.ShloMosaic.PureOps.Ideal.Laws

noncomputable section

namespace Cert.PlainDot

open Idealize.ShloMosaic Idealize.ShloMosaic.ValueIdx

variable {M K N : ℕ}

/-- The contraction index of the plain product has one axis, of extent `K`. -/
theorem contr_rank : (DotDims.plain M K N).contr.rank = 1 := rfl
theorem contr_size : (DotDims.plain M K N).contr.size ⟨0, by rw [contr_rank]; exact Nat.one_pos⟩ = K := rfl

/-- The one-coordinate contraction index with coordinate `k`. -/
abbrev cidx (k : Fin K) : (DotDims.plain M K N).contr.Idx := (contrEquiv1 (DotDims.plain M K N) K contr_rank contr_size).symm k

/-- The left operand is read at row `r`, column `k`. -/
theorem lhsIdx_eq (r : Fin M) (c : Fin N) (k : Fin K) :
    (DotDims.plain M K N).lhsIdx (ix2 r c) (cidx k) = ix2 r k := by
  funext a
  apply Fin.ext
  match a with
  | ⟨0, _⟩ => rfl
  | ⟨1, _⟩ =>
    exact ((DotDims.plain M K N).lhsIdx_val_of_single rfl (ix2 r c) (cidx k)).trans
      (contrEquiv1_symm_val (DotDims.plain M K N) K contr_rank contr_size k)

/-- The right operand is read at row `k`, column `c`. -/
theorem rhsIdx_eq (r : Fin M) (c : Fin N) (k : Fin K) :
    (DotDims.plain M K N).rhsIdx (ix2 r c) (cidx k) = ix2 k c := by
  funext a
  apply Fin.ext
  match a with
  | ⟨0, _⟩ =>
    exact ((DotDims.plain M K N).rhsIdx_val_of_single rfl (ix2 r c) (cidx k)).trans
      (contrEquiv1_symm_val (DotDims.plain M K N) K contr_rank contr_size k)
  | ⟨1, _⟩ => rfl

/-- The contraction sum of the plain product, re-indexed over `Fin K`. -/
theorem sum_eq (l : (⟨2, ![M, K]⟩ : Shape).Idx → EReal) (r : (⟨2, ![K, N]⟩ : Shape).Idx → EReal) (p : Fin M) (c : Fin N) :
    (∑ q : (DotDims.plain M K N).contr.Idx, l ((DotDims.plain M K N).lhsIdx (ix2 p c) q) * r ((DotDims.plain M K N).rhsIdx (ix2 p c) q))
      = ∑ k : Fin K, l (ix2 p k) * r (ix2 k c) := by
  rw [← Equiv.sum_comp (contrEquiv1 (DotDims.plain M K N) K contr_rank contr_size).symm]
  refine Finset.sum_congr rfl fun k _ => ?_
  rw [lhsIdx_eq p c k, rhsIdx_eq p c k]

/-- The on-chip product accumulated into the zero splat, at entry `(p, c)`: the plain sum. -/
theorem matmul_zero_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (c : Fin N) :
    FloatOps.matmul d prec l r (constant (F := Ideal) ⟨2, ![M, N]⟩ .f32 0x00000000#32) (ix2 p c) = ∑ k : Fin K, l (ix2 p k) * r (ix2 k c) := by
  subst hd
  rw [Ideal.matmul_constant_zero_apply]
  exact sum_eq l r p c

/-- The host's dot_general at entry `(p, c)`: the same plain sum, whatever the precision and the schedule key. -/
theorem dotGeneral_apply {φ₁ φ₂ : FTy} (d : DotDims ⟨2, ![M, K]⟩ ⟨2, ![K, N]⟩ ⟨2, ![M, N]⟩) (hd : d = DotDims.plain M K N)
    (prec : Option ContractPrecision) (sched : HostSchedule) (l : FVec Ideal ⟨2, ![M, K]⟩ φ₁) (r : FVec Ideal ⟨2, ![K, N]⟩ φ₂) (p : Fin M) (c : Fin N) :
    FloatOps.dotGeneral d prec sched l r (ix2 p c) = ∑ k : Fin K, l (ix2 p k) * r (ix2 k c) := by
  subst hd
  rw [Ideal.dotGeneral_apply]
  exact sum_eq l r p c

end Cert.PlainDot

end
-- ==== Proof.LibRealLaw.lean ====
/-
  Extended reals that are real numbers, and the one law this certificate rests on.

  Both programs score a user against every point of interest by the inner product of the user's preference
  vector `u` (256 entries) with the point's region embedding `r`, scaled by `a`.  One program scales the
  preference vector first and then takes the inner product, `∑ k, (u k * a) * r k`; the other takes the inner
  product and scales the result, `a * ∑ k, u k * r k`.  On the extended reals a factor moves across a sum only
  when no term is infinite, so the law is stated for entries that are real numbers; it is then the ring identity
  `∑ k, (u k * a) * r k = a * ∑ k, u k * r k` in `ℝ`.

  The rest of the file says which operations keep an extended real a real number: products, sums over a finite
  index set, maxima, and the ideal quotient by a divisor that is at least one.
-/
import Idealize.ShloMosaic.PureOps.Ideal
import Idealize.ShloMosaic.PureOps.Ideal.Laws

noncomputable section

namespace Cert.Scores

open Idealize.ShloMosaic

/-- The extended real `x` is a real number (neither infinity). -/
def IsReal (x : EReal) : Prop := ∃ r : ℝ, x = (r : EReal)

theorem isReal_coe (r : ℝ) : IsReal (r : EReal) := ⟨r, rfl⟩

theorem isReal_zero : IsReal 0 := ⟨0, rfl⟩

theorem isReal_one : IsReal 1 := ⟨1, rfl⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

/-- The coercion of a finite sum of reals is the sum of the coercions. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsReal.sum {ι : Type} (s : Finset ι) {f : ι → EReal} (h : ∀ i, IsReal (f i)) : IsReal (∑ i ∈ s, f i) := by
  choose g hg using h
  exact ⟨∑ i ∈ s, g i, by rw [coe_sum]; exact Finset.sum_congr rfl fun i _ => hg i⟩

/-- The maximum of a real number and one is a real number that is not zero. -/
theorem max_one_eq (s : ℝ) : max (s : EReal) 1 = ((max s 1 : ℝ) : EReal) := by
  have h := (EReal.coe_strictMono.monotone).map_max (a := s) (b := (1 : ℝ))
  rw [h]; rfl

/-- The ideal quotient of a real number by the maximum of a real number and one is a real number: the divisor is
    a real number at least one, so it is not zero and the quotient is the product with its reciprocal. -/
theorem IsReal.div_max_one {x s : EReal} (hx : IsReal x) (hs : IsReal s) : IsReal (Ideal.div x (max s 1)) := by
  obtain ⟨s', rfl⟩ := hs
  rw [max_one_eq, Ideal.div_coe (ne_of_gt (lt_of_lt_of_le one_pos (le_max_right s' 1)))]
  exact hx.mul (isReal_coe _)

/-- THE LAW.  For real entries, scaling the first factor of every product by `a` scales the inner product by `a`. -/
theorem scaled_inner {n : Nat} (u r : Fin n → EReal) (a : EReal)
    (hu : ∀ k, IsReal (u k)) (hr : ∀ k, IsReal (r k)) (ha : IsReal a) :
    ∑ k : Fin n, (u k * a) * r k = a * ∑ k : Fin n, u k * r k := by
  choose u' hu' using hu
  choose r' hr' using hr
  obtain ⟨a', rfl⟩ := ha
  have hl : ∀ k : Fin n, (u k * (a' : EReal)) * r k = ((u' k * a' * r' k : ℝ) : EReal) := fun k => by
    rw [hu' k, hr' k, EReal.coe_mul, EReal.coe_mul]
  have hr2 : ∀ k : Fin n, u k * r k = ((u' k * r' k : ℝ) : EReal) := fun k => by
    rw [hu' k, hr' k, EReal.coe_mul]
  rw [Finset.sum_congr rfl fun k _ => hl k, Finset.sum_congr rfl fun k _ => hr2 k, ← coe_sum, ← coe_sum,
    ← EReal.coe_mul, Finset.mul_sum]
  exact congrArg _ (Finset.sum_congr rfl fun k _ => by ring)

end Cert.Scores

end
-- ==== Proof.DistEq.lean ====
/-
  The kernel's first region computes the reference's clamped squared-distance matrix, over the extended reals.

  Both programs take x : [512, 128], rescale each row to f = 3 x / n with n the row's Euclidean norm (the
  root of the row's sum of squares), and produce D(i, j) = max(0, |f_i|^2 + |f_j|^2 - 2 <f_i, f_j>).  They
  differ in two places.  The kernel forms the row factor first, f = x * (3 / n), where the reference forms
  f = (3 * x) / n; and the kernel clamps as max(d, 0) where the reference clamps as max(0, d).

  At the ideal values a quotient by a divisor that is zero is an infinity or junk, so on a zero row the two
  rescalings differ; with every entry a real number and the row's sum of squares positive, n is a positive
  real, each quotient is the product with 1 / n, and the two rescalings agree because the product of extended
  reals is commutative and associative.  Everything after the rescaling is the same function of f: row sums
  of squares (the reference's started from the zero word, which is 0), one plain matrix product of f with its
  transpose (a change of float format is the identity here), and a maximum, which is commutative.

  The file reads each side at an entry (i, j) as an explicit formula over sums over the 128 columns (one lemma
  for the rescaling and one for what follows it, per side), proves the rows' law, and concludes entry by entry.
-/
import proofs.«181167_j73899207295321_2_alg».proof.Proof.Gen.KernelIdeal.Skeleton
import proofs.«181167_j73899207295321_2_alg».proof.Proof.Gen.ReferenceIdeal.Read
import proofs.«181167_j73899207295321_2_alg».proof.Proof.LibLaneSum
import proofs.«181167_j73899207295321_2_alg».proof.Proof.LibColumn
import proofs.«181167_j73899207295321_2_alg».proof.Proof.LibPlainDot
import proofs.«181167_j73899207295321_2_alg».proof.Proof.LibRealLaw
import Idealize.ShloMosaic.Lib.ValueLayout

noncomputable section

namespace Cert.Dist

open Idealize.ShloMosaic Idealize.ShloMosaic.ValueIdx
open Cert.KernelIdeal Cert.KernelIdeal.Gen

/-! ### The kernel's side -/

/-- f32 is a format a float sum is defined at, and the zero word is that sum's neutral accumulator. -/
theorem hfmt : FKind.Formats .f32 := .inl rfl
theorem hzero : (0x00000000#32 : BitVec 32) = FKind.add.neutral .f32 hfmt := rfl

/-- The kernel's rescaled rows, as the vector the rest of its first region reads: x * (3 / n), the quotient
    broadcast along each row. -/
def kf (x : FVec Ideal S512x128 .f32) (hφ : FKind.Formats .f32)
    (hacc : (0x00000000#32 : BitVec 32) = FKind.add.neutral .f32 hφ) : FVec Ideal S512x128 .f32 :=
  mulf x (broadcastTo S512x128
    (divf (broadcast S512x1 (FloatOps.ofBits .f32 0x40400000#32))
      (sqrt (shapeCast S512x1
        (multiReduction .add [1] S512 (mulf x x) 0x00000000#32 reduces_S512x128_S512 hφ hacc)
        shapeCasts_S512_S512x1)))
    broadcasts_S512x1_S512x128)

/-- The kernel's rescaled entry (i, d): the entry times the quotient of 3 by the root of the row's sum of squares. -/
theorem kf_apply (x : FVec Ideal S512x128 .f32) (hφ : FKind.Formats .f32)
    (hacc : (0x00000000#32 : BitVec 32) = FKind.add.neutral .f32 hφ) (i : Fin 512) (d : Fin 128) :
    kf x hφ hacc (ix2 i d) = x (ix2 i d) * Ideal.div (Ideal.ofBits .f32 0x40400000#32)
      (Ideal.sqrt (∑ k : Fin 128, x (ix2 i k) * x (ix2 i k))) := by
  unfold kf
  rw [mulf_apply, Cert.GraphConv.Column.broadcastTo_a1_ab_apply, divf_apply, broadcast_apply]
  show x (ix2 i d) * Ideal.div _ (Ideal.sqrt (shapeCast S512x1 _ shapeCasts_S512_S512x1 (ix2 i (0 : Fin 1)))) = _
  rw [Cert.GraphConv.Column.shapeCast_a_a1_apply, Cert.LaneSum.sum_last2]
  rfl

/-- Everything the kernel's first region does after the rescaling, for any rescaled matrix g, at the entry (i, j):
    the two rows' sums of squares, added, less twice the rows' inner product, clamped below by the zero word. -/
theorem outer_apply (g : FVec Ideal S512x128 .f32) (hφ : FKind.Formats .f32)
    (hacc : (0x00000000#32 : BitVec 32) = FKind.add.neutral .f32 hφ) (i j : Fin 512) :
    maximumf
      (subf
        (addf
          (broadcastTo S512x512
            (shapeCast S512x1 (multiReduction .add [1] S512 (mulf g g) 0x00000000#32 reduces_S512x128_S512 hφ hacc)
              shapeCasts_S512_S512x1)
            broadcasts_S512x1_S512x512)
          (broadcastTo S512x512
            (transpose S1x512 [1, 0]
              (shapeCast S512x1 (multiReduction .add [1] S512 (mulf g g) 0x00000000#32 reduces_S512x128_S512 hφ hacc)
                shapeCasts_S512_S512x1)
              transposes_S512x1_p1_0_S1x512)
            broadcasts_S1x512_S512x512))
        (mulf (broadcast S512x512 (FloatOps.ofBits .f32 0x40000000#32))
          (matmul dot_S512x128_S128x512_S512x512_1_0_0_1_n_n none
            (truncf .bf16 g bitsLt_bf16_f32)
            (transpose S128x512 [1, 0] (truncf .bf16 g bitsLt_bf16_f32) transposes_S512x128_p1_0_S128x512)
            (constant S512x512 .f32 0x00000000#32))))
      (broadcast S512x512 (FloatOps.ofBits .f32 0x00000000#32)) (ix2 i j)
    = max (((∑ d : Fin 128, g (ix2 i d) * g (ix2 i d)) + ∑ d : Fin 128, g (ix2 j d) * g (ix2 j d))
        - Ideal.ofBits .f32 0x40000000#32 * ∑ k : Fin 128, g (ix2 i k) * g (ix2 j k)) (Ideal.ofBits .f32 0x00000000#32) := by
  rw [maximumf_apply, subf_apply, addf_apply, mulf_apply, broadcast_apply, broadcast_apply,
    Cert.GraphConv.Column.broadcastTo_a1_ab_apply, Cert.GraphConv.Column.shapeCast_a_a1_apply,
    Cert.LaneSum.sum_last2, broadcastTo_1b_ab_apply, transpose_ix2_apply,
    Cert.GraphConv.Column.shapeCast_a_a1_apply, Cert.LaneSum.sum_last2]
  simp only [matmul]
  rw [Cert.PlainDot.matmul_zero_apply dot_S512x128_S128x512_S512x512_1_0_0_1_n_n rfl]
  have hT : ∀ k : Fin 128, transpose S128x512 [1, 0] (truncf .bf16 g bitsLt_bf16_f32)
      transposes_S512x128_p1_0_S128x512 (ix2 k j) = g (ix2 j k) := fun k => by
    rw [transpose_ix2_apply, truncf_apply]
  simp only [mulf_apply, truncf_apply, hT]
  rfl

/-- The kernel's first region at the entry (i, j), over its rescaled rows. -/
theorem kernel_apply (x : FVec Ideal S512x128 .f32) (i j : Fin 512) :
    k0_pay1 (F := Ideal) x (ix2 i j)
    = max (((∑ d : Fin 128, kf x hfmt hzero (ix2 i d) * kf x hfmt hzero (ix2 i d))
          + ∑ d : Fin 128, kf x hfmt hzero (ix2 j d) * kf x hfmt hzero (ix2 j d))
        - Ideal.ofBits .f32 0x40000000#32 * ∑ k : Fin 128, kf x hfmt hzero (ix2 i k) * kf x hfmt hzero (ix2 j k))
        (Ideal.ofBits .f32 0x00000000#32) :=
  outer_apply (kf x hfmt hzero) hfmt hzero i j

/-! ### The reference's side -/

open Cert.ReferenceIdeal.Read

/-! ### The reference's indices, by coordinates -/

theorem ix_v7_v9 (i j : Fin 512) : idx_main_v7 (idx_main_v9 (ix2 i j)) = ix1 i := by
  funext a; match a with | ⟨0, _⟩ => rfl
theorem ix_v8_v10 (i j : Fin 512) : idx_main_v8 (idx_main_v10 (ix2 i j)) = ix1 j := by
  funext a; match a with | ⟨0, _⟩ => rfl
theorem ix_v6 (i : Fin 512) (k : Fin 128) : idx_main_v6 (ix1 i) k = ix2 i k := by
  funext a; match a with | ⟨0, _⟩ => rfl | ⟨1, _⟩ => rfl
theorem ix_l13 (i j : Fin 512) (k : Fin 128) : lidx_main_v13 (ix2 i j) k = ix2 i k := by
  funext a; match a with | ⟨0, _⟩ => rfl | ⟨1, _⟩ => rfl
theorem ix_r13 (i j : Fin 512) (k : Fin 128) : idx_main_v12 (ridx_main_v13 (ix2 i j) k) = ix2 j k := by
  funext a; match a with | ⟨0, _⟩ => rfl | ⟨1, _⟩ => rfl
theorem ix_norm (i : Fin 512) (d k : Fin 128) :
    idx_main_call0_v1 (idx_main_call0_v2 (idx_main_v3 (ix2 i d))) k = ix2 i k := by
  funext a; match a with | ⟨0, _⟩ => rfl | ⟨1, _⟩ => rfl

/-- The reference's rescaled entry (i, d): 3 times the entry, divided by the root of the row's sum of squares
    (the sum started from the zero word). -/
theorem rf_apply (x : FVec Ideal S512x128 .f32) (i : Fin 512) (d : Fin 128) :
    val_main_v4 (F := Ideal) x (ix2 i d)
    = Ideal.div (Ideal.ofBits .f32 0x40400000#32 * x (ix2 i d))
        (Ideal.sqrt (Ideal.ofBits .f32 0x00000000#32 + ∑ k : Fin 128, x (ix2 i k) * x (ix2 i k))) := by
  rw [val_main_v4_apply, val_main_v1_apply, val_main_v0_apply, val_main_cst_apply, val_main_v3_apply,
    val_main_v2_apply, val_main_call0_v2_apply, val_main_call0_v1_apply, val_main_call0_cst_apply]
  simp only [val_main_call0_v0_apply, ix_norm]
  rfl

/-- The reference's clamped matrix at the entry (i, j), over its rescaled rows. -/
theorem ref_apply (x : FVec Ideal S512x128 .f32) (i j : Fin 512) :
    val_main_v17 (F := Ideal) x (ix2 i j)
    = max (Ideal.ofBits .f32 0x00000000#32)
        (((Ideal.ofBits .f32 0x00000000#32
              + ∑ d : Fin 128, val_main_v4 (F := Ideal) x (ix2 i d) * val_main_v4 (F := Ideal) x (ix2 i d))
            + (Ideal.ofBits .f32 0x00000000#32
              + ∑ d : Fin 128, val_main_v4 (F := Ideal) x (ix2 j d) * val_main_v4 (F := Ideal) x (ix2 j d)))
          - Ideal.ofBits .f32 0x40000000#32
              * ∑ k : Fin 128, val_main_v4 (F := Ideal) x (ix2 i k) * val_main_v4 (F := Ideal) x (ix2 j k)) := by
  rw [val_main_v17_apply, val_main_call1_v1_apply, val_main_call1_v0_apply, val_main_cst_2_apply,
    val_main_v16_apply, val_main_v11_apply, val_main_v9_apply, val_main_v7_apply, val_main_v10_apply,
    val_main_v8_apply, val_main_v15_apply, val_main_v14_apply, val_main_cst_1_apply, val_main_v13_apply,
    ix_v7_v9, ix_v8_v10, val_main_v6_apply, val_main_v6_apply, val_main_cst_0_apply]
  simp only [val_main_v5_apply, val_main_v12_apply, ix_v6, ix_l13, ix_r13]
  rfl

/-! ### The rows' law -/

/-- An extended real that is neither infinity is a real number. -/
theorem isReal_of_ne {a : EReal} (h : a ≠ ⊤ ∧ a ≠ ⊥) : Cert.Scores.IsReal a :=
  ⟨a.toReal, (EReal.coe_toReal h.1 h.2).symm⟩

/-- With every entry real, a row's sum of squares is a real number. -/
theorem rowSq_real (x : FVec Ideal S512x128 .f32) (hreal : ∀ i, x i ≠ ⊤ ∧ x i ≠ ⊥) (i : Fin 512) :
    Cert.Scores.IsReal (∑ k : Fin 128, x (ix2 i k) * x (ix2 i k)) :=
  Cert.Scores.IsReal.sum _ fun k => (isReal_of_ne (hreal _)).mul (isReal_of_ne (hreal _))

/-- THE LAW.  When the row's sum of squares s is a positive real, its root n is a positive real, both quotients
    are products with 1 / n, and a * (c * (1 / n)) = (c * a) * (1 / n) because the product of extended reals is
    commutative and associative: the entry times 3 / n is 3 times the entry over n, whatever the entry a and
    the constant c. -/
theorem row_law (c a s : EReal) (hs : ∃ t : ℝ, 0 < t ∧ s = (t : EReal)) :
    a * Ideal.div c (Ideal.sqrt s) = Ideal.div (c * a) (Ideal.sqrt s) := by
  obtain ⟨t, ht, rfl⟩ := hs
  have hn : Ideal.sqrt (t : EReal) = ((Real.sqrt t : ℝ) : EReal) := by
    rw [Ideal.sqrt_coe, if_neg (not_lt.2 ht.le)]
  have hne : Real.sqrt t ≠ 0 := (Real.sqrt_pos.2 ht).ne'
  rw [hn, Ideal.div_coe hne, Ideal.div_coe hne, ← mul_assoc, mul_comm a c]

/-- The kernel's first region computes the reference's clamped squared-distance matrix, when every entry of the
    input is a real number and no row is zero. -/
theorem dist_eq (x : FVec Ideal Cert.KernelIdeal.S512x128 .f32)
    (hreal : ∀ i, x i ≠ ⊤ ∧ x i ≠ ⊥)
    (hpos : ∀ r : Fin 512, (0 : EReal) < ∑ k : Fin 128, x (ValueIdx.ix2 r k) * x (ValueIdx.ix2 r k)) :
    Cert.KernelIdeal.Gen.k0_pay1 (F := Ideal) x = Cert.ReferenceIdeal.Read.val_main_v17 (F := Ideal) x := by
  funext idx
  obtain ⟨i, j, rfl⟩ : ∃ i j, idx = ix2 i j := ⟨idx 0, idx 1, eq_ix2 idx⟩
  have hrow : ∀ (i : Fin 512) (d : Fin 128),
      kf x hfmt hzero (ix2 i d) = val_main_v4 (F := Ideal) x (ix2 i d) := fun i d => by
    rw [kf_apply, rf_apply, Ideal.ofBits_zero_f32, zero_add]
    obtain ⟨t, ht⟩ := rowSq_real x hreal i
    refine row_law _ _ _ ⟨t, ?_, ht⟩
    have h := hpos i
    rw [ht] at h
    exact EReal.coe_pos.1 h
  rw [kernel_apply, ref_apply]
  simp only [hrow, Ideal.ofBits_zero_f32, zero_add]
  exact max_comm _ _

end Cert.Dist

end
-- ==== Proof.RefSum.lean ====
/-
  The reference's masked sum of softplus terms is the specification's loss sum.

  The reference forms, for every triple (i, j, k) of rows, the mask bit (l i = l j and not i = j) and (l i ≠ l k),
  the difference s = D i j - D i k of clamped distances, and softplus s computed as
  max s 0 + log1p (exp (-|s|)) behind a guard (s - 0 ≠ s - 0) that never holds on a linear order; it keeps the
  softplus term where the mask bit is 1 and 0 elsewhere, and adds everything up starting from 0.

  Three steps. (1) The mask stage at (i, j, k) is the bit 1 exactly when the triple is valid: each broadcast reads its
  operand at the coordinates it keeps, an integer comparison's bit is 1 exactly when the comparison holds, and two row
  numbers below 512 are equal as 32-bit words exactly when they are equal. (2) The softplus stage at (i, j, k) is the
  specification's softplus of D i j - D i k: the zero word denotes 0, and s - 0 = s for every extended real. (3) A
  select on a one-bit word is an if, a sum over the rank-3 index set is the triple sum over its coordinates, and
  0 + S = S. No finiteness of the distances is used.
-/
import proofs.«181167_j73899207295321_2_alg».proof.Proof.Gen.ReferenceIdeal.Read
import proofs.«181167_j73899207295321_2_alg».proof.Proof.Spec
import Idealize.ShloMosaic.Lib.Affine

noncomputable section

open scoped BigOperators

namespace Cert.RefSum

open Idealize.ShloMosaic Idealize.ShloMosaic.ValueIdx Cert.ReferenceIdeal Cert.ReferenceIdeal.Read

/-! ## Sums over a rank-3 index set, and row numbers as words -/

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- Two row numbers below 512 are equal as 32-bit words exactly when they are equal. -/
theorem ofNat_row_eq (i j : Fin 512) : BitVec.ofNat 32 i.val = BitVec.ofNat 32 j.val ↔ i = j := by
  constructor
  · intro h
    have h' := congrArg BitVec.toNat h
    rw [BitVec.toNat_ofNat, BitVec.toNat_ofNat, Nat.mod_eq_of_lt (by omega), Nat.mod_eq_of_lt (by omega)] at h'
    exact Fin.ext h'
  · intro h; rw [h]

/-! ## The three stages -/

variable [Cert.ReferenceIdeal.Facts]

/-- The mask stage at (i, j, k) is the bit 1 exactly when (i, j, k) is a valid triplet. -/
theorem mask_iff (l : IVec S512 32) (i j k : Fin 512) :
    val_main_v39 (F := Ideal) l (ix3 i j k) = 1#1 ↔
      Cert.Spec.Same (fun i => l (ix1 i)) i j ∧ Cert.Spec.Diff (fun i => l (ix1 i)) i k := by
  rw [val_main_v39_apply, IntOp.andi_eq_one, val_main_v37_apply, val_main_v35_apply, val_main_v29_apply, IntOp.andi_eq_one,
    val_main_v22_apply, IntOp.cmpi_eq, val_main_v20_apply, val_main_v18_apply, val_main_v21_apply, val_main_v19_apply,
    val_main_v28_apply, IntOp.not_eq_one, val_main_v27_apply, IntOp.cmpi_eq, val_main_v26_apply, val_main_v23_apply,
    val_main_v25_apply, val_main_c_apply, val_main_v24_apply,
    val_main_v38_apply, val_main_v36_apply, val_main_v34_apply, IntOp.cmpi_ne, val_main_v32_apply, val_main_v30_apply,
    val_main_v33_apply, val_main_v31_apply]
  have h1 : idx_main_v18 (idx_main_v20 (idx_main_v35 (idx_main_v37 (ix3 i j k)))) = ix1 i := by
    funext d; match d with | ⟨0, _⟩ => rfl
  have h2 : idx_main_v19 (idx_main_v21 (idx_main_v35 (idx_main_v37 (ix3 i j k)))) = ix1 j := by
    funext d; match d with | ⟨0, _⟩ => rfl
  have h3 : idx_main_v30 (idx_main_v32 (idx_main_v36 (idx_main_v38 (ix3 i j k)))) = ix1 i := by
    funext d; match d with | ⟨0, _⟩ => rfl
  have h4 : idx_main_v31 (idx_main_v33 (idx_main_v36 (idx_main_v38 (ix3 i j k)))) = ix1 k := by
    funext d; match d with | ⟨0, _⟩ => rfl
  have h5 : (IntOp.addi (BitVec.ofNat 32 (idx_main_v35 (idx_main_v37 (ix3 i j k)) 0).val) 0#32
      = BitVec.ofNat 32 (idx_main_v35 (idx_main_v37 (ix3 i j k)) 1).val) ↔ i = j := by
    show (BitVec.ofNat 32 i.val + 0#32 = BitVec.ofNat 32 j.val) ↔ i = j
    rw [BitVec.add_zero]
    exact ofNat_row_eq i j
  rw [h1, h2, h3, h4, h5]
  rfl

/-- The softplus stage at (i, j, k) is the specification's softplus of D i j - D i k: the guard compares a value with
    itself for inequality and so always fails, and subtracting or adding the zero word changes nothing. -/
theorem softplus_stage (x : FVec Ideal S512x128 .f32) (i j k : Fin 512) :
    val_main_v45 (F := Ideal) x (ix3 i j k)
      = Cert.Spec.softplus (val_main_v17 (F := Ideal) x (ix2 i j) - val_main_v17 (F := Ideal) x (ix2 i k)) := by
  have hs : val_main_v44 (F := Ideal) x (ix3 i j k)
      = val_main_v17 (F := Ideal) x (ix2 i j) - val_main_v17 (F := Ideal) x (ix2 i k) := by
    rw [val_main_v44_apply, Ideal.subf_def, val_main_v42_apply, val_main_v40_apply, val_main_v43_apply, val_main_v41_apply]
    have h1 : idx_main_v40 (idx_main_v42 (ix3 i j k)) = ix2 i j := by
      funext d; match d with | ⟨0, _⟩ => rfl | ⟨1, _⟩ => rfl
    have h2 : idx_main_v41 (idx_main_v43 (ix3 i j k)) = ix2 i k := by
      funext d; match d with | ⟨0, _⟩ => rfl | ⟨1, _⟩ => rfl
    rw [h1, h2]
  have h3 : val_main_call2_v3 (F := Ideal) x (ix3 i j k) = val_main_v44 (F := Ideal) x (ix3 i j k) := by
    rw [val_main_call2_v3_apply, Ideal.subf_def, val_main_call2_v2_apply, val_main_call2_cst_apply, Ideal.ofBits_def,
      Ideal.ofBits_zero_f32, sub_zero]
  have hc : Ideal.cmp .une (val_main_call2_v3 (F := Ideal) x (ix3 i j k)) (val_main_call2_v3 (F := Ideal) x (ix3 i j k)) = 0#1 := by
    simp only [Ideal.cmp, ne_eq, not_true_eq_false, decide_false, BitVec.ofBool_false]
    rfl
  rw [val_main_v45_apply, val_main_call2_v4_apply, Ideal.cmpf_def, hc, select_zero, val_main_call2_v11_apply, Ideal.addf_def,
    val_main_call2_v1_apply, Ideal.maximumf_def, val_main_call2_v0_apply, val_main_call2_cst_apply, Ideal.ofBits_def,
    Ideal.ofBits_zero_f32, val_main_call2_v10_apply, Ideal.hostUnary_log1p_def, val_main_call2_v9_apply,
    Ideal.hostUnary_exp_def, val_main_call2_v8_apply, Ideal.hostNegf_def, Ideal.negf_def, val_main_call2_v7_apply,
    Ideal.hostAbsf_def, Ideal.absf_def, h3, hs]
  rfl

/-- The reference's sum over all triples of the masked softplus terms is the specification's loss sum. -/
theorem ref_sum (x : FVec Ideal S512x128 .f32) (l : IVec S512 32) :
    val_main_v50 (F := Ideal) x l ix0
      = Cert.Spec.lossSum (fun i j => val_main_v17 (F := Ideal) x (ix2 i j)) (fun i => l (ix1 i)) := by
  rw [val_main_v50_apply, val_main_cst_5_apply, Ideal.ofBits_def, Ideal.ofBits_zero_f32, zero_add, sum_idx3]
  unfold Cert.Spec.lossSum
  refine Finset.sum_congr rfl fun i _ => Finset.sum_congr rfl fun j _ => Finset.sum_congr rfl fun k _ => ?_
  rw [val_main_v49_apply]
  by_cases h : Cert.Spec.Same (fun i => l (ix1 i)) i j ∧ Cert.Spec.Diff (fun i => l (ix1 i)) i k
  · rw [if_pos h, (mask_iff l i j k).mpr h, select_one, softplus_stage]
  · rw [if_neg h, eq_zero_of_ne_one (fun hh => h ((mask_iff l i j k).mp hh)), select_zero, val_main_call3_v1_apply,
      val_main_call3_v0_apply, val_main_cst_4_apply, Ideal.ofBits_def, Ideal.ofBits_zero_f32]

end Cert.RefSum

end
-- ==== Proof.RowsNonzero.lean ====
/-
  What the precondition says of the input array, at the ideal instance.

  The precondition is the conjunction of two tests over the array x : f32[512, 128].  The first says every entry has
  absolute value below +inf, so every entry is a real number.  The second says that in every row the sum of the squares
  of the entries is positive.  That sum is the square of the Euclidean norm by which the reference divides the row, so the
  second test says exactly that the reference's divisor is not zero: on a row of zeros the reference computes 0 / 0, which
  has no value, while the kernel computes 0 * (3 / 0), which is 0.
-/
import proofs.«181167_j73899207295321_2_alg».proof.Pre_finite_inputs
import proofs.«181167_j73899207295321_2_alg».proof.Proof.Gen.Pre_finite_inputs
import Idealize.ShloMosaic.PureOps.Ideal
import Idealize.ShloMosaic.PureOps.Ideal.Laws
import Idealize.ShloMosaic.Lib.ReduceAll
import Idealize.ShloMosaic.Lib.ValueIdx

noncomputable section

open Idealize.ShloMosaic

namespace Cert.RowNorm

open Cert.Pre_finite_inputs Cert.Pre_finite_inputs.Facts

/-- A scalar has one index. -/
instance : Subsingleton S_.Idx := ⟨fun a b => funext fun d => d.elim0⟩

/-- A strict comparison of extended reals that answers 1 holds. -/
theorem lt_of_cmp_olt {a b : EReal} (h : Ideal.cmp .olt a b = 1#1) : a < b := by
  by_contra hn
  simp [Ideal.cmp, hn] at h

/-- The same for the comparison written the other way round. -/
theorem lt_of_cmp_ogt {a b : EReal} (h : Ideal.cmp .ogt a b = 1#1) : b < a := by
  by_contra hn
  simp [Ideal.cmp, hn] at h

/-- The word 0x7F800000 denotes +inf. -/
theorem ofBits_inf : Ideal.ofBits .f32 0x7F800000#32 = ⊤ := by
  simp [Ideal.ofBits, Ideal.ieee]

/-- The zero word denotes 0. -/
theorem ofBits_zero : Ideal.ofBits .f32 0x00000000#32 = 0 := Ideal.ofBits_zero_f32

/-- Under the precondition every entry of the array is a real number, and every row's sum of squares, as the
    reference's own reduction computes it from 0, is positive. -/
theorem of_pre [Facts] (x : FVec Ideal S512x128 .f32) (l : IVec S512 32)
    (h : fn (F := Ideal) x l = fun _ => 1#1) :
    (∀ i : S512x128.Idx, x i ≠ ⊤ ∧ x i ≠ ⊥) ∧
    (∀ r : S512.Idx,
      (0 : EReal) < Host.reduceAdd (F := Ideal) (mulf x x) (constant S_ .f32 0x00000000#32) reducesTo_S512x128_S512_d1 h_S_ r) := by
  have h0 := congrFun h ValueIdx.ix0
  dsimp only [fn] at h0
  obtain ⟨ha, hb⟩ := IntOp.andi_eq_one.1 h0
  have ea := fun i => Host.reduce_andi_all _ _ _ _ _ ha i
  have eb := fun r => Host.reduce_andi_all _ _ _ _ _ hb r
  refine ⟨fun i => ?_, fun r => ?_⟩
  · have e := lt_of_cmp_olt (ea i)
    simp only [Host.absf, broadcastInDim, constant, Ideal.hostAbsf_def, Ideal.absf_def, Ideal.ofBits_def, ofBits_inf] at e
    constructor
    · intro ht; rw [ht] at e; simp at e
    · intro hb'; rw [hb'] at e; simp at e
  · have e := lt_of_cmp_ogt (eb r)
    simp only [broadcastInDim, constant, Ideal.ofBits_def, ofBits_zero] at e
    simpa only [constant, Ideal.ofBits_def] using e

end Cert.RowNorm

end
-- ==== Proof.Algebraic.lean ====
/-
  The two idealized programs compute the same result.

  Over the extended reals, from memories that agree on the input array x and the labels l and satisfy the precondition
  (every entry of x a real number, every row's sum of squares positive): the kernel's result is the total left by its
  second region divided by its count of valid triplets, and the total is the loss sum over all valid triplets of the
  distance matrix its first region computes from x; the reference's result is the same loss sum of its own distance
  matrix divided by its own count.  The two distance matrices are equal because each row's norm is a positive real, so
  x * (3 / n) = (3 * x) / n; the two counts are equal in 32-bit integers.
-/
import proofs.«181167_j73899207295321_2_alg».proof.Defs
import proofs.«181167_j73899207295321_2_alg».proof.Proof.KernelValue
import proofs.«181167_j73899207295321_2_alg».proof.Proof.TileSum
import proofs.«181167_j73899207295321_2_alg».proof.Proof.CountEq
import proofs.«181167_j73899207295321_2_alg».proof.Proof.DistEq
import proofs.«181167_j73899207295321_2_alg».proof.Proof.RefSum
import proofs.«181167_j73899207295321_2_alg».proof.Proof.RowsNonzero
import proofs.«181167_j73899207295321_2_alg».proof.Proof.Gen.KernelIdeal
import proofs.«181167_j73899207295321_2_alg».proof.Proof.Gen.ReferenceIdeal
import proofs.«181167_j73899207295321_2_alg».proof.Proof.Gen.ReferenceIdeal.Read
import proofs.«181167_j73899207295321_2_alg».proof.Proof.Gen.Pre_finite_inputs

set_option maxRecDepth 16384

noncomputable section

namespace Cert.Proof.Alg

open Idealize.ShloMosaic Idealize.ShloMosaic.ValueIdx Idealize.ShloMosaic.TcCoe Idealize.SL.Sem
open Cert.KernelIdeal.Whole Cert.KernelIdeal.Value

/-- The tile law, proved from the body's arithmetic. -/
theorem tile_law : Cert.KernelIdeal.Triplet.TileLaw := fun i x0 x1 x2 x3 x4 acc => Cert.Tile.tile_eq i x0 x1 x2 x3 x4 acc

/-- Under the precondition every entry of x is a real number and every row's sum of squares is positive. -/
theorem rows_of_pre (x : FVec Ideal Cert.KernelIdeal.S512x128 .f32) (l : IVec Cert.KernelIdeal.S512 32)
    (h : Cert.Pre_finite_inputs.fn (F := Ideal) x l = fun _ => 1#1) :
    (∀ i, x i ≠ ⊤ ∧ x i ≠ ⊥) ∧ ∀ r : Fin 512, (0 : EReal) < ∑ k : Fin 128, x (ix2 r k) * x (ix2 r k) := by
  obtain ⟨hr, hp⟩ := Cert.RowNorm.of_pre x l h
  refine ⟨hr, fun r => ?_⟩
  have e := hp (ix1 r)
  simp only [Host.reduceAdd, Ideal.hostReduceAdd_def] at e
  rw [Ideal.hostReduceAdd_single Cert.Pre_finite_inputs.Facts.reducesTo_S512x128_S512_d1 (by decide)] at e
  have e0 : (constant (F := Ideal) Cert.Pre_finite_inputs.S_ .f32 0x00000000#32) (Shape.Idx.first Cert.Pre_finite_inputs.Facts.h_S_) = 0 :=
    Ideal.ofBits_zero_f32
  rw [e0, zero_add] at e
  refine lt_of_lt_of_eq e (Finset.sum_congr rfl fun k _ => ?_)
  show (mulf x x) _ = _
  have hi : ((by decide : Cert.Pre_finite_inputs.S512x128.Reduces [1] Cert.Pre_finite_inputs.S512).lift (ix1 r) k) = ix2 r k :=
    funext fun a => Fin.ext (by match a with | ⟨0, _⟩ => rfl | ⟨1, _⟩ => rfl)
  rw [hi]
  rfl

/-- Two indices of shapes with one element have the same row-major position. -/
theorem pos_eq_of_one {s t : Shape} (hs : s.numel = 1) (ht : t.numel = 1) (i : s.Idx) (j : t.Idx) :
    (s.rowMajor i).val = (t.rowMajor j).val := by
  have h1 : (s.rowMajor i).val < 1 := lt_of_lt_of_eq (s.rowMajor i).isLt hs
  have h2 : (t.rowMajor j).val < 1 := lt_of_lt_of_eq (t.rowMajor j).isLt ht
  omega

section Kernel
open Cert.KernelIdeal Cert.KernelIdeal.Gen Cert.KernelIdeal.Triplet

variable (m : (ℓ : Loc nD τ sig) → Buf (Elt Ideal) ℓ) (ρ : Dev nD → PrngReg)

/-- The labels reach the host tail as launched. -/
theorem W3_labels (c : Dev nD) : W3 m ρ c (Proc.devRef .tc main_arg1) = m ((c : Thread nD τ).loc main_arg1) :=
  (W3_of_ne m ρ c main_arg1 (by decide)).trans
    ((StableHlo.after_of_writes_sub hostOps1 _ hostOps1_writes (by decide)).trans (W1_labels m ρ c))

/-- The kernel's result: the loss sum over all valid triplets divided by the kernel's count. -/
theorem kernel_result (c : Dev nD) (i : S1.Idx) :
    W4 m ρ c (Proc.devRef .tc main_v30) i
      = Ideal.div (Cert.Spec.lossSum (D m c) (lab m c)) (FloatOps.sitofp (F := Ideal) .f32 (Cert.Count.kernelCount (lOf m c) ix0)) := by
  rw [W4_result, W3_labels, W3_total, Finals.final_total]
  rw [shapeCast_apply _ _ i ix0 (pos_eq_of_one rfl rfl _ _)]
  show Ideal.div (shapeCast S_ (totalAt (V2 m ρ) c 127 Finals.last_lt) shapeCasts_S1x1_S_ ix0) _ = _
  rw [shapeCast_apply _ _ ix0 (ix2 0 0) (pos_eq_of_one rfl rfl _ _), total_last m ρ tile_law c]
  rfl

end Kernel

section Reference
open Cert.ReferenceIdeal Cert.ReferenceIdeal.Gen Cert.ReferenceIdeal.Read

variable (m' : (ℓ : Loc nD τ sig) → Buf (Elt Ideal) ℓ)

/-- The reference's count is the count of valid triplets as stated. -/
theorem ref_count (l : IVec S512 32) : val_main_v47 (F := Ideal) l = Cert.Count.refCount l := rfl

/-- The reference's result: the loss sum of its own distance matrix divided by its own count. -/
theorem ref_result (c : Dev nD) (i : S1.Idx) :
    Cert.ReferenceIdeal.Value.res_main_v52 m' c i
      = Ideal.div (Cert.Spec.lossSum (fun a b => val_main_v17 (F := Ideal) (m' ((c.tc : Thread nD τ).loc main_arg0)) (ix2 a b))
            (fun a => m' ((c.tc : Thread nD τ).loc main_arg1) (ix1 a)))
          (FloatOps.sitofp (F := Ideal) .f32 (Cert.Count.refCount (m' ((c.tc : Thread nD τ).loc main_arg1)) ix0)) := by
  rw [val_main_v52_eq]
  unfold val_main_v52
  rw [shapeCast_apply _ _ i ix0 (pos_eq_of_one rfl rfl _ _), val_main_v51_apply, val_main_v48_apply, Cert.RefSum.ref_sum, ref_count]
  rfl

end Reference

/-- THE CLAIM: from memories that agree on the arguments and satisfy the precondition, both idealized programs run to
    the end with equal results and unchanged arguments. -/
theorem algebraic : Cert.algebraic_KernelIdeal_ReferenceIdeal := by
  intro m ρ m' ρ' hpre hagree
  refine ⟨fun c => W4 m ρ c (Proc.devRef .tc Cert.KernelIdeal.main_v30), ?_, ?_⟩
  · exact (θ_run Cert.KernelIdeal.defs _ _).mono (fun r h c =>
      ⟨h c Cert.KernelIdeal.main_v30 (by decide),
       (h c Cert.KernelIdeal.main_arg0 (by decide)).trans (W4_main_arg0 m ρ c),
       (h c Cert.KernelIdeal.main_arg1 (by decide)).trans (W4_main_arg1 m ρ c)⟩) (run (F := Ideal) m ρ)
  · refine (θ_run Cert.ReferenceIdeal.defs _ _).mono (fun r h c => ⟨(h c).1.trans ?_, (h c).2⟩)
      (Cert.ReferenceIdeal.Value.run (F := Ideal) m' ρ')
    obtain ⟨hx, hl⟩ := hagree c
    obtain ⟨hreal, hpos⟩ := rows_of_pre _ _ (hpre c)
    funext i
    rw [ref_result m' c i]
    show _ = W4 m ρ c (Proc.devRef .tc Cert.KernelIdeal.main_v30) i
    rw [kernel_result m ρ c i, hx, hl]
    have hD : (fun a b => Cert.ReferenceIdeal.Read.val_main_v17 (F := Ideal) (m ((c.tc : Thread Cert.KernelIdeal.nD Cert.KernelIdeal.τ).loc Cert.KernelIdeal.main_arg0)) (ix2 a b))
        = D m c := by
      funext a b
      exact (congrFun (Cert.Dist.dist_eq _ hreal hpos) (ix2 a b)).symm
    rw [hD, ← Cert.Count.count_eq]

end Cert.Proof.Alg

end
-- ==== Proof.lean ====
/-
  The certificate of a triplet-loss kernel against its reference.

  The kernel has two on-chip regions around a little host code.  The first region rescales each row of the input
  x : f32[512, 128] to norm 3 and writes the 512 x 512 matrix D of clamped squared distances between the rescaled rows.
  The second region walks a 32 x 4 grid; at each point it adds to a 1 x 1 running total the sum, over a band of 16 rows i,
  all 512 columns j and a block of 128 columns k, of softplus (D i j - D i k) times two 0/1 factors saying that (i, j, k) is a
  valid triplet: i and j different rows with equal labels, k a row with a different label.  The host code divides the
  total by the number of valid triplets, counted row by row in 32-bit integers.  The reference computes the same matrix,
  the same softplus over all 512^3 triples at once, selects the valid ones, sums, and divides by their number counted
  one by one.

  The frames: each program runs to its end from any memory, nothing faulting, with x and the labels left as launched.
  For the kernel this is proved region by region, for the word-level and the idealized program alike: what each
  region's body leaves in its staging buffers at each grid point, the total's buffer by recursion over the points; the
  arrays the regions read and write taken out of the core's buffers and put back, the distance matrix and the label
  row each split in two half shares for the two windows that read them; then the four segments chained.

  The equality of the results holds over the extended reals under the precondition: every entry of x is a real number
  and every row's sum of squares is positive.  Without the second condition it fails: on a row of zeros the kernel
  computes 0 * (3 / 0) = 0 and the reference (3 * 0) / 0, which has no value.  Under it each row's norm n is a positive
  real and x * (3 / n) = (3 * x) / n, so the two distance matrices are equal; the kernel's total is the sum of its 128
  tile sums, which regrouped is the sum over all valid triplets, because sums can be regrouped freely and a factor that
  is 0 or 1 is a selector; and the two counts agree in the ring of 32-bit integers, where the sum over (j, k) of a product
  is the product of the sums.
-/
import proofs.«181167_j73899207295321_2_alg».proof.Defs
import proofs.«181167_j73899207295321_2_alg».proof.Proof.Gen.Kernel
import proofs.«181167_j73899207295321_2_alg».proof.Proof.Gen.Kernel.Skeleton
import proofs.«181167_j73899207295321_2_alg».proof.Proof.Gen.Kernel.Launch
import proofs.«181167_j73899207295321_2_alg».proof.Proof.Gen.Kernel.Regions
import proofs.«181167_j73899207295321_2_alg».proof.Proof.Gen.Kernel.Points
import proofs.«181167_j73899207295321_2_alg».proof.Proof.Gen.KernelIdeal
import proofs.«181167_j73899207295321_2_alg».proof.Proof.Gen.KernelIdeal.Skeleton
import proofs.«181167_j73899207295321_2_alg».proof.Proof.Gen.KernelIdeal.Launch
import proofs.«181167_j73899207295321_2_alg».proof.Proof.Gen.KernelIdeal.Regions
import proofs.«181167_j73899207295321_2_alg».proof.Proof.Gen.KernelIdeal.Points
import proofs.«181167_j73899207295321_2_alg».proof.Proof.Gen.ReferenceIdeal
import proofs.«181167_j73899207295321_2_alg».proof.Proof.Gen.ReferenceIdeal.Run
import proofs.«181167_j73899207295321_2_alg».proof.Proof.Gen.ReferenceIdeal.Read
import proofs.«181167_j73899207295321_2_alg».proof.Proof.Gen.Pre_finite_inputs
import proofs.«181167_j73899207295321_2_alg».proof.Proof.Run
import proofs.«181167_j73899207295321_2_alg».proof.Proof.Word.Run
import proofs.«181167_j73899207295321_2_alg».proof.Proof.Algebraic
import Idealize.ShloMosaic.Adequacy
import Idealize.ShloMosaic.Init

noncomputable section

namespace Cert.Proof

open Idealize.ShloMosaic Idealize.SL.Sem Cert.Kernel

/-- The reference has no kernel: its frame is its run (every weakly fair execution of its host operations ends, with each
    argument array as launched) with the result's value dropped. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote no operation of the kernel, so there is nothing to preserve. -/
theorem preserves : Cert.preserves_Kernel_KernelIdeal := trivial

theorem claim : Cert.Claim := ⟨Cert.Kernel.Gen.facts, Cert.KernelIdeal.Gen.facts, Cert.ReferenceIdeal.Gen.facts, Cert.Pre_finite_inputs.Gen.facts, by
  refine ⟨?frame_kernel, ?frame_kernel_ideal, frame_reference, preserves, ?algebraic⟩
  case frame_kernel => exact fun m ρ _ => Cert.Kernel.Whole.frame (F := Bits) m ρ
  case frame_kernel_ideal => exact fun m ρ _ => Cert.KernelIdeal.Whole.frame (F := Ideal) m ρ
  case algebraic => exact Cert.Proof.Alg.algebraic⟩

end Cert.Proof

end
